-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x128 : Shape := ⟨2, ![10000, 128]⟩
abbrev S1700000x128 : Shape := ⟨2, ![1700000, 128]⟩
abbrev S1x128 : Shape := ⟨2, ![1, 128]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S10000 : Shape := ⟨1, ![10000]⟩
abbrev S10000x1 : Shape := ⟨2, ![10000, 1]⟩

abbrev nBuf : Space → Nat
  | .hbm => 103
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S1700000x1, .f32⟩
  | .hbm, ⟨49, _⟩ => ⟨S100000x128, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x128, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x128, .f32⟩
  | .hbm, ⟨85, _⟩ => ⟨S100000x64, .f32⟩
  | .hbm, ⟨86, _⟩ => ⟨S_, .i32⟩
  | .hbm, ⟨87, _⟩ => ⟨S1700000, .i32⟩
  | .hbm, ⟨88, _⟩ => ⟨S1700000, .i1⟩
  | .hbm, ⟨89, _⟩ => ⟨S_, .i32⟩
  | .hbm, ⟨90, _⟩ => ⟨S1700000, .i32⟩
  | .hbm, ⟨91, _⟩ => ⟨S1700000, .i32⟩
  | .hbm, ⟨92, _⟩ => ⟨S1700000, .i32⟩
  | .hbm, ⟨93, _⟩ => ⟨S1700000x1, .i32⟩
  | .hbm, ⟨94, _⟩ => ⟨S1700000x64, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_c_12 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  reduces_S10000x64_S10000 : S10000x64.Reduces [1] S10000
  shapeCasts_S10000_S10000x1 : S10000.ShapeCasts S10000x1
  broadcasts_S10000x1_S10000x64 : S10000x1.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x128_S10000x128_1_0_0_1_n_n_wf : DotDims.WF S10000x128 S128x128 S10000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v73) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v74) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v75) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x64 : Shape := ⟨2, ![100000, 64]⟩
abbrev S1700000x64 : Shape := ⟨2, ![1700000, 64]⟩
abbrev S1x64 : Shape := ⟨2, ![1, 64]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x128, .f32⟩
  | 3 => ⟨S128, .f32⟩
  | 4 => ⟨S128x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x128, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x128, .f32⟩
  | 58 => ⟨S1700000x1, .f32⟩
  | 59 => ⟨S1700000x128, .f32⟩
  | 60 => ⟨S1700000x128, .f32⟩
  | 61 => ⟨S_, .f32⟩
  | 62 => ⟨S100000x128, .f32⟩
  | 63 => ⟨S1700000x1, .i32⟩
  | 64 => ⟨S100000x128, .f32⟩
  | 65 => ⟨S1x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S100000x128, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x128, .f32⟩
  | 81 => ⟨S1700000x1, .f32⟩
  | 82 => ⟨S1700000x128, .f32⟩
  | 83 => ⟨S1700000x128, .f32⟩
  | 84 => ⟨S_, .f32⟩
  | 85 => ⟨S100000x128, .f32⟩
  | 86 => ⟨S1700000x1, .i32⟩
  | 87 => ⟨S100000x128, .f32⟩
  | 88 => ⟨S1x128, .f32⟩
  | 89 => ⟨S100000x128, .f32⟩
  | 90 => ⟨S100000x128, .f32⟩
  | 91 => ⟨S_, .f32⟩
  | 92 => ⟨S100000x128, .f32⟩
  | 93 => ⟨S100000x128, .f32⟩
  | 94 => ⟨S100000x64, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x64, .f32⟩
  | 104 => ⟨S1700000x1, .f32⟩
  | 105 => ⟨S1700000x64, .f32⟩
  | 106 => ⟨S1700000x64, .f32⟩
  | 107 => ⟨S_, .f32⟩
  | 108 => ⟨S100000x64, .f32⟩
  | 109 => ⟨S1700000x1, .i32⟩
  | 110 => ⟨S100000x64, .f32⟩
  | 111 => ⟨S1x64, .f32⟩
  | 112 => ⟨S100000x64, .f32⟩
  | 113 => ⟨S100000x64, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x64, .f32⟩
  | 121 => ⟨S100000x64, .f32⟩
  | 122 => ⟨S100000x64, .f32⟩
  | 123 => ⟨S_, .f32⟩
  | 124 => ⟨S100000, .f32⟩
  | 125 => ⟨S100000x1, .f32⟩
  | 126 => ⟨S100000x1, .f32⟩
  | 127 => ⟨S100000x64, .f32⟩
  | _ => ⟨S100000x128, .f32⟩

abbrev hbmTy0_1 (i : Nat) : BufTy := match i % 128 with
  | 0 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S100000_d1 : S100000x64.ReducesTo [1] S100000
  h_S_ : 0 < S_.numel
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibPlainDot.lean ====
/-
  A plain matrix product read at an index.

  For the dimension numbers of an `M x K` by `K x N` product (contract the left operand's columns with the right
  operand's rows, no batch axis) the contraction index is one coordinate `k < K`, the left operand is read at
  `(row, k)` and the right at `(k, column)`. So at the ideal instance both the matrix unit's product into a zero
  accumulator and the host's `dot_general` are, at output index `(r, c)`, the sum over `k` of `l (r, k) * r (k, c)`.
-/
import Idealize.ShloMosaic.PureOps.Ideal.Laws
import Idealize.ShloMosaic.Lib.ValueIdx

noncomputable section

namespace Cert.Lib.PlainDot

open Idealize.ShloMosaic Idealize.ShloMosaic.ValueIdx

variable (M K N : ℕ)

theorem lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction sum of a plain product, over the contracted coordinate. -/
theorem sum_plain {α : Type*} [AddCommMonoid α] (f : (⟨2, ![M, K]⟩ : Shape).Idx → (⟨2, ![K, N]⟩ : Shape).Idx → α)
    (i : (⟨2, ![M, N]⟩ : Shape).Idx) :
    ∑ q : (DotDims.plain M K N).contr.Idx, f ((DotDims.plain M K N).lhsIdx i q) ((DotDims.plain M K N).rhsIdx i q)
      = ∑ k : Fin K, f (ix2 (i 0) k) (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs0 M K N _ _
      | ⟨1, _⟩ => exact ((DotDims.plain M K N).lhsIdx_val_of_single (cl := 1) rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single (cr := 0) rfl i _).trans hk
      | ⟨1, _⟩ => exact rhs1 M K N _ _)
  rw [el, er]
  rfl

/-- The matrix unit's product into a zero accumulator, at an index. -/
theorem matmul_zero_apply {φ₁ φ₂ : FTy} (prec : Option ContractPrecision)
    (l : FVec Ideal ⟨2, ![M, K]⟩ φ₁) (r : FVec Ideal ⟨2, ![K, N]⟩ φ₂) (i : (⟨2, ![M, N]⟩ : Shape).Idx) :
    FloatOps.matmul (DotDims.plain M K N) prec l r (constant ⟨2, ![M, N]⟩ .f32 0x00000000#32) i
      = ∑ k : Fin K, l (ix2 (i 0) k) * r (ix2 k (i 1)) := by
  rw [Ideal.matmul_constant_zero_apply]
  exact sum_plain M K N (fun a b => l a * r b) i

/-- The host's `dot_general`, at an index. -/
theorem dotGeneral_apply {φ₁ φ₂ : FTy} (prec : Option ContractPrecision) (sched : HostSchedule)
    (l : FVec Ideal ⟨2, ![M, K]⟩ φ₁) (r : FVec Ideal ⟨2, ![K, N]⟩ φ₂) (i : (⟨2, ![M, N]⟩ : Shape).Idx) :
    FloatOps.dotGeneral (DotDims.plain M K N) prec sched l r i
      = ∑ k : Fin K, l (ix2 (i 0) k) * r (ix2 k (i 1)) := by
  rw [Ideal.dotGeneral_apply]
  exact sum_plain M K N (fun a b => l a * r b) i

end Cert.Lib.PlainDot

end
-- ==== Proof.LibRowBlocks.lean ====
/-
  Row blocks of the layers of a row-wise network, read at an entry, at the ideal values and over arbitrary extents.

  A kernel that tiles the rows of an array computes each layer on a block of rows. For a matrix product the entry
  (p, q) of the block's product is the sum over k of x (row p, k) * w (k, q), which is the entry (row p, q) of the
  whole product: a row of a product depends on the same row of the left operand only. Rounding an operand to a
  narrower float format is the identity at the ideal values. For a bias the entry (p, q) of "block plus the one-row
  bias broadcast down the rows" is x (p, q) + b (0, q).
-/
import Idealize.ShloMosaic.PureOps.Ideal.Laws
import Idealize.ShloMosaic.Lib.ValueIdx
import Idealize.ShloMosaic.Lib.ValueLayout
import Idealize.ShloMosaic.Lib.Pipeline.Value
import proofs.«163187_j24257975287859_1_alg».proof.Proof.LibPlainDot

noncomputable section

namespace Cert.Lib.RowBlocks

open Idealize.ShloMosaic Idealize.ShloMosaic.ValueIdx

/-- The product of a block of rows (both operands first rounded to a narrower format, into a zero accumulator), at
    entry (p, q), is the whole product's entry (row p, q), when the block's row p is the array's row `row p`. -/
theorem matmul_rows_apply {B M K N : ℕ} {ψ : FTy} (h : ψ.bits < FTy.bits .f32)
    (x0 : FVec Ideal ⟨2, ![B, K]⟩ .f32) (x1 : FVec Ideal ⟨2, ![K, N]⟩ .f32) (X : FVec Ideal ⟨2, ![M, K]⟩ .f32)
    (W : FVec Ideal ⟨2, ![K, N]⟩ .f32) (row : Fin B → Fin M) (hx : ∀ p k, x0 (ix2 p k) = X (ix2 (row p) k))
    (hw : ∀ k q, x1 (ix2 k q) = W (ix2 k q)) (p : Fin B) (q : Fin N) :
    FloatOps.matmul (DotDims.plain B K N) none (truncf ψ x0 h) (truncf ψ x1 h)
        (constant ⟨2, ![B, N]⟩ .f32 0x00000000#32) (ix2 p q)
      = Host.dotGeneral (F := Ideal) (DotDims.plain M K N) none X W (ix2 (row p) q) := by
  rw [Cert.Lib.PlainDot.matmul_zero_apply]
  refine ((Cert.Lib.PlainDot.dotGeneral_apply M K N none .single X W (ix2 (row p) q)).trans ?_).symm
  refine Finset.sum_congr rfl fun k _ => ?_
  show X (ix2 (row p) k) * W (ix2 k q) = truncf ψ x0 h (ix2 p k) * truncf ψ x1 h (ix2 k q)
  rw [truncf_apply, truncf_apply, hx, hw]

/-- A block of rows plus a one-row bias broadcast down the rows, at entry (p, q). -/
theorem bias_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (p : Fin B) (q : Fin N) :
    addf (shapeCast ⟨2, ![B, N]⟩ x0 h0) (broadcastTo ⟨2, ![B, N]⟩ (shapeCast ⟨2, ![1, N]⟩ x1 h1) hb) (ix2 p q)
      = x0 (ix2 p q) + x1 (ix2 (0 : Fin 1) q) := by
  rw [addf_apply, shapeCast_self, shapeCast_self, broadcastTo_1b_ab_apply]

/-- The same followed by the maximum with a zero splat. -/
theorem bias_relu_rows_apply {B N : ℕ} (x0 : FVec Ideal ⟨2, ![B, N]⟩ .f32) (x1 : FVec Ideal ⟨2, ![1, N]⟩ .f32)
    (h0 : (⟨2, ![B, N]⟩ : Shape).ShapeCasts ⟨2, ![B, N]⟩) (h1 : (⟨2, ![1, N]⟩ : Shape).ShapeCasts ⟨2, ![1, N]⟩)
    (hb : (⟨2, ![1, N]⟩ : Shape).Broadcasts ⟨2, ![B, N]⟩) (z : Ideal .f32) (p : Fin B) (q : Fin N) :
    maximumf (addf (shapeCast ⟨2, ![B, N]⟩ x0 h0) (broadcastTo ⟨2, ![B, N]⟩ (shapeCast ⟨2, ![1, N]⟩ x1 h1) hb))
        (broadcast ⟨2, ![B, N]⟩ z) (ix2 p q)
      = max (x0 (ix2 p q) + x1 (ix2 (0 : Fin 1) q)) z := by
  rw [maximumf_apply, bias_rows_apply, broadcast_apply]

end Cert.Lib.RowBlocks

end
-- ==== Proof.Rows0.lean ====
/-
  Region 0 of the kernel's program multiplies a block of 10000 rows of its left operand by the whole weight, at
  each of the ten points of its grid, and writes the block of products back. Row p of block t is row 10000 t + p of
  the array, and a row of a product depends on the same row of the left operand only, so the ten blocks written back
  are the blocks of ONE array: the whole product. Rounding the operands to a narrower float format first is the
  identity at the ideal values.
-/
import proofs.«163187_j24257975287859_1_alg».proof.Proof.Gen.KernelIdeal.Frame
import proofs.«163187_j24257975287859_1_alg».proof.Proof.LibRowBlocks
import Idealize.ShloMosaic.Lib.Pipeline.Value
import Idealize.ShloMosaic.Lib.ValueIdx

noncomputable section

namespace Cert.KernelIdeal.Rows0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows sit at block row t, the weight's window at the origin. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem lt_ten (t : Fin cfg0.N) : t.val < 10 := lt_of_lt_of_eq t.isLt N_0

/-- Row p of block t is row 10000 t + p of the array. -/
def row (t : Fin cfg0.N) (p : Fin 10000) : Fin 100000 :=
  ⟨t.val * 10000 + p.val, by have := lt_ten t; have := p.isLt; omega⟩

/-- The whole product the region leaves. -/
abbrev product (X : FVec Ideal ⟨2, ![100000, 128]⟩ .f32) (W : FVec Ideal ⟨2, ![128, 128]⟩ .f32) :
    FVec Ideal ⟨2, ![100000, 128]⟩ .f32 :=
  Host.dotGeneral (F := Ideal) (DotDims.plain 100000 128 128) none X W

/-- The body's stored value at an entry is the whole product's entry at the block's row. -/
theorem pay_apply (x0 : Vec Ideal S10000x128 .f32) (x1 : Vec Ideal S128x128 .f32)
    (X : FVec Ideal ⟨2, ![100000, 128]⟩ .f32) (W : FVec Ideal ⟨2, ![128, 128]⟩ .f32) (r : Fin 10000 → Fin 100000)
    (hx : ∀ p k, x0 (ix2 p k) = X (ix2 (r p) k)) (hw : ∀ k q, x1 (ix2 k q) = W (ix2 k q)) (p : Fin 10000) (q : Fin 128) :
    k0_pay1 x0 x1 (ix2 p q) = product X W (ix2 (r p) q) := by
  unfold k0_pay1
  exact Cert.Lib.RowBlocks.matmul_rows_apply (by decide) x0 x1 X W r hx hw p q

/-- Row p of the left operand's block at point t is row 10000 t + p of its array. -/
theorem left_block (c : Dev nD) (t : Fin cfg0.N) (p : Fin 10000) (k : Fin 128) :
    iblk0 V c 0 t (ix2 p k) = V c main_arg0 (ix2 (row t p) k) := by
  obtain ⟨e0, e1, -, -, -, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 128 + 1 * k.val = k.val; omega

/-- The weight's block at every point is the whole weight. -/
theorem weight_block (c : Dev nD) (t : Fin cfg0.N) (k : Fin 128) (q : Fin 128) :
    iblk0 V c 1 t (ix2 k q) = V c main_arg2 (ix2 k q) := by
  obtain ⟨-, -, e2, e3, -, -⟩ := idx_facts t
  show V c main_arg2 (((cfg0.win 1).blk t).view.emb (ix2 k q)) = _
  refine congrArg (V c main_arg2) (funext fun a => Fin.ext ?_)
  match a with
  | ⟨0, _⟩ => show win0_1.index t (0 : Fin 2) * 128 + 1 * k.val = k.val; omega
  | ⟨1, _⟩ => show win0_1.index t (1 : Fin 2) * 128 + 1 * q.val = q.val; omega

/-- Entry (p, q) of the output's block at point t is entry (10000 t + p, q) of its array. -/
theorem out_block (t : Fin cfg0.N) (p : Fin 10000) (q : Fin 128) :
    ((cfg0.win 2).blk t).view.emb (ix2 p q) = (ix2 (row t p) q : S100000x128.Idx) := by
  obtain ⟨-, -, -, -, e4, e5⟩ := idx_facts t
  refine funext fun a => Fin.ext ?_
  match a with
  | ⟨0, _⟩ => show win0_2.index t (0 : Fin 2) * 10000 + 1 * p.val = t.val * 10000 + p.val; omega
  | ⟨1, _⟩ => show win0_2.index t (1 : Fin 2) * 128 + 1 * q.val = q.val; omega

/-- What point t writes back is block t of the whole product. -/
theorem flushed (c : Dev nD) (t : Fin cfg0.N) :
    (dat0 V c).flushed 2 t = ((cfg0.win 2).blk t).view.read (Elt Ideal) (product (V c main_arg0) (V c main_arg2)) := by
  show (cfg0.win 2).cut (grid0.coords t) ((dat0 V c).after 2 t) = _
  rw [after0_2]
  unfold out0_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  show k0_pay1 (iblk0 V c 0 t) (iblk0 V c 1 t) (ix2 p q)
    = product (V c main_arg0) (V c main_arg2) (((cfg0.win 2).blk t).view.emb (ix2 p q))
  rw [out_block t p q]
  exact pay_apply (iblk0 V c 0 t) (iblk0 V c 1 t) (V c main_arg0) (V c main_arg2) (row t)
    (fun p k => left_block V c t p k) (fun k q => weight_block V c t k q) p q

/-- An index of the output array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v31).slice (win0_2.rect t)).set ↔ _
  rw [View.set_slice_whole, Rect.mem_set_unit]
  exact Iff.rfl

/-- The ten blocks cover the array: row r is in the block of point r / 10000. -/
theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : (i 0).val / 10000 < cfg0.N := by rw [show cfg0.N = 10 from N_0]; omega
  obtain ⟨-, -, -, -, e4, e5⟩ := idx_facts ⟨(i 0).val / 10000, hN⟩
  refine ⟨⟨(i 0).val / 10000, hN⟩, flush0_2 _, ?_⟩
  rw [mem_blk]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 128 ≤ (i 1).val
      ∧ (i 1).val < win0_2.index ⟨(i 0).val / 10000, hN⟩ (1 : Fin 2) * 128 + 128
    rw [e5]; omega

/-- THE ARRAY the region leaves: the whole product of the two arrays it found. -/
theorem array (c : Dev nD) :
    (dat0 V c).arrAt 2 cfg0.N = product (V c main_arg0) (V c main_arg2) :=
  (dat0 V c).arrAt_eq_of_cover 2 _ (fun t _ => flushed V c t) cover

end Cert.KernelIdeal.Rows0

end
-- ==== Proof.GcnRows.lean ====
/-
  Row-wise layers at the ideal values, as whole arrays over arbitrary extents, each defined entry by entry.

  A graph-convolution network alternates an aggregation over edges (which mixes rows) with layers that act on each
  row by itself: a matrix product with a weight, a bias added to every row followed by the positive part, and, at
  the end, a bias followed by the logarithm of the softmax of the row. The last two are stated here. For a row w of
  width N with largest entry m, the log-softmax entry q is (w q - m) - log (sum over k of exp (w k - m)); the
  subtraction of m is part of the definition, since on the extended reals it cannot be cancelled.
-/
import Idealize.ShloMosaic.PureOps.Ideal.Laws
import Idealize.ShloMosaic.Lib.ValueIdx
import Idealize.ShloMosaic.Lib.Pipeline.Value

noncomputable section

namespace Cert.GcnRows

open Idealize.ShloMosaic Idealize.ShloMosaic.ValueIdx

variable {M N : ℕ}

/-- Entry (p, k) of the array `A` with the one-row bias `b` added to every row. -/
def biased (A : FVec Ideal ⟨2, ![M, N]⟩ .f32) (b : FVec Ideal ⟨2, ![1, N]⟩ .f32) (p : Fin M) (k : Fin N) : Ideal .f32 :=
  A (ix2 p k) + b (ix2 (0 : Fin 1) k)

/-- Every row of `A` plus the bias row, then the larger of each entry and `z` (the positive part when `z` is zero). -/
def biasMax (A : FVec Ideal ⟨2, ![M, N]⟩ .f32) (b : FVec Ideal ⟨2, ![1, N]⟩ .f32) (z : Ideal .f32) :
    FVec Ideal ⟨2, ![M, N]⟩ .f32 :=
  fun i => max (biased A b (i 0) (i 1)) z

theorem biasMax_apply (A : FVec Ideal ⟨2, ![M, N]⟩ .f32) (b : FVec Ideal ⟨2, ![1, N]⟩ .f32) (z : Ideal .f32)
    (p : Fin M) (q : Fin N) : biasMax A b z (ix2 p q) = max (A (ix2 p q) + b (ix2 (0 : Fin 1) q)) z := rfl

/-- The log-softmax of one row `w`, at entry `q`: with m the largest entry of the row (folded from `lo`),
    (w q - m) - log (sum over k of exp (w k - m)). -/
def lsmRow (w : Fin N → Ideal .f32) (lo : Ideal .f32) (q : Fin N) : Ideal .f32 :=
  (w q - (Finset.univ : Finset (Fin N)).fold max lo w)
    - Ideal.log (∑ k : Fin N, Ideal.exp (w k - (Finset.univ : Finset (Fin N)).fold max lo w))

/-- The log-softmax of every biased row. -/
def biasLogSoftmax (A : FVec Ideal ⟨2, ![M, N]⟩ .f32) (b : FVec Ideal ⟨2, ![1, N]⟩ .f32) (lo : Ideal .f32) :
    FVec Ideal ⟨2, ![M, N]⟩ .f32 :=
  fun i => lsmRow (biased A b (i 0)) lo (i 1)

theorem biasLogSoftmax_apply (A : FVec Ideal ⟨2, ![M, N]⟩ .f32) (b : FVec Ideal ⟨2, ![1, N]⟩ .f32) (lo : Ideal .f32)
    (p : Fin M) (q : Fin N) : biasLogSoftmax A b lo (ix2 p q) = lsmRow (biased A b p) lo q := rfl

/-- The word of minus infinity is the least extended real, so a maximum with it changes nothing. -/
theorem max_ninf (x : Ideal .f32) : max (Ideal.ofBits .f32 0xFF800000#32) x = x := by
  simp [Ideal.ofBits, Ideal.ieee]

end Cert.GcnRows

end
-- ==== Proof.Rows1.lean ====
/-
  Region 1 of the kernel's program adds the one-row bias to a block of 10000 rows of the aggregated messages and
  takes the positive part, at each of the ten points of its grid, and writes the block back. Row p of block t is row
  10000 t + p of the array and the layer acts entry by entry, so the ten blocks written back are the blocks of ONE
  array: the layer of the whole array.
-/
import proofs.«163187_j24257975287859_1_alg».proof.Proof.Gen.KernelIdeal.Frame
import proofs.«163187_j24257975287859_1_alg».proof.Proof.LibRowBlocks
import proofs.«163187_j24257975287859_1_alg».proof.Proof.GcnRows
import Idealize.ShloMosaic.Lib.Pipeline.Value
import Idealize.ShloMosaic.Lib.ValueIdx
import Idealize.ShloMosaic.Lib.ValueLayout

noncomputable section

namespace Cert.KernelIdeal.Rows1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows sit at block row t, the bias row's window at the origin. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_ten (t : Fin cfg1.N) : t.val < 10 := lt_of_lt_of_eq t.isLt N_1

/-- Row p of block t is row 10000 t + p of the array. -/
def row (t : Fin cfg1.N) (p : Fin 10000) : Fin 100000 :=
  ⟨t.val * 10000 + p.val, by have := lt_ten t; have := p.isLt; omega⟩

/-- Row p of the input's block at point t is row 10000 t + p of its array. -/
theorem left_block (c : Dev nD) (t : Fin cfg1.N) (p : Fin 10000) (k : Fin 128) :
    iblk1 V c 0 t (ix2 p k) = V c main_v43 (ix2 (row t p) k) := by
  obtain ⟨e0, e1, -, -, -, -⟩ := idx_facts t
  show V c main_v43 (((cfg1.win 0).blk t).view.emb (ix2 p k)) = _
  refine congrArg (V c main_v43) (funext fun a => Fin.ext ?_)
  match a with
  | ⟨0, _⟩ => show win1_0.index t (0 : Fin 2) * 10000 + 1 * p.val = t.val * 10000 + p.val; omega
  | ⟨1, _⟩ => show win1_0.index t (1 : Fin 2) * 128 + 1 * k.val = k.val; omega

/-- The bias row's block at every point is the whole row. -/
theorem bias_block (c : Dev nD) (t : Fin cfg1.N) (u : Fin 1) (q : Fin 128) :
    iblk1 V c 1 t (ix2 u q) = V c main_v44 (ix2 u q) := by
  obtain ⟨-, -, e2, e3, -, -⟩ := idx_facts t
  show V c main_v44 (((cfg1.win 1).blk t).view.emb (ix2 u q)) = _
  refine congrArg (V c main_v44) (funext fun a => Fin.ext ?_)
  match a with
  | ⟨0, _⟩ => show win1_1.index t (0 : Fin 2) * 1 + 1 * u.val = u.val; omega
  | ⟨1, _⟩ => show win1_1.index t (1 : Fin 2) * 128 + 1 * q.val = q.val; omega

/-- Entry (p, q) of the output's block at point t is entry (10000 t + p, q) of its array. -/
theorem out_block (t : Fin cfg1.N) (p : Fin 10000) (q : Fin 128) :
    ((cfg1.win 2).blk t).view.emb (ix2 p q) = (ix2 (row t p) q : S100000x128.Idx) := by
  obtain ⟨-, -, -, -, e4, e5⟩ := idx_facts t
  refine funext fun a => Fin.ext ?_
  match a with
  | ⟨0, _⟩ => show win1_2.index t (0 : Fin 2) * 10000 + 1 * p.val = t.val * 10000 + p.val; omega
  | ⟨1, _⟩ => show win1_2.index t (1 : Fin 2) * 128 + 1 * q.val = q.val; omega

/-- The layer the region leaves, of the arrays it found. -/
abbrev layer (A : FVec Ideal ⟨2, ![100000, 128]⟩ .f32) (b : FVec Ideal ⟨2, ![1, 128]⟩ .f32) :
    FVec Ideal ⟨2, ![100000, 128]⟩ .f32 :=
  Cert.GcnRows.biasMax A b (Ideal.ofBits .f32 0x00000000#32)

/-- The body's stored value at an entry: the block's entry plus the bias row's, or zero if that is larger. -/
theorem pay_apply (x0 : Vec Ideal S10000x128 .f32) (x1 : Vec Ideal S1x128 .f32) (p : Fin 10000) (q : Fin 128) :
    k1_pay1 x0 x1 (ix2 p q)
      = max (x0 (ix2 p q) + x1 (ix2 (0 : Fin 1) q)) (Ideal.ofBits .f32 0x00000000#32) := by
  unfold k1_pay1
  refine (Cert.Lib.RowBlocks.bias_relu_rows_apply x0 (shapeCast S1x128 x1 shapeCasts_S1x128_S1x128) _ _ _ _ p q).trans ?_
  rw [shapeCast_self]
  rfl

/-- What point t writes back is block t of the layer of the whole arrays. -/
theorem flushed (c : Dev nD) (t : Fin cfg1.N) :
    (dat1 V c).flushed 2 t = ((cfg1.win 2).blk t).view.read (Elt Ideal) (layer (V c main_v43) (V c main_v44)) := by
  show (cfg1.win 2).cut (grid1.coords t) ((dat1 V c).after 2 t) = _
  rw [after1_2]
  unfold out1_2
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = layer (V c main_v43) (V c main_v44) (((cfg1.win 2).blk t).view.emb (ix2 p q))
  rw [out_block t p q]
  refine (pay_apply (iblk1 V c 0 t) (iblk1 V c 1 t) p q).trans ?_
  rw [left_block V c t p q, bias_block V c t 0 q]
  rfl

/-- An index of the output array is in point t's block iff each coordinate is in the block's range on its axis. -/
theorem mem_blk (t : Fin cfg1.N) (i : S100000x128.Idx) :
    i ∈ ((cfg1.win 2).blk t).view.set ↔ ∀ a : Fin 2, win1_2.index t a * S10000x128.size a ≤ (i a).val
      ∧ (i a).val < win1_2.index t a * S10000x128.size a + S10000x128.size a := by
  show i ∈ ((View.whole main_v45).slice (win1_2.rect t)).set ↔ _
  rw [View.set_slice_whole, Rect.mem_set_unit]
  exact Iff.rfl

/-- The ten blocks cover the array: row r is in the block of point r / 10000. -/
theorem cover (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : (i 0).val / 10000 < cfg1.N := by rw [show cfg1.N = 10 from N_1]; omega
  obtain ⟨-, -, -, -, e4, e5⟩ := idx_facts ⟨(i 0).val / 10000, hN⟩
  refine ⟨⟨(i 0).val / 10000, hN⟩, flush1_2 _, ?_⟩
  rw [mem_blk]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, hN⟩ (1 : Fin 2) * 128 ≤ (i 1).val
      ∧ (i 1).val < win1_2.index ⟨(i 0).val / 10000, hN⟩ (1 : Fin 2) * 128 + 128
    rw [e5]; omega

/-- THE ARRAY the region leaves: the layer of the two arrays it found. -/
theorem array (c : Dev nD) :
    (dat1 V c).arrAt 2 cfg1.N = layer (V c main_v43) (V c main_v44) :=
  (dat1 V c).arrAt_eq_of_cover 2 _ (fun t _ => flushed V c t) cover

end Cert.KernelIdeal.Rows1

end
-- ==== Proof.Rows2.lean ====
/-
  Region 2 of the kernel's program multiplies a block of 10000 rows of its left operand by the whole weight, at
  each of the ten points of its grid, and writes the block of products back. Row p of block t is row 10000 t + p of
  the array, and a row of a product depends on the same row of the left operand only, so the ten blocks written back
  are the blocks of ONE array: the whole product. Rounding the operands to a narrower float format first is the
  identity at the ideal values.
-/
import proofs.«163187_j24257975287859_1_alg».proof.Proof.Gen.KernelIdeal.Frame
import proofs.«163187_j24257975287859_1_alg».proof.Proof.LibRowBlocks
import Idealize.ShloMosaic.Lib.Pipeline.Value
import Idealize.ShloMosaic.Lib.ValueIdx

noncomputable section

namespace Cert.KernelIdeal.Rows2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows sit at block row t, the weight's window at the origin. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

theorem lt_ten (t : Fin cfg2.N) : t.val < 10 := lt_of_lt_of_eq t.isLt N_2

/-- Row p of block t is row 10000 t + p of the array. -/
def row (t : Fin cfg2.N) (p : Fin 10000) : Fin 100000 :=
  ⟨t.val * 10000 + p.val, by have := lt_ten t; have := p.isLt; omega⟩

/-- The whole product the region leaves. -/
abbrev product (X : FVec Ideal ⟨2, ![100000, 128]⟩ .f32) (W : FVec Ideal ⟨2, ![128, 128]⟩ .f32) :
    FVec Ideal ⟨2, ![100000, 128]⟩ .f32 :=
  Host.dotGeneral (F := Ideal) (DotDims.plain 100000 128 128) none X W

/-- The body's stored value at an entry is the whole product's entry at the block's row. -/
theorem pay_apply (x0 : Vec Ideal S10000x128 .f32) (x1 : Vec Ideal S128x128 .f32)
    (X : FVec Ideal ⟨2, ![100000, 128]⟩ .f32) (W : FVec Ideal ⟨2, ![128, 128]⟩ .f32) (r : Fin 10000 → Fin 100000)
    (hx : ∀ p k, x0 (ix2 p k) = X (ix2 (r p) k)) (hw : ∀ k q, x1 (ix2 k q) = W (ix2 k q)) (p : Fin 10000) (q : Fin 128) :
    k2_pay1 x0 x1 (ix2 p q) = product X W (ix2 (r p) q) := by
  unfold k2_pay1
  rw [shapeCast_self]
  exact Cert.Lib.RowBlocks.matmul_rows_apply (by decide) x0 x1 X W r hx hw p q

/-- Row p of the left operand's block at point t is row 10000 t + p of its array. -/
theorem left_block (c : Dev nD) (t : Fin cfg2.N) (p : Fin 10000) (k : Fin 128) :
    iblk2 V c 0 t (ix2 p k) = V c main_v45 (ix2 (row t p) k) := by
  obtain ⟨e0, e1, -, -, -, -⟩ := idx_facts t
  show V c main_v45 (((cfg2.win 0).blk t).view.emb (ix2 p k)) = _
  refine congrArg (V c main_v45) (funext fun a => Fin.ext ?_)
  match a with
  | ⟨0, _⟩ => show win2_0.index t (0 : Fin 2) * 10000 + 1 * p.val = t.val * 10000 + p.val; omega
  | ⟨1, _⟩ => show win2_0.index t (1 : Fin 2) * 128 + 1 * k.val = k.val; omega

/-- The weight's block at every point is the whole weight. -/
theorem weight_block (c : Dev nD) (t : Fin cfg2.N) (k : Fin 128) (q : Fin 128) :
    iblk2 V c 1 t (ix2 k q) = V c main_arg4 (ix2 k q) := by
  obtain ⟨-, -, e2, e3, -, -⟩ := idx_facts t
  show V c main_arg4 (((cfg2.win 1).blk t).view.emb (ix2 k q)) = _
  refine congrArg (V c main_arg4) (funext fun a => Fin.ext ?_)
  match a with
  | ⟨0, _⟩ => show win2_1.index t (0 : Fin 2) * 128 + 1 * k.val = k.val; omega
  | ⟨1, _⟩ => show win2_1.index t (1 : Fin 2) * 128 + 1 * q.val = q.val; omega

/-- Entry (p, q) of the output's block at point t is entry (10000 t + p, q) of its array. -/
theorem out_block (t : Fin cfg2.N) (p : Fin 10000) (q : Fin 128) :
    ((cfg2.win 2).blk t).view.emb (ix2 p q) = (ix2 (row t p) q : S100000x128.Idx) := by
  obtain ⟨-, -, -, -, e4, e5⟩ := idx_facts t
  refine funext fun a => Fin.ext ?_
  match a with
  | ⟨0, _⟩ => show win2_2.index t (0 : Fin 2) * 10000 + 1 * p.val = t.val * 10000 + p.val; omega
  | ⟨1, _⟩ => show win2_2.index t (1 : Fin 2) * 128 + 1 * q.val = q.val; omega

/-- What point t writes back is block t of the whole product. -/
theorem flushed (c : Dev nD) (t : Fin cfg2.N) :
    (dat2 V c).flushed 2 t = ((cfg2.win 2).blk t).view.read (Elt Ideal) (product (V c main_v45) (V c main_arg4)) := by
  show (cfg2.win 2).cut (grid2.coords t) ((dat2 V c).after 2 t) = _
  rw [after2_2]
  unfold out2_2
  rw [View.canon_unit_zero hz]
  simp only [View.ld_unit_zero (S := S10000x128) hz, View.ld_unit_zero (S := S128x128) hz]
  funext j
  obtain ⟨p, q, rfl⟩ : ∃ (p : Fin 10000) (q : Fin 128), j = ix2 p q := ⟨j 0, j 1, eq_ix2 j⟩
  show k2_pay1 (iblk2 V c 0 t) (iblk2 V c 1 t) (ix2 p q)
    = product (V c main_v45) (V c main_arg4) (((cfg2.win 2).blk t).view.emb (ix2 p q))
  rw [out_block t p q]
  exact pay_apply (iblk2 V c 0 t) (iblk2 V c 1 t) (V c main_v45) (V c main_arg4) (row t)
    (fun p k => left_block V c t p k) (fun k q => weight_block V c t k q) p q

/-- An index of the output array is in point t's block iff each coordinate is in the block's range on its axis. -/
theorem mem_blk (t : Fin cfg2.N) (i : S100000x128.Idx) :
    i ∈ ((cfg2.win 2).blk t).view.set ↔ ∀ a : Fin 2, win2_2.index t a * S10000x128.size a ≤ (i a).val
      ∧ (i a).val < win2_2.index t a * S10000x128.size a + S10000x128.size a := by
  show i ∈ ((View.whole main_v46).slice (win2_2.rect t)).set ↔ _
  rw [View.set_slice_whole, Rect.mem_set_unit]
  exact Iff.rfl

/-- The ten blocks cover the array: row r is in the block of point r / 10000. -/
theorem cover (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : (i 0).val / 10000 < cfg2.N := by rw [show cfg2.N = 10 from N_2]; omega
  obtain ⟨-, -, -, -, e4, e5⟩ := idx_facts ⟨(i 0).val / 10000, hN⟩
  refine ⟨⟨(i 0).val / 10000, hN⟩, flush2_2 _, ?_⟩
  rw [mem_blk]
  intro a
  match a with
  | ⟨0, _⟩ =>
    show win2_2.index ⟨(i 0).val / 10000, hN⟩ (0 : Fin 2) * 10000 ≤ (i 0).val
      ∧ (i 0).val < win2_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win2_2.index ⟨(i 0).val / 10000, hN⟩ (1 : Fin 2) * 128 ≤ (i 1).val
      ∧ (i 1).val < win2_2.index ⟨(i 0).val / 10000, hN⟩ (1 : Fin 2) * 128 + 128
    rw [e5]; omega

/-- THE ARRAY the region leaves: the whole product of the two arrays it found. -/
theorem array (c : Dev nD) :
    (dat2 V c).arrAt 2 cfg2.N = product (V c main_v45) (V c main_arg4) :=
  (dat2 V c).arrAt_eq_of_cover 2 _ (fun t _ => flushed V c t) cover

end Cert.KernelIdeal.Rows2

end
-- ==== Proof.Rows3.lean ====
/-
  Region 3 of the kernel's program adds the one-row bias to a block of 10000 rows of the aggregated messages and
  takes the positive part, at each of the ten points of its grid, and writes the block back. Row p of block t is row
  10000 t + p of the array and the layer acts entry by entry, so the ten blocks written back are the blocks of ONE
  array: the layer of the whole array.
-/
import proofs.«163187_j24257975287859_1_alg».proof.Proof.Gen.KernelIdeal.Frame
import proofs.«163187_j24257975287859_1_alg».proof.Proof.LibRowBlocks
import proofs.«163187_j24257975287859_1_alg».proof.Proof.GcnRows
import Idealize.ShloMosaic.Lib.Pipeline.Value
import Idealize.ShloMosaic.Lib.ValueIdx
import Idealize.ShloMosaic.Lib.ValueLayout

noncomputable section

namespace Cert.KernelIdeal.Rows3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows sit at block row t, the bias row's window at the origin. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_ten (t : Fin cfg3.N) : t.val < 10 := lt_of_lt_of_eq t.isLt N_3

/-- Row p of block t is row 10000 t + p of the array. -/
def row (t : Fin cfg3.N) (p : Fin 10000) : Fin 100000 :=
  ⟨t.val * 10000 + p.val, by have := lt_ten t; have := p.isLt; omega⟩

/-- Row p of the input's block at point t is row 10000 t + p of its array. -/
theorem left_block (c : Dev nD) (t : Fin cfg3.N) (p : Fin 10000) (k : Fin 128) :
    iblk3 V c 0 t (ix2 p k) = V c main_v58 (ix2 (row t p) k) := by
  obtain ⟨e0, e1, -, -, -, -⟩ := idx_facts t
  show V c main_v58 (((cfg3.win 0).blk t).view.emb (ix2 p k)) = _
  refine congrArg (V c main_v58) (funext fun a => Fin.ext ?_)
  match a with
  | ⟨0, _⟩ => show win3_0.index t (0 : Fin 2) * 10000 + 1 * p.val = t.val * 10000 + p.val; omega
  | ⟨1, _⟩ => show win3_0.index t (1 : Fin 2) * 128 + 1 * k.val = k.val; omega

/-- The bias row's block at every point is the whole row. -/
theorem bias_block (c : Dev nD) (t : Fin cfg3.N) (u : Fin 1) (q : Fin 128) :
    iblk3 V c 1 t (ix2 u q) = V c main_v59 (ix2 u q) := by
  obtain ⟨-, -, e2, e3, -, -⟩ := idx_facts t
  show V c main_v59 (((cfg3.win 1).blk t).view.emb (ix2 u q)) = _
  refine congrArg (V c main_v59) (funext fun a => Fin.ext ?_)
  match a with
  | ⟨0, _⟩ => show win3_1.index t (0 : Fin 2) * 1 + 1 * u.val = u.val; omega
  | ⟨1, _⟩ => show win3_1.index t (1 : Fin 2) * 128 + 1 * q.val = q.val; omega

/-- Entry (p, q) of the output's block at point t is entry (10000 t + p, q) of its array. -/
theorem out_block (t : Fin cfg3.N) (p : Fin 10000) (q : Fin 128) :
    ((cfg3.win 2).blk t).view.emb (ix2 p q) = (ix2 (row t p) q : S100000x128.Idx) := by
  obtain ⟨-, -, -, -, e4, e5⟩ := idx_facts t
  refine funext fun a => Fin.ext ?_
  match a with
  | ⟨0, _⟩ => show win3_2.index t (0 : Fin 2) * 10000 + 1 * p.val = t.val * 10000 + p.val; omega
  | ⟨1, _⟩ => show win3_2.index t (1 : Fin 2) * 128 + 1 * q.val = q.val; omega

/-- The layer the region leaves, of the arrays it found. -/
abbrev layer (A : FVec Ideal ⟨2, ![100000, 128]⟩ .f32) (b : FVec Ideal ⟨2, ![1, 128]⟩ .f32) :
    FVec Ideal ⟨2, ![100000, 128]⟩ .f32 :=
  Cert.GcnRows.biasMax A b (Ideal.ofBits .f32 0x00000000#32)

/-- The body's stored value at an entry: the block's entry plus the bias row's, or zero if that is larger. -/
theorem pay_apply (x0 : Vec Ideal S10000x128 .f32) (x1 : Vec Ideal S1x128 .f32) (p : Fin 10000) (q : Fin 128) :
    k3_pay1 x0 x1 (ix2 p q)
      = max (x0 (ix2 p q) + x1 (ix2 (0 : Fin 1) q)) (Ideal.ofBits .f32 0x00000000#32) := by
  unfold k3_pay1
  refine (Cert.Lib.RowBlocks.bias_relu_rows_apply x0 (shapeCast S1x128 x1 shapeCasts_S1x128_S1x128) _ _ _ _ p q).trans ?_
  rw [shapeCast_self]
  rfl

/-- What point t writes back is block t of the layer of the whole arrays. -/
theorem flushed (c : Dev nD) (t : Fin cfg3.N) :
    (dat3 V c).flushed 2 t = ((cfg3.win 2).blk t).view.read (Elt Ideal) (layer (V c main_v58) (V c main_v59)) := by
  show (cfg3.win 2).cut (grid3.coords t) ((dat3 V c).after 2 t) = _
  rw [after3_2]
  unfold out3_2
  rw [View.canon_unit_zero hz]
  simp only [View.ld_unit_zero (S := S10000x128) hz, View.ld_unit_zero (S := S1x128) hz]
  funext j
  obtain ⟨p, q, rfl⟩ : ∃ (p : Fin 10000) (q : Fin 128), j = ix2 p q := ⟨j 0, j 1, eq_ix2 j⟩
  show k3_pay1 (iblk3 V c 0 t) (iblk3 V c 1 t) (ix2 p q)
    = layer (V c main_v58) (V c main_v59) (((cfg3.win 2).blk t).view.emb (ix2 p q))
  rw [out_block t p q]
  refine (pay_apply (iblk3 V c 0 t) (iblk3 V c 1 t) p q).trans ?_
  rw [left_block V c t p q, bias_block V c t 0 q]
  rfl

/-- An index of the output array is in point t's block iff each coordinate is in the block's range on its axis. -/
theorem mem_blk (t : Fin cfg3.N) (i : S100000x128.Idx) :
    i ∈ ((cfg3.win 2).blk t).view.set ↔ ∀ a : Fin 2, win3_2.index t a * S10000x128.size a ≤ (i a).val
      ∧ (i a).val < win3_2.index t a * S10000x128.size a + S10000x128.size a := by
  show i ∈ ((View.whole main_v60).slice (win3_2.rect t)).set ↔ _
  rw [View.set_slice_whole, Rect.mem_set_unit]
  exact Iff.rfl

/-- The ten blocks cover the array: row r is in the block of point r / 10000. -/
theorem cover (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : (i 0).val / 10000 < cfg3.N := by rw [show cfg3.N = 10 from N_3]; omega
  obtain ⟨-, -, -, -, e4, e5⟩ := idx_facts ⟨(i 0).val / 10000, hN⟩
  refine ⟨⟨(i 0).val / 10000, hN⟩, flush3_2 _, ?_⟩
  rw [mem_blk]
  intro a
  match a with
  | ⟨0, _⟩ =>
    show win3_2.index ⟨(i 0).val / 10000, hN⟩ (0 : Fin 2) * 10000 ≤ (i 0).val
      ∧ (i 0).val < win3_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win3_2.index ⟨(i 0).val / 10000, hN⟩ (1 : Fin 2) * 128 ≤ (i 1).val
      ∧ (i 1).val < win3_2.index ⟨(i 0).val / 10000, hN⟩ (1 : Fin 2) * 128 + 128
    rw [e5]; omega

/-- THE ARRAY the region leaves: the layer of the two arrays it found. -/
theorem array (c : Dev nD) :
    (dat3 V c).arrAt 2 cfg3.N = layer (V c main_v58) (V c main_v59) :=
  (dat3 V c).arrAt_eq_of_cover 2 _ (fun t _ => flushed V c t) cover

end Cert.KernelIdeal.Rows3

end
-- ==== Proof.Rows4.lean ====
/-
  Region 4 of the kernel's program multiplies a block of 10000 rows of its left operand by the whole weight, at
  each of the ten points of its grid, and writes the block of products back. Row p of block t is row 10000 t + p of
  the array, and a row of a product depends on the same row of the left operand only, so the ten blocks written back
  are the blocks of ONE array: the whole product. Rounding the operands to a narrower float format first is the
  identity at the ideal values.
-/
import proofs.«163187_j24257975287859_1_alg».proof.Proof.Gen.KernelIdeal.Frame
import proofs.«163187_j24257975287859_1_alg».proof.Proof.LibRowBlocks
import Idealize.ShloMosaic.Lib.Pipeline.Value
import Idealize.ShloMosaic.Lib.ValueIdx

noncomputable section

namespace Cert.KernelIdeal.Rows4

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows sit at block row t, the weight's window at the origin. -/
theorem idx_facts : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

theorem lt_ten (t : Fin cfg4.N) : t.val < 10 := lt_of_lt_of_eq t.isLt N_4

/-- Row p of block t is row 10000 t + p of the array. -/
def row (t : Fin cfg4.N) (p : Fin 10000) : Fin 100000 :=
  ⟨t.val * 10000 + p.val, by have := lt_ten t; have := p.isLt; omega⟩

/-- The whole product the region leaves. -/
abbrev product (X : FVec Ideal ⟨2, ![100000, 128]⟩ .f32) (W : FVec Ideal ⟨2, ![128, 64]⟩ .f32) :
    FVec Ideal ⟨2, ![100000, 64]⟩ .f32 :=
  Host.dotGeneral (F := Ideal) (DotDims.plain 100000 128 64) none X W

/-- The body's stored value at an entry is the whole product's entry at the block's row. -/
theorem pay_apply (x0 : Vec Ideal S10000x128 .f32) (x1 : Vec Ideal S128x64 .f32)
    (X : FVec Ideal ⟨2, ![100000, 128]⟩ .f32) (W : FVec Ideal ⟨2, ![128, 64]⟩ .f32) (r : Fin 10000 → Fin 100000)
    (hx : ∀ p k, x0 (ix2 p k) = X (ix2 (r p) k)) (hw : ∀ k q, x1 (ix2 k q) = W (ix2 k q)) (p : Fin 10000) (q : Fin 64) :
    k4_pay1 x0 x1 (ix2 p q) = product X W (ix2 (r p) q) := by
  unfold k4_pay1
  rw [shapeCast_self]
  exact Cert.Lib.RowBlocks.matmul_rows_apply (by decide) x0 x1 X W r hx hw p q

/-- Row p of the left operand's block at point t is row 10000 t + p of its array. -/
theorem left_block (c : Dev nD) (t : Fin cfg4.N) (p : Fin 10000) (k : Fin 128) :
    iblk4 V c 0 t (ix2 p k) = V c main_v60 (ix2 (row t p) k) := by
  obtain ⟨e0, e1, -, -, -, -⟩ := idx_facts t
  show V c main_v60 (((cfg4.win 0).blk t).view.emb (ix2 p k)) = _
  refine congrArg (V c main_v60) (funext fun a => Fin.ext ?_)
  match a with
  | ⟨0, _⟩ => show win4_0.index t (0 : Fin 2) * 10000 + 1 * p.val = t.val * 10000 + p.val; omega
  | ⟨1, _⟩ => show win4_0.index t (1 : Fin 2) * 128 + 1 * k.val = k.val; omega

/-- The weight's block at every point is the whole weight. -/
theorem weight_block (c : Dev nD) (t : Fin cfg4.N) (k : Fin 128) (q : Fin 64) :
    iblk4 V c 1 t (ix2 k q) = V c main_arg6 (ix2 k q) := by
  obtain ⟨-, -, e2, e3, -, -⟩ := idx_facts t
  show V c main_arg6 (((cfg4.win 1).blk t).view.emb (ix2 k q)) = _
  refine congrArg (V c main_arg6) (funext fun a => Fin.ext ?_)
  match a with
  | ⟨0, _⟩ => show win4_1.index t (0 : Fin 2) * 128 + 1 * k.val = k.val; omega
  | ⟨1, _⟩ => show win4_1.index t (1 : Fin 2) * 64 + 1 * q.val = q.val; omega

/-- Entry (p, q) of the output's block at point t is entry (10000 t + p, q) of its array. -/
theorem out_block (t : Fin cfg4.N) (p : Fin 10000) (q : Fin 64) :
    ((cfg4.win 2).blk t).view.emb (ix2 p q) = (ix2 (row t p) q : S100000x64.Idx) := by
  obtain ⟨-, -, -, -, e4, e5⟩ := idx_facts t
  refine funext fun a => Fin.ext ?_
  match a with
  | ⟨0, _⟩ => show win4_2.index t (0 : Fin 2) * 10000 + 1 * p.val = t.val * 10000 + p.val; omega
  | ⟨1, _⟩ => show win4_2.index t (1 : Fin 2) * 64 + 1 * q.val = q.val; omega

/-- What point t writes back is block t of the whole product. -/
theorem flushed (c : Dev nD) (t : Fin cfg4.N) :
    (dat4 V c).flushed 2 t = ((cfg4.win 2).blk t).view.read (Elt Ideal) (product (V c main_v60) (V c main_arg6)) := by
  show (cfg4.win 2).cut (grid4.coords t) ((dat4 V c).after 2 t) = _
  rw [after4_2]
  unfold out4_2
  rw [View.canon_unit_zero hz]
  simp only [View.ld_unit_zero (S := S10000x128) hz, View.ld_unit_zero (S := S128x64) hz]
  funext j
  obtain ⟨p, q, rfl⟩ : ∃ (p : Fin 10000) (q : Fin 64), j = ix2 p q := ⟨j 0, j 1, eq_ix2 j⟩
  show k4_pay1 (iblk4 V c 0 t) (iblk4 V c 1 t) (ix2 p q)
    = product (V c main_v60) (V c main_arg6) (((cfg4.win 2).blk t).view.emb (ix2 p q))
  rw [out_block t p q]
  exact pay_apply (iblk4 V c 0 t) (iblk4 V c 1 t) (V c main_v60) (V c main_arg6) (row t)
    (fun p k => left_block V c t p k) (fun k q => weight_block V c t k q) p q

/-- An index of the output array is in point t's block iff each coordinate is in the block's range on its axis. -/
theorem mem_blk (t : Fin cfg4.N) (i : S100000x64.Idx) :
    i ∈ ((cfg4.win 2).blk t).view.set ↔ ∀ a : Fin 2, win4_2.index t a * S10000x64.size a ≤ (i a).val
      ∧ (i a).val < win4_2.index t a * S10000x64.size a + S10000x64.size a := by
  show i ∈ ((View.whole main_v61).slice (win4_2.rect t)).set ↔ _
  rw [View.set_slice_whole, Rect.mem_set_unit]
  exact Iff.rfl

/-- The ten blocks cover the array: row r is in the block of point r / 10000. -/
theorem cover (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  have hN : (i 0).val / 10000 < cfg4.N := by rw [show cfg4.N = 10 from N_4]; omega
  obtain ⟨-, -, -, -, e4, e5⟩ := idx_facts ⟨(i 0).val / 10000, hN⟩
  refine ⟨⟨(i 0).val / 10000, hN⟩, flush4_2 _, ?_⟩
  rw [mem_blk]
  intro a
  match a with
  | ⟨0, _⟩ =>
    show win4_2.index ⟨(i 0).val / 10000, hN⟩ (0 : Fin 2) * 10000 ≤ (i 0).val
      ∧ (i 0).val < win4_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win4_2.index ⟨(i 0).val / 10000, hN⟩ (1 : Fin 2) * 64 ≤ (i 1).val
      ∧ (i 1).val < win4_2.index ⟨(i 0).val / 10000, hN⟩ (1 : Fin 2) * 64 + 64
    rw [e5]; omega

/-- THE ARRAY the region leaves: the whole product of the two arrays it found. -/
theorem array (c : Dev nD) :
    (dat4 V c).arrAt 2 cfg4.N = product (V c main_v60) (V c main_arg6) :=
  (dat4 V c).arrAt_eq_of_cover 2 _ (fun t _ => flushed V c t) cover

end Cert.KernelIdeal.Rows4

end
-- ==== Proof.LibRowReads.lean ====
/-
  Reductions along the LAST axis of a matrix, read at an index given by coordinates, over arbitrary extents and at the
  ideal values; and one layout read:
  • a `[1, 1, a]` array cast to `[a]`;
  • a `vector.multi_reduction` over axis 1 of an `[a, b]` matrix, at row `p`: for `add` the sum along the row, for
    `maximumf` the fold of `max` along the row from the accumulator's value.
  The column forms (axis 0) are in LibColumnReads; these are the row forms.
-/
import Idealize.ShloMosaic.Lib.ValueIdx
import Idealize.ShloMosaic.Lib.ValueLayout
import Idealize.ShloMosaic.Lib.Pipeline.Value
import Idealize.ShloMosaic.PureOps.Ideal.Laws

namespace Cert.LibRowReads

open Idealize.ShloMosaic Idealize.ShloMosaic.ValueIdx

variable {α : Type}

/-- A `[1, 1, a]` array cast to `[a]` reads, at `i`, the operand at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    rw [Nat.zero_mul, Nat.zero_add])

/-- Row `p` of an `[a, b]` matrix with column `k` put back is `(p, k)`. -/
theorem lift_row {a b : ℕ} (h : (⟨2, ![a, b]⟩ : Shape).Reduces [1] (⟨1, ![a]⟩ : Shape)) (p : Fin a) (k : Fin b) :
    h.lift (ix1 p) k = ix2 p k := by
  funext c; apply Fin.ext
  fin_cases c <;> rfl

/-- A float sum along the rows' entries of an `[a, b]` matrix, at row `p`, is the sum of that row. -/
theorem rowSum_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction (F := Ideal) .add [1] ⟨1, ![a]⟩ v acc h hφ hacc (ix1 p) = ∑ k : Fin b, v (ix2 p k) := by
  rw [Ideal.multiReduction_add_single]
  exact Finset.sum_congr rfl fun k _ => congrArg v (lift_row h p k)

/-- A float maximum along a row of an `[a, b]` matrix, at row `p`, is the fold of `max` along that row from the
    accumulator's value. -/
theorem rowMax_apply {φ : FTy} {a b : ℕ} (v : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction (F := Ideal) .maximumf [1] ⟨1, ![a]⟩ v acc h hφ hacc (ix1 p)
      = (Finset.univ : Finset (Fin b)).fold max (Ideal.ofBits φ acc) (fun k => v (ix2 p k)) := by
  rw [Ideal.multiReduction_maximumf_single]
  exact congrArg (fun f => Finset.fold max (Ideal.ofBits φ acc) f (Finset.univ : Finset (Fin b)))
    (funext fun k => congrArg v (lift_row h p k))

end Cert.LibRowReads
-- ==== Proof.LibColumnReads.lean ====
/-
  Layout operations and reductions along the FIRST axis of a matrix, read at an index given by coordinates, over
  arbitrary extents and (for the reductions) at the ideal values:
  • a vector [a] cast to a column [a, 1], and a column [a, 1] broadcast to [a, b];
  • a `vector.multi_reduction` over axis 0 of an [a, b] matrix, at column `t`: for `add` the sum over the rows, for
    `maximumf` the fold of `max` over the rows from the accumulator's value;
  • the host's one-operand reduce with a maximum body over the MIDDLE axis of an [a, n, b] array, at (p, q): the fold of
    `max` over that axis from the initial value.
  The row forms ([a] to [1, a], [1, b] to [a, b]) are the library's (Lib/ValueLayout.lean); these are the column forms.
-/
import Idealize.ShloMosaic.Lib.ValueIdx
import Idealize.ShloMosaic.Lib.ValueLayout
import Idealize.ShloMosaic.Lib.Pipeline.Value
import Idealize.ShloMosaic.PureOps.Ideal.Laws

namespace Cert.LibColumnReads

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `t` of an `[a, b]` matrix with row `k` put back is `(k, t)`. -/
theorem lift_ix1 {a b : ℕ} (h : (⟨2, ![a, b]⟩ : Shape).Reduces [0] (⟨1, ![b]⟩ : Shape)) (t : Fin b) (k : Fin a) :
    h.lift (ix1 t) k = ix2 k t := by
  funext c; apply Fin.ext
  fin_cases c <;> rfl

/-- A float sum over the rows of an `[a, b]` matrix, at column `t`, is the sum of that column. -/
theorem colSum_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.add.neutral φ hφ)
    (t : Fin b) :
    multiReduction (F := Ideal) .add [0] ⟨1, ![b]⟩ v acc h hφ hacc (ix1 t) = ∑ k : Fin a, v (ix2 k t) := by
  rw [Ideal.multiReduction_add_single]
  exact Finset.sum_congr rfl fun k _ => congrArg v (lift_ix1 h t k)

/-- A float maximum over the rows of an `[a, b]` matrix, at column `t`, is the fold of `max` down that column from the
    accumulator's value. -/
theorem colMax_apply {φ : FTy} {a b : ℕ} (v : FVec Ideal ⟨2, ![a, b]⟩ φ) (acc : BitVec φ.bits)
    (h : (⟨2, ![a, b]⟩ : Shape).Reduces [0] (⟨1, ![b]⟩ : Shape)) (hφ : FKind.Formats φ) (hacc : acc = FKind.maximumf.neutral φ hφ)
    (t : Fin b) :
    multiReduction (F := Ideal) .maximumf [0] ⟨1, ![b]⟩ v acc h hφ hacc (ix1 t)
      = (Finset.univ : Finset (Fin a)).fold max (Ideal.ofBits φ acc) (fun k => v (ix2 k t)) := by
  rw [Ideal.multiReduction_maximumf_single]
  exact congrArg (fun f => Finset.fold max (Ideal.ofBits φ acc) f (Finset.univ : Finset (Fin a)))
    (funext fun k => congrArg v (lift_ix1 h t k))

/-- Position `(p, q)` of an `[a, n, b]` array with middle coordinate `k` put back is `(p, k, q)`. -/
theorem lift_mid {a n b : ℕ} (h : (⟨3, ![a, n, b]⟩ : Shape).Reduces [1] (⟨2, ![a, b]⟩ : Shape)) (p : Fin a) (q : Fin b)
    (k : Fin n) : h.lift (ix2 p q) k = ix3 p k q := by
  funext c; apply Fin.ext
  fin_cases c <;> rfl

/-- The host's reduce with a maximum body over the middle axis of an `[a, n, b]` array, at `(p, q)`, is the fold of
    `max` over that axis from the initial value. -/
theorem hostMidMax_apply {φ : FTy} {a n b : ℕ} {u : Shape} (x : FVec Ideal ⟨3, ![a, n, b]⟩ φ) (init : FVec Ideal u φ)
    (h' : (⟨3, ![a, n, b]⟩ : Shape).ReducesTo [1] (⟨2, ![a, b]⟩ : Shape))
    (h : (⟨3, ![a, n, b]⟩ : Shape).Reduces [1] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p k q)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_mid h p q k))

end Cert.LibColumnReads
-- ==== Proof.Rows5.lean ====
/-
  Region 5 of the kernel's program adds the one-row bias to a block of 10000 rows of the aggregated messages and takes
  the log-softmax of each row: with m the row's largest entry, (w q - m) - log (sum over k of exp (w k - m)). It does so
  at each of the ten points of its grid and writes the block back. Row p of block t is row 10000 t + p of the array and
  the layer acts on each row by itself, so the ten blocks written back are the blocks of ONE array: the layer of the
  whole array.
-/
import proofs.«163187_j24257975287859_1_alg».proof.Proof.Gen.KernelIdeal.Frame
import proofs.«163187_j24257975287859_1_alg».proof.Proof.LibRowBlocks
import proofs.«163187_j24257975287859_1_alg».proof.Proof.LibRowReads
import proofs.«163187_j24257975287859_1_alg».proof.Proof.LibColumnReads
import proofs.«163187_j24257975287859_1_alg».proof.Proof.GcnRows
import Idealize.ShloMosaic.Lib.Pipeline.Value
import Idealize.ShloMosaic.Lib.ValueIdx
import Idealize.ShloMosaic.Lib.ValueLayout

noncomputable section

namespace Cert.KernelIdeal.Rows5

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The printed block index maps over the grid: the row windows sit at block row t, the bias row's window at the origin. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

theorem lt_ten (t : Fin cfg5.N) : t.val < 10 := lt_of_lt_of_eq t.isLt N_5

/-- Row p of block t is row 10000 t + p of the array. -/
def row (t : Fin cfg5.N) (p : Fin 10000) : Fin 100000 :=
  ⟨t.val * 10000 + p.val, by have := lt_ten t; have := p.isLt; omega⟩

/-- Row p of the input's block at point t is row 10000 t + p of its array. -/
theorem left_block (c : Dev nD) (t : Fin cfg5.N) (p : Fin 10000) (k : Fin 64) :
    iblk5 V c 0 t (ix2 p k) = V c main_v73 (ix2 (row t p) k) := by
  obtain ⟨e0, e1, -, -, -, -⟩ := idx_facts t
  show V c main_v73 (((cfg5.win 0).blk t).view.emb (ix2 p k)) = _
  refine congrArg (V c main_v73) (funext fun a => Fin.ext ?_)
  match a with
  | ⟨0, _⟩ => show win5_0.index t (0 : Fin 2) * 10000 + 1 * p.val = t.val * 10000 + p.val; omega
  | ⟨1, _⟩ => show win5_0.index t (1 : Fin 2) * 64 + 1 * k.val = k.val; omega

/-- The bias row's block at every point is the whole row. -/
theorem bias_block (c : Dev nD) (t : Fin cfg5.N) (u : Fin 1) (q : Fin 64) :
    iblk5 V c 1 t (ix2 u q) = V c main_v74 (ix2 u q) := by
  obtain ⟨-, -, e2, e3, -, -⟩ := idx_facts t
  show V c main_v74 (((cfg5.win 1).blk t).view.emb (ix2 u q)) = _
  refine congrArg (V c main_v74) (funext fun a => Fin.ext ?_)
  match a with
  | ⟨0, _⟩ => show win5_1.index t (0 : Fin 2) * 1 + 1 * u.val = u.val; omega
  | ⟨1, _⟩ => show win5_1.index t (1 : Fin 2) * 64 + 1 * q.val = q.val; omega

/-- Entry (p, q) of the output's block at point t is entry (10000 t + p, q) of its array. -/
theorem out_block (t : Fin cfg5.N) (p : Fin 10000) (q : Fin 64) :
    ((cfg5.win 2).blk t).view.emb (ix2 p q) = (ix2 (row t p) q : S100000x64.Idx) := by
  obtain ⟨-, -, -, -, e4, e5⟩ := idx_facts t
  refine funext fun a => Fin.ext ?_
  match a with
  | ⟨0, _⟩ => show win5_2.index t (0 : Fin 2) * 10000 + 1 * p.val = t.val * 10000 + p.val; omega
  | ⟨1, _⟩ => show win5_2.index t (1 : Fin 2) * 64 + 1 * q.val = q.val; omega

/-- The layer the region leaves, of the arrays it found. -/
abbrev layer (A : FVec Ideal ⟨2, ![100000, 64]⟩ .f32) (b : FVec Ideal ⟨2, ![1, 64]⟩ .f32) :
    FVec Ideal ⟨2, ![100000, 64]⟩ .f32 :=
  Cert.GcnRows.biasLogSoftmax A b (Ideal.ofBits .f32 0xFF800000#32)

/-- The vector unit's log-softmax of the rows of a block `v` (row maximum from minus infinity, shifted, exponentiated,
    summed from zero, logarithm, shifted again), at entry (p, q), is the log-softmax of row p at q. -/
theorem lsm_apply (v : FVec Ideal S10000x64 .f32) (p : Fin 10000) (q : Fin 64) :
    subf (subf v (broadcastTo S10000x64 (shapeCast S10000x1
          (multiReduction .maximumf [1] S10000 v 0xFF800000#32 reduces_S10000x64_S10000 (.inl rfl) rfl)
          shapeCasts_S10000_S10000x1) broadcasts_S10000x1_S10000x64))
        (broadcastTo S10000x64 (log (shapeCast S10000x1
          (multiReduction .add [1] S10000
            (exp (subf v (broadcastTo S10000x64 (shapeCast S10000x1
              (multiReduction .maximumf [1] S10000 v 0xFF800000#32 reduces_S10000x64_S10000 (.inl rfl) rfl)
              shapeCasts_S10000_S10000x1) broadcasts_S10000x1_S10000x64)))
            0x00000000#32 reduces_S10000x64_S10000 (.inl rfl) rfl)
          shapeCasts_S10000_S10000x1)) broadcasts_S10000x1_S10000x64) (ix2 p q)
      = Cert.GcnRows.lsmRow (fun k => v (ix2 p k)) (Ideal.ofBits .f32 0xFF800000#32) q := by
  have hshift : ∀ k : Fin 64, subf v (broadcastTo S10000x64 (shapeCast S10000x1
          (multiReduction .maximumf [1] S10000 v 0xFF800000#32 reduces_S10000x64_S10000 (.inl rfl) rfl)
          shapeCasts_S10000_S10000x1) broadcasts_S10000x1_S10000x64) (ix2 p k)
      = v (ix2 p k) - (Finset.univ : Finset (Fin 64)).fold max (Ideal.ofBits .f32 0xFF800000#32) (fun k => v (ix2 p k)) :=
    fun k => by
      rw [subf_apply, Cert.LibColumnReads.broadcastTo_a1_ab_apply, Cert.LibColumnReads.shapeCast_a_a1_apply]
      exact congrArg (fun s => v (ix2 p k) - s)
        (Cert.LibRowReads.rowMax_apply (a := 10000) (b := 64) v 0xFF800000#32 reduces_S10000x64_S10000 (.inl rfl) rfl p)
  rw [subf_apply, hshift q, Cert.LibColumnReads.broadcastTo_a1_ab_apply]
  show _ - Ideal.log (shapeCast S10000x1 _ shapeCasts_S10000_S10000x1 (ix2 p (0 : Fin 1))) = _
  rw [Cert.LibColumnReads.shapeCast_a_a1_apply]
  refine (congrArg (fun s => _ - Ideal.log s)
    (Cert.LibRowReads.rowSum_apply (a := 10000) (b := 64) _ 0x00000000#32 reduces_S10000x64_S10000 (.inl rfl) rfl p)).trans ?_
  unfold Cert.GcnRows.lsmRow
  refine congrArg (fun s => _ - Ideal.log s) (Finset.sum_congr rfl fun k _ => ?_)
  show Ideal.exp (subf v _ (ix2 p k)) = _
  rw [hshift k]

/-- The body's stored value at an entry: the log-softmax of the block's row plus the bias row. -/
theorem pay_apply (x0 : Vec Ideal S10000x64 .f32) (x1 : Vec Ideal S1x64 .f32) (p : Fin 10000) (q : Fin 64) :
    k5_pay1 x0 x1 (ix2 p q)
      = Cert.GcnRows.lsmRow (fun k => x0 (ix2 p k) + x1 (ix2 (0 : Fin 1) k)) (Ideal.ofBits .f32 0xFF800000#32) q := by
  unfold k5_pay1
  refine (lsm_apply _ p q).trans ?_
  refine congrArg (fun w => Cert.GcnRows.lsmRow w (Ideal.ofBits .f32 0xFF800000#32) q) (funext fun k => ?_)
  refine (Cert.Lib.RowBlocks.bias_rows_apply x0 (shapeCast S1x64 x1 shapeCasts_S1x64_S1x64) _ _ _ p k).trans ?_
  rw [shapeCast_self]

/-- What point t writes back is block t of the layer of the whole arrays. -/
theorem flushed (c : Dev nD) (t : Fin cfg5.N) :
    (dat5 V c).flushed 2 t = ((cfg5.win 2).blk t).view.read (Elt Ideal) (layer (V c main_v73) (V c main_v74)) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  funext j
  obtain ⟨p, q, rfl⟩ : ∃ (p : Fin 10000) (q : Fin 64), j = ix2 p q := ⟨j 0, j 1, eq_ix2 j⟩
  show k5_pay1 (iblk5 V c 0 t) (iblk5 V c 1 t) (ix2 p q)
    = layer (V c main_v73) (V c main_v74) (((cfg5.win 2).blk t).view.emb (ix2 p q))
  rw [out_block t p q]
  refine (pay_apply (iblk5 V c 0 t) (iblk5 V c 1 t) p q).trans ?_
  refine congrArg (fun w => Cert.GcnRows.lsmRow w (Ideal.ofBits .f32 0xFF800000#32) q) (funext fun k => ?_)
  rw [left_block V c t p k, bias_block V c t 0 k]
  rfl

/-- An index of the output array is in point t's block iff each coordinate is in the block's range on its axis. -/
theorem mem_blk (t : Fin cfg5.N) (i : S100000x64.Idx) :
    i ∈ ((cfg5.win 2).blk t).view.set ↔ ∀ a : Fin 2, win5_2.index t a * S10000x64.size a ≤ (i a).val
      ∧ (i a).val < win5_2.index t a * S10000x64.size a + S10000x64.size a := by
  show i ∈ ((View.whole main_v75).slice (win5_2.rect t)).set ↔ _
  rw [View.set_slice_whole, Rect.mem_set_unit]
  exact Iff.rfl

/-- The ten blocks cover the array: row r is in the block of point r / 10000. -/
theorem cover (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  have hN : (i 0).val / 10000 < cfg5.N := by rw [show cfg5.N = 10 from N_5]; omega
  obtain ⟨-, -, -, -, e4, e5⟩ := idx_facts ⟨(i 0).val / 10000, hN⟩
  refine ⟨⟨(i 0).val / 10000, hN⟩, flush5_2 _, ?_⟩
  rw [mem_blk]
  intro a
  match a with
  | ⟨0, _⟩ =>
    show win5_2.index ⟨(i 0).val / 10000, hN⟩ (0 : Fin 2) * 10000 ≤ (i 0).val
      ∧ (i 0).val < win5_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win5_2.index ⟨(i 0).val / 10000, hN⟩ (1 : Fin 2) * 64 ≤ (i 1).val
      ∧ (i 1).val < win5_2.index ⟨(i 0).val / 10000, hN⟩ (1 : Fin 2) * 64 + 64
    rw [e5]; omega

/-- THE ARRAY the region leaves: the layer of the two arrays it found. -/
theorem array (c : Dev nD) :
    (dat5 V c).arrAt 2 cfg5.N = layer (V c main_v73) (V c main_v74) :=
  (dat5 V c).arrAt_eq_of_cover 2 _ (fun t _ => flushed V c t) cover

end Cert.KernelIdeal.Rows5

end
-- ==== Proof.LibEdgeReads.lean ====
/-
  HOST LAYOUT OPERATIONS OF A PER-ROW COMPUTATION, READ AT AN INDEX, over arbitrary extents (nothing here mentions a
  program):

  * an `[a]` vector made an `[a, 1]` column by `broadcast_in_dim` along axis 0 reads, at `(e, u)`, the vector at `e`;
  * an `[a, 1]` column broadcast to `[a, b]` by `broadcast_in_dim` along axes 0 and 1 reads, at `(e, c)`, the column at
    `(e, 0)`;
  * column `k` of an `[a, b]` matrix, sliced out as `[a, 1]` and cast to `[a]`, reads, at `e`, the matrix at `(e, k)`;
  * the host's float sum over the second axis of an `[n, 3]` matrix reads, at `e`, the initial value plus the three
    entries of row `e`, added left to right.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.Lib.EdgeReads

open Idealize.ShloMosaic Idealize.ShloMosaic.ValueIdx

variable {α : Type}

/-- A vector made a column: at `(e, u)` the vector at `e`. -/
theorem column_of_vector_apply {a : ℕ} (x : (⟨1, ![a]⟩ : Shape).Idx → α)
    (h : (⟨1, ![a]⟩ : Shape).BroadcastsInDim ⟨2, ![a, 1]⟩ ![0]) (e : Fin a) (u : Fin 1) :
    broadcastInDim ⟨2, ![a, 1]⟩ ![0] h x (ix2 e u) = x (ix1 e) :=
  broadcastInDim_apply _ h x _ _ fun d => by
    match d with
    | ⟨0, _⟩ =>
      show e.val = if a = 1 then 0 else e.val
      split
      · have := e.isLt; omega
      · rfl

/-- A column broadcast along the rows: at `(e, c)` the column at `(e, 0)`. -/
theorem column_broadcast_apply {a b : ℕ} (x : (⟨2, ![a, 1]⟩ : Shape).Idx → α)
    (h : (⟨2, ![a, 1]⟩ : Shape).BroadcastsInDim ⟨2, ![a, b]⟩ ![0, 1]) (e : Fin a) (c : Fin b) :
    broadcastInDim ⟨2, ![a, b]⟩ ![0, 1] h x (ix2 e c) = x (ix2 e (0 : Fin 1)) :=
  broadcastInDim_apply _ h x _ _ fun d => by
    match d with
    | ⟨0, _⟩ =>
      show e.val = if a = 1 then 0 else e.val
      split
      · have := e.isLt; omega
      · rfl
    | ⟨1, _⟩ =>
      show (0 : ℕ) = if (1 : ℕ) = 1 then 0 else c.val
      rw [if_pos rfl]

/-- Column `k` of a matrix as a vector: at `e` the matrix at `(e, k)`. -/
theorem column_slice_apply {a b : ℕ} (k : ℕ) (hk : k < b) (X : (⟨2, ![a, b]⟩ : Shape).Idx → α)
    (hs : (⟨2, ![a, b]⟩ : Shape).Slices ![0, k] ⟨2, ![a, 1]⟩)
    (hc : (⟨2, ![a, 1]⟩ : Shape).ShapeCasts ⟨1, ![a]⟩) (e : Fin a) :
    shapeCast ⟨1, ![a]⟩ (extractStridedSlice ⟨2, ![a, 1]⟩ ![0, k] X hs) hc (ix1 e) = X (ix2 e ⟨k, hk⟩) := by
  refine (shapeCast_apply _ hc (ix1 e) (ix2 e (0 : Fin 1)) ?_).trans ?_
  · rw [Shape.rowMajor_val_two, Shape.rowMajor_val_one]
    show e.val * 1 + 0 = e.val
    omega
  · refine extractStridedSlice_apply _ X hs _ _ fun d => ?_
    match d with
    | ⟨0, _⟩ => show e.val = 0 + e.val; omega
    | ⟨1, _⟩ => show k = k + 0; omega

/-- The host's sum of each row of an `[n, 3]` matrix: at `e` the initial value plus the row's three entries. -/
theorem hostReduceAdd_rows3_apply {n : ℕ} {u : Shape} (x : FVec Ideal ⟨2, ![n, 3]⟩ .f32) (init : u.Idx → Ideal .f32)
    (h' : (⟨2, ![n, 3]⟩ : Shape).ReducesTo [1] ⟨1, ![n]⟩) (h : (⟨2, ![n, 3]⟩ : Shape).Reduces [1] ⟨1, ![n]⟩)
    (hu : 0 < u.numel) (e : Fin n) :
    Host.reduceAdd x init h' hu (ix1 e)
      = init (Shape.Idx.first hu) + (x (ix2 e 0) + x (ix2 e 1) + x (ix2 e 2)) := by
  rw [hostReduceAdd_apply, Ideal.hostReduceAdd_single h' h]
  have hl : ∀ k : Fin 3, h.lift (ix1 e) k = ix2 e k := fun k => by
    funext d; refine Fin.ext ?_
    match d with
    | ⟨0, _⟩ => rfl
    | ⟨1, _⟩ => rfl
  show init (Shape.Idx.first hu) + ∑ k : Fin 3, x (h.lift (ix1 e) k) = _
  rw [Fin.sum_univ_three, hl 0, hl 1, hl 2]

end Cert.Lib.EdgeReads

end
-- ==== Proof.LibColumnReshape.lean ====
/-
  Two re-layings of small-rank arrays read at an index, over arbitrary extents: an `[a]` vector reshaped to an
  `[a, 1]` column, and the transpose of an `[a, b]` array.
-/
import Idealize.ShloMosaic.Lib.Pipeline.Value
import Idealize.ShloMosaic.Lib.ValueIdx

noncomputable section

namespace Cert.Lib.ColumnReshape

open Idealize.ShloMosaic Idealize.ShloMosaic.ValueIdx

/-- An `[a]` vector reshaped to an `[a, 1]` column reads, at `(o, 0)`, the vector at `o`: the same row-major position. -/
theorem reshape_col_apply {α : Type} {a : ℕ} (x : (⟨1, ![a]⟩ : Shape).Idx → α)
    (h : (⟨1, ![a]⟩ : Shape).ShapeCasts ⟨2, ![a, 1]⟩) (o : Fin a) :
    shapeCast ⟨2, ![a, 1]⟩ x h (ix2 o (0 : Fin 1)) = x (ix1 o) :=
  shapeCast_apply x h _ (ix1 o) (by
    rw [Shape.rowMajor_val_one, Shape.rowMajor_val_two]
    show o.val = o.val * 1 + 0
    omega)

/-- The transpose of an `[a, b]` array reads, at `(p, q)`, the array at `(q, p)`. -/
theorem transpose_ab_apply {α : Type} {a b : ℕ} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) fun bx => match bx with
    | ⟨0, _⟩ => rfl
    | ⟨1, _⟩ => rfl

end Cert.Lib.ColumnReshape

end
-- ==== Proof.LibPadReads.lean ====
/-
  Small re-layings read at an entry, over arbitrary extents: an array padded at the END of its leading axis (rows appended
  to a matrix, entries appended to a vector; no padding in front, none between the entries) reads the original inside the
  original's extent, whatever the padding value; a vector laid out as a one-row array reads the vector; the leading
  columns of a two-axis array, sliced out from offset zero, read the array.
-/
import Idealize.ShloMosaic.Lib.Pipeline.Value
import Idealize.ShloMosaic.Lib.ValueIdx

noncomputable section

namespace Cert.Lib.PadReads

open Idealize.ShloMosaic Idealize.ShloMosaic.ValueIdx

/-- An `[a, b]` matrix with `hi` rows appended (to `[t, b]`) reads, at row `p < a`, the matrix at row `p`. -/
theorem pad_tail_rows_apply {α : Type} {a b t hi : ℕ} (x : (⟨2, ![a, b]⟩ : Shape).Idx → α) {u : Shape} (v : u.Idx → α)
    (h : (⟨2, ![a, b]⟩ : Shape).Pads ![0, 0] ![hi, 0] ![0, 0] ⟨2, ![t, b]⟩) (hu : 0 < u.numel) (p : Fin a) (q : Fin b)
    (hp : p.val < t) :
    pad ⟨2, ![t, b]⟩ ![0, 0] ![hi, 0] ![0, 0] x v h hu (ix2 (⟨p.val, hp⟩ : Fin t) q) = x (ix2 p q) := by
  unfold pad
  rw [dif_pos (fun ax => by
    match ax with
    | ⟨0, _⟩ => exact ⟨Nat.zero_le _, Nat.mod_one _, by show (p.val - 0) / (0 + 1) < a; have := p.isLt; simpa using this⟩
    | ⟨1, _⟩ => exact ⟨Nat.zero_le _, Nat.mod_one _, by show (q.val - 0) / (0 + 1) < b; have := q.isLt; simpa using this⟩)]
  refine congrArg x (funext fun ax => Fin.ext ?_)
  match ax with
  | ⟨0, _⟩ => show (p.val - 0) / (0 + 1) = p.val; simp
  | ⟨1, _⟩ => show (q.val - 0) / (0 + 1) = q.val; simp

/-- An `[a]` vector with `hi` entries appended (to `[t]`) reads, at `p < a`, the vector at `p`. -/
theorem pad_tail_vec_apply {α : Type} {a t hi : ℕ} (x : (⟨1, ![a]⟩ : Shape).Idx → α) {u : Shape} (v : u.Idx → α)
    (h : (⟨1, ![a]⟩ : Shape).Pads ![0] ![hi] ![0] ⟨1, ![t]⟩) (hu : 0 < u.numel) (p : Fin a) (hp : p.val < t) :
    pad ⟨1, ![t]⟩ ![0] ![hi] ![0] x v h hu (ix1 (⟨p.val, hp⟩ : Fin t)) = x (ix1 p) := by
  unfold pad
  rw [dif_pos (fun ax => by
    match ax with
    | ⟨0, _⟩ => exact ⟨Nat.zero_le _, Nat.mod_one _, by show (p.val - 0) / (0 + 1) < a; have := p.isLt; simpa using this⟩)]
  refine congrArg x (funext fun ax => Fin.ext ?_)
  match ax with
  | ⟨0, _⟩ => show (p.val - 0) / (0 + 1) = p.val; simp

/-- A `[b]` vector laid out as a `[1, b]` row reads, at `(0, q)`, the vector at `q`: the same row-major position. -/
theorem reshape_row_apply {α : Type} {b : ℕ} (x : (⟨1, ![b]⟩ : Shape).Idx → α)
    (h : (⟨1, ![b]⟩ : Shape).ShapeCasts ⟨2, ![1, b]⟩) (q : Fin b) :
    shapeCast ⟨2, ![1, b]⟩ x h (ix2 (0 : Fin 1) q) = x (ix1 q) :=
  shapeCast_apply x h _ (ix1 q) (by
    rw [Shape.rowMajor_val_one, Shape.rowMajor_val_two]
    show q.val = 0 * b + q.val
    omega)

/-- The leading `b'` columns of an `[a, b]` array, sliced out from offset zero, read the array. -/
theorem slice_lead_cols_apply {α : Type} {a b b' : ℕ} (Y : (⟨2, ![a, b]⟩ : Shape).Idx → α)
    (h : (⟨2, ![a, b]⟩ : Shape).Slices ![0, 0] ⟨2, ![a, b']⟩) (n : Fin a) (j : Fin b') (hj : j.val < b) :
    extractStridedSlice ⟨2, ![a, b']⟩ ![0, 0] Y h (ix2 n j) = Y (ix2 n (⟨j.val, hj⟩ : Fin b)) := by
  refine extractStridedSlice_apply ![0, 0] Y h _ (ix2 n (⟨j.val, hj⟩ : Fin b)) fun ax => ?_
  match ax with
  | ⟨0, _⟩ => show n.val = 0 + n.val; omega
  | ⟨1, _⟩ => show j.val = 0 + j.val; omega

end Cert.Lib.PadReads

end
-- ==== Proof.LibReshapeBroadcast.lean ====
/-
  A reshape that adds a unit axis is the broadcast that adds it, over arbitrary extents and any element type; and a
  scalar splat read at an index.

  * A scalar splat to any shape reads the scalar's value at every index.
  * A vector of length a laid out as an [a, 1] column by a reshape is the same array as the vector made a column by
    a broadcast along axis 0: both read the vector at e at the index (e, 0).
  * A vector of length b laid out as a [1, b] row by a reshape is the same array as the vector made a row by a
    broadcast along axis 1: both read the vector at q at the index (0, q).
-/
import Idealize.ShloMosaic.Lib.Pipeline.Value
import Idealize.ShloMosaic.Lib.ValueIdx
import proofs.«163187_j24257975287859_1_alg».proof.Proof.LibEdgeReads
import proofs.«163187_j24257975287859_1_alg».proof.Proof.LibColumnReshape
import proofs.«163187_j24257975287859_1_alg».proof.Proof.LibPadReads

noncomputable section

namespace Cert.Lib.ReshapeBroadcast

open Idealize.ShloMosaic Idealize.ShloMosaic.ValueIdx

/-- A float scalar constant broadcast to any shape reads, everywhere, the extended real its word encodes. -/
theorem splat_apply {t : Shape} (h : (⟨0, ![]⟩ : Shape).BroadcastsInDim t ![]) (w : BitVec (FTy.bits .f32)) (j : t.Idx) :
    broadcastInDim t ![] h (constant (F := Ideal) ⟨0, ![]⟩ .f32 w) j = Ideal.ofBits .f32 w :=
  (broadcastInDim_apply (s := ⟨0, ![]⟩) ![] h _ j (fun a => a.elim0) (fun a => a.elim0)).trans rfl

/-- A vector made a row by a broadcast along axis 1: at (u, q) the vector at q. -/
theorem row_of_vector_apply {α : Type} {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) :=
  broadcastInDim_apply _ h x _ _ fun d => by
    match d with
    | ⟨0, _⟩ =>
      show q.val = if b = 1 then 0 else q.val
      split
      · have := q.isLt; omega
      · rfl

/-- The reshape of a vector to a column and its broadcast to a column are one array. -/
theorem reshape_col_eq_broadcast {α : Type} {a : ℕ} (x : (⟨1, ![a]⟩ : Shape).Idx → α)
    (hs : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hs = broadcastInDim ⟨2, ![a, 1]⟩ ![0] hb x := by
  funext j
  obtain ⟨e, u, rfl⟩ : ∃ (e : Fin a) (u : Fin 1), j = ix2 e u := ⟨j 0, j 1, eq_ix2 j⟩
  obtain rfl : u = 0 := Subsingleton.elim _ _
  rw [Cert.Lib.ColumnReshape.reshape_col_apply, Cert.Lib.EdgeReads.column_of_vector_apply]

/-- The reshape of a vector to a row and its broadcast to a row are one array. -/
theorem reshape_row_eq_broadcast {α : Type} {b : ℕ} (x : (⟨1, ![b]⟩ : Shape).Idx → α)
    (hs : (⟨1, ![b]⟩ : Shape).ShapeCasts ⟨2, ![1, b]⟩) (hb : (⟨1, ![b]⟩ : Shape).BroadcastsInDim ⟨2, ![1, b]⟩ ![1]) :
    shapeCast ⟨2, ![1, b]⟩ x hs = broadcastInDim ⟨2, ![1, b]⟩ ![1] hb x := by
  funext j
  obtain ⟨u, q, rfl⟩ : ∃ (u : Fin 1) (q : Fin b), j = ix2 u q := ⟨j 0, j 1, eq_ix2 j⟩
  obtain rfl : u = 0 := Subsingleton.elim _ _
  rw [Cert.Lib.PadReads.reshape_row_apply, row_of_vector_apply]

end Cert.Lib.ReshapeBroadcast

end
-- ==== Proof.Stretches.lean ====
/-
  The stretches of host operations between the kernel's regions, read back one stretch at a time.

  Both programs compute the same edge data from the edge list (sources and destinations with the self loops appended,
  the degree by a scatter-add of ones, its guarded reciprocal square root, the per-edge coefficient as a column) and
  the same aggregation of every layer (gather the rows at the sources, scale by the coefficient, scatter-add at the
  destinations). Each stretch is stated for ANY buffer contents X at its entry: if the buffers it reads hold the
  reference's values of the arguments, so do the buffers it writes. Buffers a stretch does not write keep their
  contents. A bias vector reshaped to a one-row array is the same array as the vector broadcast to a row.
-/
import proofs.«163187_j24257975287859_1_alg».proof.Proof.Gen.KernelIdeal.Launch
import proofs.«163187_j24257975287859_1_alg».proof.Proof.RefRead
import proofs.«163187_j24257975287859_1_alg».proof.Proof.LibReshapeBroadcast
import Idealize.ShloMosaic.Lib.StableHlo.Run

noncomputable section

namespace Cert.KernelIdeal.Stretches

open Idealize.ShloMosaic Idealize.ShloMosaic.TcCoe Idealize.ShloMosaic.StableHlo Idealize.SL.Sem
open Cert.KernelIdeal Cert.KernelIdeal.Gen
open Cert.ReferenceIdeal.ReadP

variable (X : Valuation τ sig (Elt Ideal))

/-! ## Before the first region: the edge data -/

theorem sources : after hostOps0 X (Proc.devRef .tc main_v3) = val_main_v3 (F := Ideal) (X (Proc.devRef .tc main_arg1)) := by
  after_results; rfl
theorem destinations : after hostOps0 X (Proc.devRef .tc main_v6) = val_main_v6 (F := Ideal) (X (Proc.devRef .tc main_arg1)) := by
  after_results; rfl
theorem degree_positive : after hostOps0 X (Proc.devRef .tc main_v12) = val_main_v12 (F := Ideal) (X (Proc.devRef .tc main_arg1)) := by
  after_results; rfl
theorem degree_rsqrt : after hostOps0 X (Proc.devRef .tc main_v13) = val_main_v13 (F := Ideal) (X (Proc.devRef .tc main_arg1)) := by
  after_results; rfl
theorem zero_word : after hostOps0 X (Proc.devRef .tc main_cst_2) = val_main_cst_2 (F := Ideal) := by
  after_results; rfl

/-- The guarded reciprocal square root of the degree (zero where the degree is not positive). -/
theorem guarded_rsqrt (a1 : (⟨Cert.ReferenceIdeal.S2x1600000, .i32⟩ : BufTy).Contents (Elt Ideal))
    (h12 : X (Proc.devRef .tc main_v12) = val_main_v12 (F := Ideal) a1) (h13 : X (Proc.devRef .tc main_v13) = val_main_v13 (F := Ideal) a1)
    (hz : X (Proc.devRef .tc main_cst_2) = val_main_cst_2 (F := Ideal)) :
    after hostOps0_1 X (Proc.devRef .tc main_v14) = val_main_v14 (F := Ideal) a1 := by
  after_results_simp
  simp only [TRef.toBuf, TRef.ofBuf, cast_eq]
  rw [h12, h13, hz]
  exact rfl

/-- The per-edge coefficient, as a column. -/
theorem coefficient_column (a1 : (⟨Cert.ReferenceIdeal.S2x1600000, .i32⟩ : BufTy).Contents (Elt Ideal))
    (h14 : X (Proc.devRef .tc main_v14) = val_main_v14 (F := Ideal) a1) (h3 : X (Proc.devRef .tc main_v3) = val_main_v3 (F := Ideal) a1)
    (h6 : X (Proc.devRef .tc main_v6) = val_main_v6 (F := Ideal) a1) :
    after hostOps0_2 X (Proc.devRef .tc main_v30) = val_main_v38 (F := Ideal) a1 := by
  after_results_simp
  rw [h14, h3, h6]
  exact rfl

/-! ## Between the regions: the aggregation of each layer, and its bias as a row -/

theorem aggregate1 (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S128x128, .f32⟩ : BufTy).Contents (Elt Ideal))
    (hh : X (Proc.devRef .tc main_v31) = val_main_v30 (F := Ideal) a0 a2) (h3 : X (Proc.devRef .tc main_v3) = val_main_v3 (F := Ideal) a1)
    (h6 : X (Proc.devRef .tc main_v6) = val_main_v6 (F := Ideal) a1) (hn : X (Proc.devRef .tc main_v30) = val_main_v38 (F := Ideal) a1) :
    after hostOps1 X (Proc.devRef .tc main_v43) = val_main_v43 (F := Ideal) a0 a1 a2 := by
  after_results_simp
  rw [hh, h3, h6, hn]
  exact rfl

theorem bias_row1 (a3 : (⟨Cert.ReferenceIdeal.S128, .f32⟩ : BufTy).Contents (Elt Ideal)) (h : X (Proc.devRef .tc main_arg3) = a3) :
    after hostOps1 X (Proc.devRef .tc main_v44) = val_main_v44 (F := Ideal) a3 := by
  after_results
  rw [h]
  exact Cert.Lib.ReshapeBroadcast.reshape_row_eq_broadcast a3 _ _

theorem aggregate2 (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x128, .f32⟩ : BufTy).Contents (Elt Ideal))
    (hh : X (Proc.devRef .tc main_v46) = val_main_v48 (F := Ideal) a0 a1 a2 a3 a4) (h3 : X (Proc.devRef .tc main_v3) = val_main_v3 (F := Ideal) a1)
    (h6 : X (Proc.devRef .tc main_v6) = val_main_v6 (F := Ideal) a1) (hn : X (Proc.devRef .tc main_v30) = val_main_v38 (F := Ideal) a1) :
    after hostOps3 X (Proc.devRef .tc main_v58) = val_main_v61 (F := Ideal) a0 a1 a2 a3 a4 := by
  after_results_simp
  rw [hh, h3, h6, hn]
  exact rfl

theorem bias_row2 (a5 : (⟨Cert.ReferenceIdeal.S128, .f32⟩ : BufTy).Contents (Elt Ideal)) (h : X (Proc.devRef .tc main_arg5) = a5) :
    after hostOps3 X (Proc.devRef .tc main_v59) = val_main_v62 (F := Ideal) a5 := by
  after_results
  rw [h]
  exact Cert.Lib.ReshapeBroadcast.reshape_row_eq_broadcast a5 _ _

theorem aggregate3 (a0 : (⟨Cert.ReferenceIdeal.S100000x128, .f32⟩ : BufTy).Contents (Elt Ideal)) (a1 : (⟨Cert.ReferenceIdeal.S2x1600000, .i32⟩ : BufTy).Contents (Elt Ideal)) (a2 : (⟨Cert.ReferenceIdeal.S128x128, .f32⟩ : BufTy).Contents (Elt Ideal)) (a3 : (⟨Cert.ReferenceIdeal.S128, .f32⟩ : BufTy).Contents (Elt Ideal)) (a4 : (⟨Cert.ReferenceIdeal.S128x128, .f32⟩ : BufTy).Contents (Elt Ideal)) (a5 : (⟨Cert.ReferenceIdeal.S128, .f32⟩ : BufTy).Contents (Elt Ideal)) (a6 : (⟨Cert.ReferenceIdeal.S128x64, .f32⟩ : BufTy).Contents (Elt Ideal))
    (hh : X (Proc.devRef .tc main_v61) = val_main_v66 (F := Ideal) a0 a1 a2 a3 a4 a5 a6) (h3 : X (Proc.devRef .tc main_v3) = val_main_v3 (F := Ideal) a1)
    (h6 : X (Proc.devRef .tc main_v6) = val_main_v6 (F := Ideal) a1) (hn : X (Proc.devRef .tc main_v30) = val_main_v38 (F := Ideal) a1) :
    after hostOps5 X (Proc.devRef .tc main_v73) = val_main_v79 (F := Ideal) a0 a1 a2 a3 a4 a5 a6 := by
  after_results_simp
  rw [hh, h3, h6, hn]
  exact rfl

theorem bias_row3 (a7 : (⟨Cert.ReferenceIdeal.S64, .f32⟩ : BufTy).Contents (Elt Ideal)) (h : X (Proc.devRef .tc main_arg7) = a7) :
    after hostOps5 X (Proc.devRef .tc main_v74) = val_main_v80 (F := Ideal) a7 := by
  after_results
  rw [h]
  exact Cert.Lib.ReshapeBroadcast.reshape_row_eq_broadcast a7 _ _

/-! ## What a stretch does not write, it keeps -/

theorem keep_hostOps0_main_arg0 : after hostOps0 X (Proc.devRef .tc main_arg0) = X (Proc.devRef .tc main_arg0) := by after_results
theorem keep_hostOps0_main_arg1 : after hostOps0 X (Proc.devRef .tc main_arg1) = X (Proc.devRef .tc main_arg1) := by after_results
theorem keep_hostOps0_main_arg2 : after hostOps0 X (Proc.devRef .tc main_arg2) = X (Proc.devRef .tc main_arg2) := by after_results
theorem keep_hostOps0_main_arg3 : after hostOps0 X (Proc.devRef .tc main_arg3) = X (Proc.devRef .tc main_arg3) := by after_results
theorem keep_hostOps0_main_arg4 : after hostOps0 X (Proc.devRef .tc main_arg4) = X (Proc.devRef .tc main_arg4) := by after_results
theorem keep_hostOps0_main_arg5 : after hostOps0 X (Proc.devRef .tc main_arg5) = X (Proc.devRef .tc main_arg5) := by after_results
theorem keep_hostOps0_main_arg6 : after hostOps0 X (Proc.devRef .tc main_arg6) = X (Proc.devRef .tc main_arg6) := by after_results
theorem keep_hostOps0_main_arg7 : after hostOps0 X (Proc.devRef .tc main_arg7) = X (Proc.devRef .tc main_arg7) := by after_results
theorem keep_hostOps0_1_main_v3 : after hostOps0_1 X (Proc.devRef .tc main_v3) = X (Proc.devRef .tc main_v3) := by after_results
theorem keep_hostOps0_1_main_v6 : after hostOps0_1 X (Proc.devRef .tc main_v6) = X (Proc.devRef .tc main_v6) := by after_results
theorem keep_hostOps0_1_main_arg0 : after hostOps0_1 X (Proc.devRef .tc main_arg0) = X (Proc.devRef .tc main_arg0) := by after_results
theorem keep_hostOps0_1_main_arg2 : after hostOps0_1 X (Proc.devRef .tc main_arg2) = X (Proc.devRef .tc main_arg2) := by after_results
theorem keep_hostOps0_1_main_arg3 : after hostOps0_1 X (Proc.devRef .tc main_arg3) = X (Proc.devRef .tc main_arg3) := by after_results
theorem keep_hostOps0_1_main_arg4 : after hostOps0_1 X (Proc.devRef .tc main_arg4) = X (Proc.devRef .tc main_arg4) := by after_results
theorem keep_hostOps0_1_main_arg5 : after hostOps0_1 X (Proc.devRef .tc main_arg5) = X (Proc.devRef .tc main_arg5) := by after_results
theorem keep_hostOps0_1_main_arg6 : after hostOps0_1 X (Proc.devRef .tc main_arg6) = X (Proc.devRef .tc main_arg6) := by after_results
theorem keep_hostOps0_1_main_arg7 : after hostOps0_1 X (Proc.devRef .tc main_arg7) = X (Proc.devRef .tc main_arg7) := by after_results
theorem keep_hostOps0_2_main_v3 : after hostOps0_2 X (Proc.devRef .tc main_v3) = X (Proc.devRef .tc main_v3) := by after_results
theorem keep_hostOps0_2_main_v6 : after hostOps0_2 X (Proc.devRef .tc main_v6) = X (Proc.devRef .tc main_v6) := by after_results
theorem keep_hostOps0_2_main_arg0 : after hostOps0_2 X (Proc.devRef .tc main_arg0) = X (Proc.devRef .tc main_arg0) := by after_results
theorem keep_hostOps0_2_main_arg2 : after hostOps0_2 X (Proc.devRef .tc main_arg2) = X (Proc.devRef .tc main_arg2) := by after_results
theorem keep_hostOps0_2_main_arg3 : after hostOps0_2 X (Proc.devRef .tc main_arg3) = X (Proc.devRef .tc main_arg3) := by after_results
theorem keep_hostOps0_2_main_arg4 : after hostOps0_2 X (Proc.devRef .tc main_arg4) = X (Proc.devRef .tc main_arg4) := by after_results
theorem keep_hostOps0_2_main_arg5 : after hostOps0_2 X (Proc.devRef .tc main_arg5) = X (Proc.devRef .tc main_arg5) := by after_results
theorem keep_hostOps0_2_main_arg6 : after hostOps0_2 X (Proc.devRef .tc main_arg6) = X (Proc.devRef .tc main_arg6) := by after_results
theorem keep_hostOps0_2_main_arg7 : after hostOps0_2 X (Proc.devRef .tc main_arg7) = X (Proc.devRef .tc main_arg7) := by after_results
theorem keep_hostOps1_main_v3 : after hostOps1 X (Proc.devRef .tc main_v3) = X (Proc.devRef .tc main_v3) := by after_results
theorem keep_hostOps1_main_v6 : after hostOps1 X (Proc.devRef .tc main_v6) = X (Proc.devRef .tc main_v6) := by after_results
theorem keep_hostOps1_main_v30 : after hostOps1 X (Proc.devRef .tc main_v30) = X (Proc.devRef .tc main_v30) := by after_results
theorem keep_hostOps1_main_arg4 : after hostOps1 X (Proc.devRef .tc main_arg4) = X (Proc.devRef .tc main_arg4) := by after_results
theorem keep_hostOps1_main_arg5 : after hostOps1 X (Proc.devRef .tc main_arg5) = X (Proc.devRef .tc main_arg5) := by after_results
theorem keep_hostOps1_main_arg6 : after hostOps1 X (Proc.devRef .tc main_arg6) = X (Proc.devRef .tc main_arg6) := by after_results
theorem keep_hostOps1_main_arg7 : after hostOps1 X (Proc.devRef .tc main_arg7) = X (Proc.devRef .tc main_arg7) := by after_results
theorem keep_hostOps3_main_v3 : after hostOps3 X (Proc.devRef .tc main_v3) = X (Proc.devRef .tc main_v3) := by after_results
theorem keep_hostOps3_main_v6 : after hostOps3 X (Proc.devRef .tc main_v6) = X (Proc.devRef .tc main_v6) := by after_results
theorem keep_hostOps3_main_v30 : after hostOps3 X (Proc.devRef .tc main_v30) = X (Proc.devRef .tc main_v30) := by after_results
theorem keep_hostOps3_main_arg6 : after hostOps3 X (Proc.devRef .tc main_arg6) = X (Proc.devRef .tc main_arg6) := by after_results
theorem keep_hostOps3_main_arg7 : after hostOps3 X (Proc.devRef .tc main_arg7) = X (Proc.devRef .tc main_arg7) := by after_results

end Cert.KernelIdeal.Stretches

end
-- ==== Proof.LibLastAxisMax.lean ====
/-
  The host's one-operand reduce with a maximum body over the LAST axis, read at an index given by coordinates, over
  arbitrary extents and at the ideal values:
  • of an `[a, b, n]` array at `(p, q)`, and
  • of an `[a, n]` matrix at `p`:
  the fold of `max` along that axis from the initial value. (The middle-axis form is in LibColumnReads; the kernel-side
  row maximum in LibRowReads.)
-/
import Idealize.ShloMosaic.Lib.ValueIdx
import Idealize.ShloMosaic.PureOps.Ideal.Laws

namespace Cert.LibLastAxisMax

open Idealize.ShloMosaic Idealize.ShloMosaic.ValueIdx

/-- Position `(p, q)` of an `[a, b, n]` array with last coordinate `k` put back is `(p, q, k)`. -/
theorem lift_last3 {a b n : ℕ} (h : (⟨3, ![a, b, n]⟩ : Shape).Reduces [2] (⟨2, ![a, b]⟩ : Shape)) (p : Fin a) (q : Fin b)
    (k : Fin n) : h.lift (ix2 p q) k = ix3 p q k := by
  funext c; apply Fin.ext
  fin_cases c <;> rfl

/-- Row `p` of an `[a, n]` matrix with column `k` put back is `(p, k)`. -/
theorem lift_last2 {a n : ℕ} (h : (⟨2, ![a, n]⟩ : Shape).Reduces [1] (⟨1, ![a]⟩ : Shape)) (p : Fin a) (k : Fin n) :
    h.lift (ix1 p) k = ix2 p k := by
  funext c; apply Fin.ext
  fin_cases c <;> rfl

/-- The host's reduce with a maximum body over the last axis of an `[a, b, n]` array, at `(p, q)`, is the fold of
    `max` over that axis from the initial value. -/
theorem hostLastMax3_apply {φ : FTy} {a b n : ℕ} {u : Shape} (x : FVec Ideal ⟨3, ![a, b, n]⟩ φ) (init : FVec Ideal u φ)
    (h' : (⟨3, ![a, b, n]⟩ : Shape).ReducesTo [2] (⟨2, ![a, b]⟩ : Shape))
    (h : (⟨3, ![a, b, n]⟩ : Shape).Reduces [2] (⟨2, ![a, b]⟩ : Shape)) (hu : 0 < u.numel) (p : Fin a) (q : Fin b) :
    Host.reduce (FloatOps.maximumf (F := Ideal) (φ := φ)) x init h' hu (ix2 p q)
      = (Finset.univ : Finset (Fin n)).fold max (init (Shape.Idx.first hu)) (fun k => x (ix3 p q k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last3 h p q k))

/-- The host's reduce with a maximum body over the last axis of an `[a, n]` matrix, at `p`, is the fold of `max`
    along row `p` from the initial value. -/
theorem hostLastMax2_apply {φ : FTy} {a n : ℕ} {u : Shape} (x : FVec Ideal ⟨2, ![a, n]⟩ φ) (init : FVec Ideal u φ)
    (h' : (⟨2, ![a, n]⟩ : Shape).ReducesTo [1] (⟨1, ![a]⟩ : Shape))
    (h : (⟨2, ![a, n]⟩ : Shape).Reduces [1] (⟨1, ![a]⟩ : Shape)) (hu : 0 < u.numel) (p : Fin a) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single (FloatOps.maximumf (F := Ideal) (φ := φ)) x init h' h hu]
  exact congrArg (fun f => Finset.fold max (init (Shape.Idx.first hu)) f (Finset.univ : Finset (Fin n)))
    (funext fun k => congrArg x (lift_last2 h p k))

end Cert.LibLastAxisMax
-- ==== Proof.RefLayers.lean ====
/-
  The reference's row-wise layers are the layers.

  After each aggregation the reference adds the bias (broadcast to a row, then down the rows) and takes the maximum
  with a broadcast zero; at the end it takes the log-softmax of each row the way its library spells it: the row's maximum by
  a reduce from minus infinity, joined once more with minus infinity (which changes nothing), subtracted; the
  exponentials summed from zero (which adds nothing); the logarithm subtracted. Entry by entry these are the
  definitions of Cert.GcnRows.
-/
import proofs.«163187_j24257975287859_1_alg».proof.Proof.RefRead
import proofs.«163187_j24257975287859_1_alg».proof.Proof.GcnRows
import proofs.«163187_j24257975287859_1_alg».proof.Proof.LibLastAxisMax

noncomputable section

namespace Cert.ReferenceIdeal.Layers

open Idealize.ShloMosaic Idealize.ShloMosaic.ValueIdx
open Cert.ReferenceIdeal Cert.ReferenceIdeal.Gen Cert.ReferenceIdeal.ReadP

/-- Layer 1's bias and positive part, as the reference spells them (the bias broadcast to a row and down the rows,
    added, the maximum with a broadcast zero), are the layer. -/
theorem relu1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) :
    Cert.GcnRows.biasMax (M := 100000) (N := 128) (val_main_v43 (F := Ideal) a0 a1 a2) (val_main_v44 (F := Ideal) a3)
        (Ideal.ofBits .f32 0x00000000#32)
      = val_main_v47 (F := Ideal) a0 a1 a2 a3 := by
  funext i
  obtain ⟨r, q, rfl⟩ : ∃ (r : Fin 100000) (q : Fin 128), i = ix2 r q := ⟨i 0, i 1, eq_ix2 i⟩
  rw [Cert.GcnRows.biasMax_apply, val_main_v47_apply, val_main_v46_apply, val_main_v45_apply, val_main_call1_v0_apply]
  have e : idx_main_v45 (ix2 r q) = ix2 (0 : Fin 1) q :=
    funext fun a => Fin.ext (by match a with | ⟨0, _⟩ => rfl | ⟨1, _⟩ => rfl)
  rw [e]
  -- the two entries are now names: what is left is the spelling of the maximum, the sum and the zero word
  generalize val_main_v43 (F := Ideal) a0 a1 a2 (ix2 r q) = x
  generalize val_main_v44 (F := Ideal) a3 (ix2 (0 : Fin 1) q) = y
  rfl

/-- Layer 2's bias and positive part, as the reference spells them (the bias broadcast to a row and down the rows,
    added, the maximum with a broadcast zero), are the layer. -/
theorem relu2 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) :
    Cert.GcnRows.biasMax (M := 100000) (N := 128) (val_main_v61 (F := Ideal) a0 a1 a2 a3 a4) (val_main_v62 (F := Ideal) a5)
        (Ideal.ofBits .f32 0x00000000#32)
      = val_main_v65 (F := Ideal) a0 a1 a2 a3 a4 a5 := by
  funext i
  obtain ⟨r, q, rfl⟩ : ∃ (r : Fin 100000) (q : Fin 128), i = ix2 r q := ⟨i 0, i 1, eq_ix2 i⟩
  rw [Cert.GcnRows.biasMax_apply, val_main_v65_apply, val_main_v64_apply, val_main_v63_apply, val_main_call2_v0_apply]
  have e : idx_main_v63 (ix2 r q) = ix2 (0 : Fin 1) q :=
    funext fun a => Fin.ext (by match a with | ⟨0, _⟩ => rfl | ⟨1, _⟩ => rfl)
  rw [e]
  -- the two entries are now names: what is left is the spelling of the maximum, the sum and the zero word
  generalize val_main_v61 (F := Ideal) a0 a1 a2 a3 a4 (ix2 r q) = x
  generalize val_main_v62 (F := Ideal) a5 (ix2 (0 : Fin 1) q) = y
  rfl

set_option maxHeartbeats 60000 in
/-- The last layer's bias and log-softmax, as the reference spells them, are the layer. -/
theorem logsoftmax (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S128x64, .f32⟩ : BufTy).Contents (Elt Ideal)) (a7 : (⟨S64, .f32⟩ : BufTy).Contents (Elt Ideal)) :
    Cert.GcnRows.biasLogSoftmax (M := 100000) (N := 64) (val_main_v79 (F := Ideal) a0 a1 a2 a3 a4 a5 a6)
        (val_main_v80 (F := Ideal) a7) (Ideal.ofBits .f32 0xFF800000#32)
      = val_main_v83 (F := Ideal) a0 a1 a2 a3 a4 a5 a6 a7 := by
  funext i
  obtain ⟨r, q, rfl⟩ : ∃ (r : Fin 100000) (q : Fin 64), i = ix2 r q := ⟨i 0, i 1, eq_ix2 i⟩
  -- the biased row
  have hrow : ∀ k : Fin 64, val_main_v82 (F := Ideal) a0 a1 a2 a3 a4 a5 a6 a7 (ix2 r k) = Cert.GcnRows.biased (M := 100000) (N := 64) (val_main_v79 (F := Ideal) a0 a1 a2 a3 a4 a5 a6) (val_main_v80 (F := Ideal) a7) r k :=
    fun k => by
      rw [val_main_v82_apply, val_main_v81_apply]
      have e : idx_main_v81 (ix2 r k) = ix2 (0 : Fin 1) k :=
        funext fun a => Fin.ext (by match a with | ⟨0, _⟩ => rfl | ⟨1, _⟩ => rfl)
      rw [e]
      unfold Cert.GcnRows.biased
      generalize val_main_v79 (F := Ideal) a0 a1 a2 a3 a4 a5 a6 (ix2 r k) = x
      generalize val_main_v80 (F := Ideal) a7 (ix2 (0 : Fin 1) k) = y
      rfl
  -- the row's largest entry by the reduce from minus infinity
  have hred : val_main_call3_v0 (F := Ideal) a0 a1 a2 a3 a4 a5 a6 a7 (ix1 r) = (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r) := by
    unfold val_main_call3_v0
    refine (Cert.LibLastAxisMax.hostLastMax2_apply (a := 100000) (n := 64) (val_main_v82 (F := Ideal) a0 a1 a2 a3 a4 a5 a6 a7)
      (val_main_call3_cst (F := Ideal)) reducesTo_S100000x64_S100000_d1 (by decide) h_S_ r).trans ?_
    exact congrArg (fun f => Finset.fold max (Ideal.ofBits .f32 0xFF800000#32) f (Finset.univ : Finset (Fin 64))) (funext hrow)
  -- joined once more with minus infinity, broadcast along the row
  have htop : ∀ k : Fin 64, val_main_call3_v4 (F := Ideal) a0 a1 a2 a3 a4 a5 a6 a7 (ix2 r k) = (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r) :=
    fun k => by
      rw [val_main_call3_v4_apply, val_main_call3_v3_apply, val_main_call3_v2_apply]
      have e : idx_main_call3_v3 (idx_main_call3_v4 (ix2 r k)) = ix1 r :=
        funext fun a => Fin.ext (by match a with | ⟨0, _⟩ => rfl)
      rw [e, hred]
      generalize (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r) = t
      exact Cert.GcnRows.max_ninf t
  -- the shifted row
  have hshift : ∀ k : Fin 64, val_main_call3_v5 (F := Ideal) a0 a1 a2 a3 a4 a5 a6 a7 (ix2 r k) = Cert.GcnRows.biased (M := 100000) (N := 64) (val_main_v79 (F := Ideal) a0 a1 a2 a3 a4 a5 a6) (val_main_v80 (F := Ideal) a7) r k - (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r) :=
    fun k => by
      rw [val_main_call3_v5_apply, hrow k, htop k]
      generalize Cert.GcnRows.biased (M := 100000) (N := 64) (val_main_v79 (F := Ideal) a0 a1 a2 a3 a4 a5 a6) (val_main_v80 (F := Ideal) a7) r k = x
      generalize (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r) = t
      rfl
  -- the exponentials of the shifted row, summed from zero
  have hsum : val_main_call3_v7 (F := Ideal) a0 a1 a2 a3 a4 a5 a6 a7 (ix1 r) = (∑ k : Fin 64, Ideal.exp (Cert.GcnRows.biased (M := 100000) (N := 64) (val_main_v79 (F := Ideal) a0 a1 a2 a3 a4 a5 a6) (val_main_v80 (F := Ideal) a7) r k - (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r))) := by
    rw [val_main_call3_v7_apply]
    have hterm : ∀ k : Fin 64, val_main_call3_v6 (F := Ideal) a0 a1 a2 a3 a4 a5 a6 a7 (idx_main_call3_v7 (ix1 r) k)
        = Ideal.exp (Cert.GcnRows.biased (M := 100000) (N := 64) (val_main_v79 (F := Ideal) a0 a1 a2 a3 a4 a5 a6) (val_main_v80 (F := Ideal) a7) r k - (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r)) := fun k => by
      have e : idx_main_call3_v7 (ix1 r) k = ix2 r k :=
        funext fun a => Fin.ext (by match a with | ⟨0, _⟩ => rfl | ⟨1, _⟩ => rfl)
      rw [e, val_main_call3_v6_apply, hshift k]
      exact Ideal.hostUnary_exp_def _
    rw [Finset.sum_congr rfl (fun k _ => hterm k)]
    exact (congrArg (· + (∑ k : Fin 64, Ideal.exp (Cert.GcnRows.biased (M := 100000) (N := 64) (val_main_v79 (F := Ideal) a0 a1 a2 a3 a4 a5 a6) (val_main_v80 (F := Ideal) a7) r k - (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r))))
      (show val_main_call3_cst_1 (F := Ideal) (Shape.Idx.first h_S_) = 0 from Ideal.ofBits_zero_f32)).trans (zero_add _)
  -- its logarithm, broadcast along the row
  have hlog : val_main_call3_v10 (F := Ideal) a0 a1 a2 a3 a4 a5 a6 a7 (ix2 r q) = Ideal.log (∑ k : Fin 64, Ideal.exp (Cert.GcnRows.biased (M := 100000) (N := 64) (val_main_v79 (F := Ideal) a0 a1 a2 a3 a4 a5 a6) (val_main_v80 (F := Ideal) a7) r k - (Finset.univ : Finset (Fin 64)).fold max (Ideal.ofBits .f32 0xFF800000#32) (Cert.GcnRows.biased (M := 100000) (N := 64) (val_main_v79 (F := Ideal) a0 a1 a2 a3 a4 a5 a6) (val_main_v80 (F := Ideal) a7) r))) := by
    rw [val_main_call3_v10_apply, val_main_call3_v9_apply, val_main_call3_v8_apply]
    have e : idx_main_call3_v8 (idx_main_call3_v10 (ix2 r q)) = ix1 r :=
      funext fun a => Fin.ext (by match a with | ⟨0, _⟩ => rfl)
    rw [e, hsum]
    exact Ideal.hostUnary_log_def _
  rw [Cert.GcnRows.biasLogSoftmax_apply, val_main_v83_apply, hshift q, hlog]
  unfold Cert.GcnRows.lsmRow
  exact (Ideal.subf_def _ _).symm

end Cert.ReferenceIdeal.Layers

end
-- ==== Proof.Result.lean ====
/-
  The kernel's program runs, and its result array ends holding what the last boundary of the run holds.

  The generated frame of this program follows @main through twelve segments (six stretches of host operations and six
  regions) and states, for every unscoped buffer, its contents after the last segment (`Gen.W12`); of those it keeps
  only the arguments in its post. Here the same run is stated with one more conjunct: the result array's contents,
  still as the run's last boundary names them. What that array holds as a function of the arguments is read off the
  boundaries one at a time elsewhere.
-/
import proofs.«163187_j24257975287859_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result array at the last boundary's
    contents and the argument arrays as launched: the launch over the program's segments, the last thread state read
    against the final state. -/
theorem run : θ_run defs (onTc (τ := τ) (main (F := F))) ⟨m, fun _ => 0, ρ⟩ (fun r => ∀ c : Dev nD,
      r.2.mem ((c.tc : Thread nD τ).loc main_v75) = W12 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v75 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Result

end
-- ==== Proof.Chain.lean ====
/-
  What the kernel's program leaves in its result array, as a function of its arguments.

  The program's run passes thirteen boundaries: the launch, then alternately a stretch of host operations and a
  region. Walking them in order, every buffer a later segment reads is named as a function of the eight arguments —
  the functions being the stages of the reference program, since the two programs compute the same things in the
  same order: the edge data before the first region; at each layer a product with the weight (a region, block by
  block), the aggregation over the edges (host operations), and the bias with the positive part or the final
  log-softmax (a region, block by block). What a segment does not write it keeps. At the last boundary the result
  array holds the reference's last stage.
-/
import proofs.«163187_j24257975287859_1_alg».proof.Proof.Gen.KernelIdeal.Frame
import proofs.«163187_j24257975287859_1_alg».proof.Proof.Rows0
import proofs.«163187_j24257975287859_1_alg».proof.Proof.Rows1
import proofs.«163187_j24257975287859_1_alg».proof.Proof.Rows2
import proofs.«163187_j24257975287859_1_alg».proof.Proof.Rows3
import proofs.«163187_j24257975287859_1_alg».proof.Proof.Rows4
import proofs.«163187_j24257975287859_1_alg».proof.Proof.Rows5
import proofs.«163187_j24257975287859_1_alg».proof.Proof.Stretches
import proofs.«163187_j24257975287859_1_alg».proof.Proof.RefLayers
import proofs.«163187_j24257975287859_1_alg».proof.Proof.Result

noncomputable section

namespace Cert.KernelIdeal.Chain

open Idealize.ShloMosaic Idealize.ShloMosaic.TcCoe Idealize.ShloMosaic.StableHlo Idealize.SL.Sem
open Cert.KernelIdeal Cert.KernelIdeal.Gen
open Cert.ReferenceIdeal.ReadP

variable (m : (ℓ : Loc nD τ sig) → Buf (Elt Ideal) ℓ) (ρ : Dev nD → PrngReg) (c : Dev nD)

/-- The two programs' records of a plain product's dimension numbers are the library's. -/
theorem dims128 : DotDims.plain 100000 128 128 = Cert.ReferenceIdeal.dot_S100000x128_S128x128_S100000x128_1_0_0_1_n_n := rfl
theorem dims64 : DotDims.plain 100000 128 64 = Cert.ReferenceIdeal.dot_S100000x128_S128x64_S100000x64_1_0_0_1_n_n := rfl

/-! ## Before the first region -/

theorem w1_src : W1 m ρ c (Proc.devRef .tc main_v3) = val_main_v3 (F := Ideal) (m ((c.tc : Thread nD τ).loc main_arg1)) := Cert.KernelIdeal.Stretches.sources (W0 m ρ c)
theorem w1_dst : W1 m ρ c (Proc.devRef .tc main_v6) = val_main_v6 (F := Ideal) (m ((c.tc : Thread nD τ).loc main_arg1)) := Cert.KernelIdeal.Stretches.destinations (W0 m ρ c)
theorem w1_pos : W1 m ρ c (Proc.devRef .tc main_v12) = val_main_v12 (F := Ideal) (m ((c.tc : Thread nD τ).loc main_arg1)) := Cert.KernelIdeal.Stretches.degree_positive (W0 m ρ c)
theorem w1_rsq : W1 m ρ c (Proc.devRef .tc main_v13) = val_main_v13 (F := Ideal) (m ((c.tc : Thread nD τ).loc main_arg1)) := Cert.KernelIdeal.Stretches.degree_rsqrt (W0 m ρ c)
theorem w1_zero : W1 m ρ c (Proc.devRef .tc main_cst_2) = val_main_cst_2 (F := Ideal) := Cert.KernelIdeal.Stretches.zero_word (W0 m ρ c)
theorem w1_arg0 : W1 m ρ c (Proc.devRef .tc main_arg0) = (m ((c.tc : Thread nD τ).loc main_arg0)) := Cert.KernelIdeal.Stretches.keep_hostOps0_main_arg0 (W0 m ρ c)
theorem w1_arg2 : W1 m ρ c (Proc.devRef .tc main_arg2) = (m ((c.tc : Thread nD τ).loc main_arg2)) := Cert.KernelIdeal.Stretches.keep_hostOps0_main_arg2 (W0 m ρ c)
theorem w1_arg3 : W1 m ρ c (Proc.devRef .tc main_arg3) = (m ((c.tc : Thread nD τ).loc main_arg3)) := Cert.KernelIdeal.Stretches.keep_hostOps0_main_arg3 (W0 m ρ c)
theorem w1_arg4 : W1 m ρ c (Proc.devRef .tc main_arg4) = (m ((c.tc : Thread nD τ).loc main_arg4)) := Cert.KernelIdeal.Stretches.keep_hostOps0_main_arg4 (W0 m ρ c)
theorem w1_arg5 : W1 m ρ c (Proc.devRef .tc main_arg5) = (m ((c.tc : Thread nD τ).loc main_arg5)) := Cert.KernelIdeal.Stretches.keep_hostOps0_main_arg5 (W0 m ρ c)
theorem w1_arg6 : W1 m ρ c (Proc.devRef .tc main_arg6) = (m ((c.tc : Thread nD τ).loc main_arg6)) := Cert.KernelIdeal.Stretches.keep_hostOps0_main_arg6 (W0 m ρ c)
theorem w1_arg7 : W1 m ρ c (Proc.devRef .tc main_arg7) = (m ((c.tc : Thread nD τ).loc main_arg7)) := Cert.KernelIdeal.Stretches.keep_hostOps0_main_arg7 (W0 m ρ c)

theorem w2_guard : W2 m ρ c (Proc.devRef .tc main_v14) = val_main_v14 (F := Ideal) (m ((c.tc : Thread nD τ).loc main_arg1)) :=
  Cert.KernelIdeal.Stretches.guarded_rsqrt (W1 m ρ c) _ (w1_pos m ρ c) (w1_rsq m ρ c) (w1_zero m ρ c)
theorem w2_src : W2 m ρ c (Proc.devRef .tc main_v3) = val_main_v3 (F := Ideal) (m ((c.tc : Thread nD τ).loc main_arg1)) := (Cert.KernelIdeal.Stretches.keep_hostOps0_1_main_v3 (W1 m ρ c)).trans (w1_src m ρ c)
theorem w2_dst : W2 m ρ c (Proc.devRef .tc main_v6) = val_main_v6 (F := Ideal) (m ((c.tc : Thread nD τ).loc main_arg1)) := (Cert.KernelIdeal.Stretches.keep_hostOps0_1_main_v6 (W1 m ρ c)).trans (w1_dst m ρ c)
theorem w2_arg0 : W2 m ρ c (Proc.devRef .tc main_arg0) = (m ((c.tc : Thread nD τ).loc main_arg0)) := (Cert.KernelIdeal.Stretches.keep_hostOps0_1_main_arg0 (W1 m ρ c)).trans (w1_arg0 m ρ c)
theorem w2_arg2 : W2 m ρ c (Proc.devRef .tc main_arg2) = (m ((c.tc : Thread nD τ).loc main_arg2)) := (Cert.KernelIdeal.Stretches.keep_hostOps0_1_main_arg2 (W1 m ρ c)).trans (w1_arg2 m ρ c)
theorem w2_arg3 : W2 m ρ c (Proc.devRef .tc main_arg3) = (m ((c.tc : Thread nD τ).loc main_arg3)) := (Cert.KernelIdeal.Stretches.keep_hostOps0_1_main_arg3 (W1 m ρ c)).trans (w1_arg3 m ρ c)
theorem w2_arg4 : W2 m ρ c (Proc.devRef .tc main_arg4) = (m ((c.tc : Thread nD τ).loc main_arg4)) := (Cert.KernelIdeal.Stretches.keep_hostOps0_1_main_arg4 (W1 m ρ c)).trans (w1_arg4 m ρ c)
theorem w2_arg5 : W2 m ρ c (Proc.devRef .tc main_arg5) = (m ((c.tc : Thread nD τ).loc main_arg5)) := (Cert.KernelIdeal.Stretches.keep_hostOps0_1_main_arg5 (W1 m ρ c)).trans (w1_arg5 m ρ c)
theorem w2_arg6 : W2 m ρ c (Proc.devRef .tc main_arg6) = (m ((c.tc : Thread nD τ).loc main_arg6)) := (Cert.KernelIdeal.Stretches.keep_hostOps0_1_main_arg6 (W1 m ρ c)).trans (w1_arg6 m ρ c)
theorem w2_arg7 : W2 m ρ c (Proc.devRef .tc main_arg7) = (m ((c.tc : Thread nD τ).loc main_arg7)) := (Cert.KernelIdeal.Stretches.keep_hostOps0_1_main_arg7 (W1 m ρ c)).trans (w1_arg7 m ρ c)

theorem w3_coef : W3 m ρ c (Proc.devRef .tc main_v30) = val_main_v38 (F := Ideal) (m ((c.tc : Thread nD τ).loc main_arg1)) :=
  Cert.KernelIdeal.Stretches.coefficient_column (W2 m ρ c) _ (w2_guard m ρ c) (w2_src m ρ c) (w2_dst m ρ c)
theorem w3_src : W3 m ρ c (Proc.devRef .tc main_v3) = val_main_v3 (F := Ideal) (m ((c.tc : Thread nD τ).loc main_arg1)) := (Cert.KernelIdeal.Stretches.keep_hostOps0_2_main_v3 (W2 m ρ c)).trans (w2_src m ρ c)
theorem w3_dst : W3 m ρ c (Proc.devRef .tc main_v6) = val_main_v6 (F := Ideal) (m ((c.tc : Thread nD τ).loc main_arg1)) := (Cert.KernelIdeal.Stretches.keep_hostOps0_2_main_v6 (W2 m ρ c)).trans (w2_dst m ρ c)
theorem w3_arg0 : W3 m ρ c (Proc.devRef .tc main_arg0) = (m ((c.tc : Thread nD τ).loc main_arg0)) := (Cert.KernelIdeal.Stretches.keep_hostOps0_2_main_arg0 (W2 m ρ c)).trans (w2_arg0 m ρ c)
theorem w3_arg2 : W3 m ρ c (Proc.devRef .tc main_arg2) = (m ((c.tc : Thread nD τ).loc main_arg2)) := (Cert.KernelIdeal.Stretches.keep_hostOps0_2_main_arg2 (W2 m ρ c)).trans (w2_arg2 m ρ c)
theorem w3_arg3 : W3 m ρ c (Proc.devRef .tc main_arg3) = (m ((c.tc : Thread nD τ).loc main_arg3)) := (Cert.KernelIdeal.Stretches.keep_hostOps0_2_main_arg3 (W2 m ρ c)).trans (w2_arg3 m ρ c)
theorem w3_arg4 : W3 m ρ c (Proc.devRef .tc main_arg4) = (m ((c.tc : Thread nD τ).loc main_arg4)) := (Cert.KernelIdeal.Stretches.keep_hostOps0_2_main_arg4 (W2 m ρ c)).trans (w2_arg4 m ρ c)
theorem w3_arg5 : W3 m ρ c (Proc.devRef .tc main_arg5) = (m ((c.tc : Thread nD τ).loc main_arg5)) := (Cert.KernelIdeal.Stretches.keep_hostOps0_2_main_arg5 (W2 m ρ c)).trans (w2_arg5 m ρ c)
theorem w3_arg6 : W3 m ρ c (Proc.devRef .tc main_arg6) = (m ((c.tc : Thread nD τ).loc main_arg6)) := (Cert.KernelIdeal.Stretches.keep_hostOps0_2_main_arg6 (W2 m ρ c)).trans (w2_arg6 m ρ c)
theorem w3_arg7 : W3 m ρ c (Proc.devRef .tc main_arg7) = (m ((c.tc : Thread nD τ).loc main_arg7)) := (Cert.KernelIdeal.Stretches.keep_hostOps0_2_main_arg7 (W2 m ρ c)).trans (w2_arg7 m ρ c)

/-! ## Layer 1 -/

/-- Region 0: the product of the features with the first weight. -/
theorem w4_prod : W4 m ρ c (Proc.devRef .tc main_v31) = val_main_v30 (F := Ideal) (m ((c.tc : Thread nD τ).loc main_arg0)) (m ((c.tc : Thread nD τ).loc main_arg2)) := by
  refine (W4_arr m ρ c 2).trans ((Cert.KernelIdeal.Rows0.array (V3 m ρ) c).trans ?_)
  have h0 : V3 m ρ c main_arg0 = (m ((c.tc : Thread nD τ).loc main_arg0)) := w3_arg0 m ρ c
  have h2 : V3 m ρ c main_arg2 = (m ((c.tc : Thread nD τ).loc main_arg2)) := w3_arg2 m ρ c
  rw [h0, h2]
  unfold val_main_v30
  rw [← dims128]
theorem w4_src : W4 m ρ c (Proc.devRef .tc main_v3) = val_main_v3 (F := Ideal) (m ((c.tc : Thread nD τ).loc main_arg1)) := (W4_of_ne m ρ c main_v3 (by decide)).trans (w3_src m ρ c)
theorem w4_dst : W4 m ρ c (Proc.devRef .tc main_v6) = val_main_v6 (F := Ideal) (m ((c.tc : Thread nD τ).loc main_arg1)) := (W4_of_ne m ρ c main_v6 (by decide)).trans (w3_dst m ρ c)
theorem w4_coef : W4 m ρ c (Proc.devRef .tc main_v30) = val_main_v38 (F := Ideal) (m ((c.tc : Thread nD τ).loc main_arg1)) := (W4_of_ne m ρ c main_v30 (by decide)).trans (w3_coef m ρ c)
theorem w4_arg3 : W4 m ρ c (Proc.devRef .tc main_arg3) = (m ((c.tc : Thread nD τ).loc main_arg3)) := (W4_of_ne m ρ c main_arg3 (by decide)).trans (w3_arg3 m ρ c)
theorem w4_arg4 : W4 m ρ c (Proc.devRef .tc main_arg4) = (m ((c.tc : Thread nD τ).loc main_arg4)) := (W4_of_ne m ρ c main_arg4 (by decide)).trans (w3_arg4 m ρ c)
theorem w4_arg5 : W4 m ρ c (Proc.devRef .tc main_arg5) = (m ((c.tc : Thread nD τ).loc main_arg5)) := (W4_of_ne m ρ c main_arg5 (by decide)).trans (w3_arg5 m ρ c)
theorem w4_arg6 : W4 m ρ c (Proc.devRef .tc main_arg6) = (m ((c.tc : Thread nD τ).loc main_arg6)) := (W4_of_ne m ρ c main_arg6 (by decide)).trans (w3_arg6 m ρ c)
theorem w4_arg7 : W4 m ρ c (Proc.devRef .tc main_arg7) = (m ((c.tc : Thread nD τ).loc main_arg7)) := (W4_of_ne m ρ c main_arg7 (by decide)).trans (w3_arg7 m ρ c)

theorem w5_agg : W5 m ρ c (Proc.devRef .tc main_v43) = val_main_v43 (F := Ideal) (m ((c.tc : Thread nD τ).loc main_arg0)) (m ((c.tc : Thread nD τ).loc main_arg1)) (m ((c.tc : Thread nD τ).loc main_arg2)) :=
  Cert.KernelIdeal.Stretches.aggregate1 (W4 m ρ c) _ _ _ (w4_prod m ρ c) (w4_src m ρ c) (w4_dst m ρ c) (w4_coef m ρ c)
theorem w5_bias : W5 m ρ c (Proc.devRef .tc main_v44) = val_main_v44 (F := Ideal) (m ((c.tc : Thread nD τ).loc main_arg3)) := Cert.KernelIdeal.Stretches.bias_row1 (W4 m ρ c) _ (w4_arg3 m ρ c)
theorem w5_src : W5 m ρ c (Proc.devRef .tc main_v3) = val_main_v3 (F := Ideal) (m ((c.tc : Thread nD τ).loc main_arg1)) := (Cert.KernelIdeal.Stretches.keep_hostOps1_main_v3 (W4 m ρ c)).trans (w4_src m ρ c)
theorem w5_dst : W5 m ρ c (Proc.devRef .tc main_v6) = val_main_v6 (F := Ideal) (m ((c.tc : Thread nD τ).loc main_arg1)) := (Cert.KernelIdeal.Stretches.keep_hostOps1_main_v6 (W4 m ρ c)).trans (w4_dst m ρ c)
theorem w5_coef : W5 m ρ c (Proc.devRef .tc main_v30) = val_main_v38 (F := Ideal) (m ((c.tc : Thread nD τ).loc main_arg1)) := (Cert.KernelIdeal.Stretches.keep_hostOps1_main_v30 (W4 m ρ c)).trans (w4_coef m ρ c)
theorem w5_arg4 : W5 m ρ c (Proc.devRef .tc main_arg4) = (m ((c.tc : Thread nD τ).loc main_arg4)) := (Cert.KernelIdeal.Stretches.keep_hostOps1_main_arg4 (W4 m ρ c)).trans (w4_arg4 m ρ c)
theorem w5_arg5 : W5 m ρ c (Proc.devRef .tc main_arg5) = (m ((c.tc : Thread nD τ).loc main_arg5)) := (Cert.KernelIdeal.Stretches.keep_hostOps1_main_arg5 (W4 m ρ c)).trans (w4_arg5 m ρ c)
theorem w5_arg6 : W5 m ρ c (Proc.devRef .tc main_arg6) = (m ((c.tc : Thread nD τ).loc main_arg6)) := (Cert.KernelIdeal.Stretches.keep_hostOps1_main_arg6 (W4 m ρ c)).trans (w4_arg6 m ρ c)
theorem w5_arg7 : W5 m ρ c (Proc.devRef .tc main_arg7) = (m ((c.tc : Thread nD τ).loc main_arg7)) := (Cert.KernelIdeal.Stretches.keep_hostOps1_main_arg7 (W4 m ρ c)).trans (w4_arg7 m ρ c)

/-- Region 1: bias and positive part. -/
theorem w6_act : W6 m ρ c (Proc.devRef .tc main_v45) = val_main_v47 (F := Ideal) (m ((c.tc : Thread nD τ).loc main_arg0)) (m ((c.tc : Thread nD τ).loc main_arg1)) (m ((c.tc : Thread nD τ).loc main_arg2)) (m ((c.tc : Thread nD τ).loc main_arg3)) := by
  refine (W6_arr m ρ c 2).trans ((Cert.KernelIdeal.Rows1.array (V5 m ρ) c).trans ?_)
  have hA : V5 m ρ c main_v43 = val_main_v43 (F := Ideal) (m ((c.tc : Thread nD τ).loc main_arg0)) (m ((c.tc : Thread nD τ).loc main_arg1)) (m ((c.tc : Thread nD τ).loc main_arg2)) := w5_agg m ρ c
  have hb : V5 m ρ c main_v44 = val_main_v44 (F := Ideal) (m ((c.tc : Thread nD τ).loc main_arg3)) := w5_bias m ρ c
  rw [hA, hb]
  exact Cert.ReferenceIdeal.Layers.relu1 _ _ _ _
theorem w6_src : W6 m ρ c (Proc.devRef .tc main_v3) = val_main_v3 (F := Ideal) (m ((c.tc : Thread nD τ).loc main_arg1)) := (W6_of_ne m ρ c main_v3 (by decide)).trans (w5_src m ρ c)
theorem w6_dst : W6 m ρ c (Proc.devRef .tc main_v6) = val_main_v6 (F := Ideal) (m ((c.tc : Thread nD τ).loc main_arg1)) := (W6_of_ne m ρ c main_v6 (by decide)).trans (w5_dst m ρ c)
theorem w6_coef : W6 m ρ c (Proc.devRef .tc main_v30) = val_main_v38 (F := Ideal) (m ((c.tc : Thread nD τ).loc main_arg1)) := (W6_of_ne m ρ c main_v30 (by decide)).trans (w5_coef m ρ c)
theorem w6_arg4 : W6 m ρ c (Proc.devRef .tc main_arg4) = (m ((c.tc : Thread nD τ).loc main_arg4)) := (W6_of_ne m ρ c main_arg4 (by decide)).trans (w5_arg4 m ρ c)
theorem w6_arg5 : W6 m ρ c (Proc.devRef .tc main_arg5) = (m ((c.tc : Thread nD τ).loc main_arg5)) := (W6_of_ne m ρ c main_arg5 (by decide)).trans (w5_arg5 m ρ c)
theorem w6_arg6 : W6 m ρ c (Proc.devRef .tc main_arg6) = (m ((c.tc : Thread nD τ).loc main_arg6)) := (W6_of_ne m ρ c main_arg6 (by decide)).trans (w5_arg6 m ρ c)
theorem w6_arg7 : W6 m ρ c (Proc.devRef .tc main_arg7) = (m ((c.tc : Thread nD τ).loc main_arg7)) := (W6_of_ne m ρ c main_arg7 (by decide)).trans (w5_arg7 m ρ c)

/-! ## Layer 2 -/

/-- Region 2: the product with the second weight. -/
theorem w7_prod : W7 m ρ c (Proc.devRef .tc main_v46) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ((Cert.KernelIdeal.Rows2.array (V6 m ρ) c).trans ?_)
  have hx : V6 m ρ c main_v45 = val_main_v47 (F := Ideal) (m ((c.tc : Thread nD τ).loc main_arg0)) (m ((c.tc : Thread nD τ).loc main_arg1)) (m ((c.tc : Thread nD τ).loc main_arg2)) (m ((c.tc : Thread nD τ).loc main_arg3)) := w6_act m ρ c
  have hw : V6 m ρ c main_arg4 = (m ((c.tc : Thread nD τ).loc main_arg4)) := w6_arg4 m ρ c
  rw [hx, hw]
  unfold val_main_v48
  rw [← dims128]
theorem w7_src : W7 m ρ c (Proc.devRef .tc main_v3) = val_main_v3 (F := Ideal) (m ((c.tc : Thread nD τ).loc main_arg1)) := (W7_of_ne m ρ c main_v3 (by decide)).trans (w6_src m ρ c)
theorem w7_dst : W7 m ρ c (Proc.devRef .tc main_v6) = val_main_v6 (F := Ideal) (m ((c.tc : Thread nD τ).loc main_arg1)) := (W7_of_ne m ρ c main_v6 (by decide)).trans (w6_dst m ρ c)
theorem w7_coef : W7 m ρ c (Proc.devRef .tc main_v30) = val_main_v38 (F := Ideal) (m ((c.tc : Thread nD τ).loc main_arg1)) := (W7_of_ne m ρ c main_v30 (by decide)).trans (w6_coef m ρ c)
theorem w7_arg5 : W7 m ρ c (Proc.devRef .tc main_arg5) = (m ((c.tc : Thread nD τ).loc main_arg5)) := (W7_of_ne m ρ c main_arg5 (by decide)).trans (w6_arg5 m ρ c)
theorem w7_arg6 : W7 m ρ c (Proc.devRef .tc main_arg6) = (m ((c.tc : Thread nD τ).loc main_arg6)) := (W7_of_ne m ρ c main_arg6 (by decide)).trans (w6_arg6 m ρ c)
theorem w7_arg7 : W7 m ρ c (Proc.devRef .tc main_arg7) = (m ((c.tc : Thread nD τ).loc main_arg7)) := (W7_of_ne m ρ c main_arg7 (by decide)).trans (w6_arg7 m ρ c)

theorem w8_agg : W8 m ρ c (Proc.devRef .tc main_v58) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  Cert.KernelIdeal.Stretches.aggregate2 (W7 m ρ c) _ _ _ _ _ (w7_prod m ρ c) (w7_src m ρ c) (w7_dst m ρ c) (w7_coef m ρ c)
theorem w8_bias : W8 m ρ c (Proc.devRef .tc main_v59) = val_main_v62 (F := Ideal) (m ((c.tc : Thread nD τ).loc main_arg5)) := Cert.KernelIdeal.Stretches.bias_row2 (W7 m ρ c) _ (w7_arg5 m ρ c)
theorem w8_src : W8 m ρ c (Proc.devRef .tc main_v3) = val_main_v3 (F := Ideal) (m ((c.tc : Thread nD τ).loc main_arg1)) := (Cert.KernelIdeal.Stretches.keep_hostOps3_main_v3 (W7 m ρ c)).trans (w7_src m ρ c)
theorem w8_dst : W8 m ρ c (Proc.devRef .tc main_v6) = val_main_v6 (F := Ideal) (m ((c.tc : Thread nD τ).loc main_arg1)) := (Cert.KernelIdeal.Stretches.keep_hostOps3_main_v6 (W7 m ρ c)).trans (w7_dst m ρ c)
theorem w8_coef : W8 m ρ c (Proc.devRef .tc main_v30) = val_main_v38 (F := Ideal) (m ((c.tc : Thread nD τ).loc main_arg1)) := (Cert.KernelIdeal.Stretches.keep_hostOps3_main_v30 (W7 m ρ c)).trans (w7_coef m ρ c)
theorem w8_arg6 : W8 m ρ c (Proc.devRef .tc main_arg6) = (m ((c.tc : Thread nD τ).loc main_arg6)) := (Cert.KernelIdeal.Stretches.keep_hostOps3_main_arg6 (W7 m ρ c)).trans (w7_arg6 m ρ c)
theorem w8_arg7 : W8 m ρ c (Proc.devRef .tc main_arg7) = (m ((c.tc : Thread nD τ).loc main_arg7)) := (Cert.KernelIdeal.Stretches.keep_hostOps3_main_arg7 (W7 m ρ c)).trans (w7_arg7 m ρ c)

/-- Region 3: bias and positive part. -/
theorem w9_act : W9 m ρ c (Proc.devRef .tc main_v60) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W9_arr m ρ c 2).trans ((Cert.KernelIdeal.Rows3.array (V8 m ρ) c).trans ?_)
  have hA : V8 m ρ c main_v58 = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := w8_agg m ρ c
  have hb : V8 m ρ c main_v59 = val_main_v62 (F := Ideal) (m ((c.tc : Thread nD τ).loc main_arg5)) := w8_bias m ρ c
  rw [hA, hb]
  exact Cert.ReferenceIdeal.Layers.relu2 _ _ _ _ _ _
theorem w9_src : W9 m ρ c (Proc.devRef .tc main_v3) = val_main_v3 (F := Ideal) (m ((c.tc : Thread nD τ).loc main_arg1)) := (W9_of_ne m ρ c main_v3 (by decide)).trans (w8_src m ρ c)
theorem w9_dst : W9 m ρ c (Proc.devRef .tc main_v6) = val_main_v6 (F := Ideal) (m ((c.tc : Thread nD τ).loc main_arg1)) := (W9_of_ne m ρ c main_v6 (by decide)).trans (w8_dst m ρ c)
theorem w9_coef : W9 m ρ c (Proc.devRef .tc main_v30) = val_main_v38 (F := Ideal) (m ((c.tc : Thread nD τ).loc main_arg1)) := (W9_of_ne m ρ c main_v30 (by decide)).trans (w8_coef m ρ c)
theorem w9_arg6 : W9 m ρ c (Proc.devRef .tc main_arg6) = (m ((c.tc : Thread nD τ).loc main_arg6)) := (W9_of_ne m ρ c main_arg6 (by decide)).trans (w8_arg6 m ρ c)
theorem w9_arg7 : W9 m ρ c (Proc.devRef .tc main_arg7) = (m ((c.tc : Thread nD τ).loc main_arg7)) := (W9_of_ne m ρ c main_arg7 (by decide)).trans (w8_arg7 m ρ c)

/-! ## Layer 3 -/

/-- Region 4: the product with the third weight. -/
theorem w10_prod : W10 m ρ c (Proc.devRef .tc main_v61) = val_main_v66 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W10_arr m ρ c 2).trans ((Cert.KernelIdeal.Rows4.array (V9 m ρ) c).trans ?_)
  have hx : V9 m ρ c main_v60 = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := w9_act m ρ c
  have hw : V9 m ρ c main_arg6 = (m ((c.tc : Thread nD τ).loc main_arg6)) := w9_arg6 m ρ c
  rw [hx, hw]
  unfold val_main_v66
  rw [← dims64]
theorem w10_src : W10 m ρ c (Proc.devRef .tc main_v3) = val_main_v3 (F := Ideal) (m ((c.tc : Thread nD τ).loc main_arg1)) := (W10_of_ne m ρ c main_v3 (by decide)).trans (w9_src m ρ c)
theorem w10_dst : W10 m ρ c (Proc.devRef .tc main_v6) = val_main_v6 (F := Ideal) (m ((c.tc : Thread nD τ).loc main_arg1)) := (W10_of_ne m ρ c main_v6 (by decide)).trans (w9_dst m ρ c)
theorem w10_coef : W10 m ρ c (Proc.devRef .tc main_v30) = val_main_v38 (F := Ideal) (m ((c.tc : Thread nD τ).loc main_arg1)) := (W10_of_ne m ρ c main_v30 (by decide)).trans (w9_coef m ρ c)
theorem w10_arg7 : W10 m ρ c (Proc.devRef .tc main_arg7) = (m ((c.tc : Thread nD τ).loc main_arg7)) := (W10_of_ne m ρ c main_arg7 (by decide)).trans (w9_arg7 m ρ c)

theorem w11_agg : W11 m ρ c (Proc.devRef .tc main_v73) = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  Cert.KernelIdeal.Stretches.aggregate3 (W10 m ρ c) _ _ _ _ _ _ _ (w10_prod m ρ c) (w10_src m ρ c) (w10_dst m ρ c) (w10_coef m ρ c)
theorem w11_bias : W11 m ρ c (Proc.devRef .tc main_v74) = val_main_v80 (F := Ideal) (m ((c.tc : Thread nD τ).loc main_arg7)) := Cert.KernelIdeal.Stretches.bias_row3 (W10 m ρ c) _ (w10_arg7 m ρ c)

/-- Region 5: bias and log-softmax. THE RESULT ARRAY at the last boundary is the reference's last stage of the arguments. -/
theorem result : W12 m ρ c (Proc.devRef .tc main_v75) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W12_arr m ρ c 2).trans ((Cert.KernelIdeal.Rows5.array (V11 m ρ) c).trans ?_)
  have hA : V11 m ρ c main_v73 = val_main_v79 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := w11_agg m ρ c
  have hb : V11 m ρ c main_v74 = val_main_v80 (F := Ideal) (m ((c.tc : Thread nD τ).loc main_arg7)) := w11_bias m ρ c
  rw [hA, hb]
  exact Cert.ReferenceIdeal.Layers.logsoftmax _ _ _ _ _ _ _ _

/-! ## The run -/

/-- Every weakly fair execution of the kernel's @main terminates, nothing faulting, with the result array at the
    reference's last stage of the argument arrays, and the arguments unchanged. -/
theorem run : θ_run defs (onTc (τ := τ) (main (F := Ideal))) ⟨m, fun _ => 0, ρ⟩ (fun r => ∀ c : Dev nD,
      r.2.mem ((c.tc : Thread nD τ).loc main_v75) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result m ρ c), (h c).2⟩) (Cert.KernelIdeal.Result.run m ρ)

end Cert.KernelIdeal.Chain

end
-- ==== Proof.LibTypedRefs.lean ====
/-
  Transport along a typed reference's type equation, removed.

  A typed reference carries an equation "the buffer's type is T", and a value at type T is moved to the buffer's own
  type, and back, along that equation. Whatever the equation's proof, the two transports undo each other; and a
  transported value equals any value it is heterogeneously equal to, so once the reference is a literal whose type
  computes to T the transport can be dropped on both the reading and the writing side. Proved for an arbitrary typed
  reference by replacing T with the buffer's type.
-/
import Idealize.ShloMosaic.Lib.StableHlo

namespace Cert.Lib.TypedRefs

open Idealize.ShloMosaic Idealize.ShloMosaic.StableHlo

variable {sig : RefSig} {Val : EltTy → Type} {T : BufTy}

/-- Moving a value to the buffer's type and back gives the value. -/
theorem ofBuf_toBuf (x : TRef sig T) (v : T.Contents Val) : x.ofBuf (x.toBuf v) = v := by
  obtain ⟨r, e, hd, hu⟩ := x
  subst e
  rfl

/-- Buffer contents read at the value's type are any value they are heterogeneously equal to. -/
theorem ofBuf_eq (x : TRef sig T) (w : x.ref.ty.Contents Val) (v : T.Contents Val) (h : HEq w v) : x.ofBuf w = v := by
  obtain ⟨r, e, hd, hu⟩ := x
  subst e
  exact eq_of_heq h

/-- A value moved to the buffer's type is any buffer contents it is heterogeneously equal to. -/
theorem toBuf_eq (x : TRef sig T) (v : T.Contents Val) (w : x.ref.ty.Contents Val) (h : HEq v w) : x.toBuf v = w := by
  obtain ⟨r, e, hd, hu⟩ := x
  subst e
  exact eq_of_heq h

end Cert.Lib.TypedRefs
-- ==== Proof.RefValue.lean ====
/-
  The reference program's run, read back in stages.

  The reference is a straight line of 121 host operations. Its list is cut here at the values the kernel's program also
  names — the edge data (sources, destinations, the guarded reciprocal square root of the degree, the per-edge
  coefficient), then each layer's output before and after its activation, then the final log-softmax — and each piece
  is read back for ANY buffer contents X at its entry: if the buffers it reads hold the named values of the arguments,
  so does the buffer it writes; what a piece does not write it keeps. Composed from the launch memory, the pieces give
  the result array as the last stage's function of the eight arguments.
-/
import proofs.«163187_j24257975287859_1_alg».proof.Proof.RefRead
import proofs.«163187_j24257975287859_1_alg».proof.Proof.LibTypedRefs
import Idealize.ShloMosaic.Lib.StableHlo.Run

noncomputable section

namespace Cert.ReferenceIdeal.RefValue

open Idealize.ShloMosaic Idealize.ShloMosaic.TcCoe Idealize.ShloMosaic.StableHlo Idealize.SL.Sem
open Cert.ReferenceIdeal Cert.ReferenceIdeal.Gen Cert.ReferenceIdeal.ValueP Cert.ReferenceIdeal.ReadP

/-! ## The operation list in nine pieces -/

section Pieces

variable {F : FTy → Type} [FloatOps F]

/-- Sources, destinations, the degree, its positivity test and reciprocal square root. -/
abbrev edgeOps : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- The guarded reciprocal square root (zero where the degree is not positive). -/
abbrev guardOps : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- The per-edge coefficient: the guarded root gathered at both ends of each edge, multiplied. -/
abbrev coefOps : List (HloOp τ sig (Elt F)) :=
  [ nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)) ]

/-- Layer 1 up to the bias: product with the weight, aggregation over the edges, bias. -/
abbrev pre1Ops : List (HloOp τ sig (Elt F)) :=
  [ binary main_arg0 main_arg2 main_v30 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x128 ![0, 1] bcast_S1700000x1_S1700000x128_0_1 : (⟨S1700000x1, .f32⟩ : BufTy).Contents (Elt F) → (⟨S1700000x128, .f32⟩ : BufTy).Contents (Elt F)),
    binary main_v37 main_v39 main_v40 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v41 (broadcastInDim S100000x128 ![] bcast_S_S100000x128 : (⟨S_, .f32⟩ : BufTy).Contents (Elt F) → (⟨S100000x128, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v43 main_v45 main_v46 (addf : (⟨S100000x128, .f32⟩ : BufTy).Contents (Elt F) → (⟨S100000x128, .f32⟩ : BufTy).Contents (Elt F) → (⟨S100000x128, .f32⟩ : BufTy).Contents (Elt F)) ]

/-- Layer 1's positive part. -/
abbrev act1Ops : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v46) (TRef.of (T := ⟨S100000x128, .f32⟩) main_call1_v0) (TRef.of (T := ⟨S100000x128, .f32⟩) main_v47) maximumf ]

/-- Layer 2 up to the bias, on layer 1's output. -/
abbrev pre2Ops : List (HloOp τ sig (Elt F)) :=
  [ binary main_v47 main_arg4 main_v48 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_9 (constantI S_ 32 0#32),
    unary main_c_9 main_v49 (broadcastInDim S1700000 ![] bcast_S_S1700000 : (⟨S_, .i32⟩ : BufTy).Contents (Elt F) → (⟨S1700000, .i32⟩ : BufTy).Contents (Elt F)),
    binary main_v3 main_v49 main_v50 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v51 (broadcastInDim S1700000 ![] bcast_S_S1700000 : (⟨S_, .i32⟩ : BufTy).Contents (Elt F) → (⟨S1700000, .i32⟩ : BufTy).Contents (Elt F)),
    binary main_v3 main_v51 main_v52 (addi : (⟨S1700000, .i32⟩ : BufTy).Contents (Elt F) → (⟨S1700000, .i32⟩ : BufTy).Contents (Elt F) → (⟨S1700000, .i32⟩ : BufTy).Contents (Elt F)),
    ternary main_v50 main_v52 main_v3 main_v53 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v53 main_v54 (broadcastInDim S1700000x1 ![0] bcast_S1700000_S1700000x1_0 : (⟨S1700000, .i32⟩ : BufTy).Contents (Elt F) → (⟨S1700000x1, .i32⟩ : BufTy).Contents (Elt F)),
    binary main_v48 main_v54 main_v55 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v29 main_v56 (broadcastInDim S1700000x1 ![0] bcast_S1700000_S1700000x1_0 : (⟨S1700000, .f32⟩ : BufTy).Contents (Elt F) → (⟨S1700000x1, .f32⟩ : BufTy).Contents (Elt F)),
    unary main_v56 main_v57 (broadcastInDim S1700000x128 ![0, 1] bcast_S1700000x1_S1700000x128_0_1 : (⟨S1700000x1, .f32⟩ : BufTy).Contents (Elt F) → (⟨S1700000x128, .f32⟩ : BufTy).Contents (Elt F)),
    binary main_v55 main_v57 main_v58 (mulf : (⟨S1700000x128, .f32⟩ : BufTy).Contents (Elt F) → (⟨S1700000x128, .f32⟩ : BufTy).Contents (Elt F) → (⟨S1700000x128, .f32⟩ : BufTy).Contents (Elt F)),
    nullary main_cst_11 (constant S_ .f32 0x00000000#32),
    unary main_cst_11 main_v59 (broadcastInDim S100000x128 ![] bcast_S_S100000x128 : (⟨S_, .f32⟩ : BufTy).Contents (Elt F) → (⟨S100000x128, .f32⟩ : BufTy).Contents (Elt F)),
    unary main_v6 main_v60 (broadcastInDim S1700000x1 ![0] bcast_S1700000_S1700000x1_0 : (⟨S1700000, .i32⟩ : BufTy).Contents (Elt F) → (⟨S1700000x1, .i32⟩ : BufTy).Contents (Elt F)),
    ternary main_v59 main_v60 main_v58 main_v61 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v62 (broadcastInDim S1x128 ![1] bcast_S128_S1x128_1 : (⟨S128, .f32⟩ : BufTy).Contents (Elt F) → (⟨S1x128, .f32⟩ : BufTy).Contents (Elt F)),
    unary main_v62 main_v63 (broadcastInDim S100000x128 ![0, 1] bcast_S1x128_S100000x128_0_1 : (⟨S1x128, .f32⟩ : BufTy).Contents (Elt F) → (⟨S100000x128, .f32⟩ : BufTy).Contents (Elt F)),
    binary main_v61 main_v63 main_v64 (addf : (⟨S100000x128, .f32⟩ : BufTy).Contents (Elt F) → (⟨S100000x128, .f32⟩ : BufTy).Contents (Elt F) → (⟨S100000x128, .f32⟩ : BufTy).Contents (Elt F)) ]

/-- Layer 2's positive part. -/
abbrev act2Ops : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v64) (TRef.of (T := ⟨S100000x128, .f32⟩) main_call2_v0) (TRef.of (T := ⟨S100000x128, .f32⟩) main_v65) maximumf ]

/-- Layer 3: product, aggregation and bias. -/
abbrev layer3Ops : List (HloOp τ sig (Elt F)) :=
  [ binary main_v65 main_arg6 main_v66 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_12 (constantI S_ 32 0#32),
    unary main_c_12 main_v67 (broadcastInDim S1700000 ![] bcast_S_S1700000 : (⟨S_, .i32⟩ : BufTy).Contents (Elt F) → (⟨S1700000, .i32⟩ : BufTy).Contents (Elt F)),
    binary main_v3 main_v67 main_v68 (cmpi .slt : (⟨S1700000, .i32⟩ : BufTy).Contents (Elt F) → (⟨S1700000, .i32⟩ : BufTy).Contents (Elt F) → (⟨S1700000, .i1⟩ : BufTy).Contents (Elt F)),
    nullary main_c_13 (constantI S_ 32 100000#32),
    unary main_c_13 main_v69 (broadcastInDim S1700000 ![] bcast_S_S1700000 : (⟨S_, .i32⟩ : BufTy).Contents (Elt F) → (⟨S1700000, .i32⟩ : BufTy).Contents (Elt F)),
    binary main_v3 main_v69 main_v70 (addi : (⟨S1700000, .i32⟩ : BufTy).Contents (Elt F) → (⟨S1700000, .i32⟩ : BufTy).Contents (Elt F) → (⟨S1700000, .i32⟩ : BufTy).Contents (Elt F)),
    ternary main_v68 main_v70 main_v3 main_v71 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v71 main_v72 (broadcastInDim S1700000x1 ![0] bcast_S1700000_S1700000x1_0 : (⟨S1700000, .i32⟩ : BufTy).Contents (Elt F) → (⟨S1700000x1, .i32⟩ : BufTy).Contents (Elt F)),
    binary main_v66 main_v72 main_v73 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v74 (broadcastInDim S1700000x1 ![0] bcast_S1700000_S1700000x1_0 : (⟨S1700000, .f32⟩ : BufTy).Contents (Elt F) → (⟨S1700000x1, .f32⟩ : BufTy).Contents (Elt F)),
    unary main_v74 main_v75 (broadcastInDim S1700000x64 ![0, 1] bcast_S1700000x1_S1700000x64_0_1 : (⟨S1700000x1, .f32⟩ : BufTy).Contents (Elt F) → (⟨S1700000x64, .f32⟩ : BufTy).Contents (Elt F)),
    binary main_v73 main_v75 main_v76 (mulf : (⟨S1700000x64, .f32⟩ : BufTy).Contents (Elt F) → (⟨S1700000x64, .f32⟩ : BufTy).Contents (Elt F) → (⟨S1700000x64, .f32⟩ : BufTy).Contents (Elt F)),
    nullary main_cst_14 (constant S_ .f32 0x00000000#32),
    unary main_cst_14 main_v77 (broadcastInDim S100000x64 ![] bcast_S_S100000x64 : (⟨S_, .f32⟩ : BufTy).Contents (Elt F) → (⟨S100000x64, .f32⟩ : BufTy).Contents (Elt F)),
    unary main_v6 main_v78 (broadcastInDim S1700000x1 ![0] bcast_S1700000_S1700000x1_0 : (⟨S1700000, .i32⟩ : BufTy).Contents (Elt F) → (⟨S1700000x1, .i32⟩ : BufTy).Contents (Elt F)),
    ternary main_v77 main_v78 main_v76 main_v79 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v80 (broadcastInDim S1x64 ![1] bcast_S64_S1x64_1 : (⟨S64, .f32⟩ : BufTy).Contents (Elt F) → (⟨S1x64, .f32⟩ : BufTy).Contents (Elt F)),
    unary main_v80 main_v81 (broadcastInDim S100000x64 ![0, 1] bcast_S1x64_S100000x64_0_1 : (⟨S1x64, .f32⟩ : BufTy).Contents (Elt F) → (⟨S100000x64, .f32⟩ : BufTy).Contents (Elt F)),
    binary main_v79 main_v81 main_v82 (addf : (⟨S100000x64, .f32⟩ : BufTy).Contents (Elt F) → (⟨S100000x64, .f32⟩ : BufTy).Contents (Elt F) → (⟨S100000x64, .f32⟩ : BufTy).Contents (Elt F)) ]

/-- The log-softmax of each row. -/
abbrev softmaxOps : List (HloOp τ sig (Elt F)) :=
  [ TRef.nullary (TRef.of (T := ⟨S_, .f32⟩) main_call3_cst) (constant S_ .f32 0xFF800000#32),
    TRef.binary (TRef.of (T := ⟨S100000x64, .f32⟩) main_v82) (TRef.of (T := ⟨S_, .f32⟩) main_call3_cst) (TRef.of (T := ⟨S100000, .f32⟩) main_call3_v0) (fun x v => Host.reduce FloatOps.maximumf x v reducesTo_S100000x64_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x64, .f32⟩) main_call3_v4) (broadcastInDim S100000x64 ![0, 1] bcast_S100000x1_S100000x64_0_1),
    TRef.binary (TRef.of (T := ⟨S100000x64, .f32⟩) main_v82) (TRef.of (T := ⟨S100000x64, .f32⟩) main_call3_v4) (TRef.of (T := ⟨S100000x64, .f32⟩) main_call3_v5) subf,
    TRef.unary (TRef.of (T := ⟨S100000x64, .f32⟩) main_call3_v5) (TRef.of (T := ⟨S100000x64, .f32⟩) main_call3_v6) Host.exp,
    TRef.nullary (TRef.of (T := ⟨S_, .f32⟩) main_call3_cst_1) (constant S_ .f32 0x00000000#32),
    TRef.binary (TRef.of (T := ⟨S100000x64, .f32⟩) main_call3_v6) (TRef.of (T := ⟨S_, .f32⟩) main_call3_cst_1) (TRef.of (T := ⟨S100000, .f32⟩) main_call3_v7) (fun x v => Host.reduceAdd x v reducesTo_S100000x64_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x64, .f32⟩) main_call3_v10) (broadcastInDim S100000x64 ![0, 1] bcast_S100000x1_S100000x64_0_1),
    TRef.binary (TRef.of (T := ⟨S100000x64, .f32⟩) main_call3_v5) (TRef.of (T := ⟨S100000x64, .f32⟩) main_call3_v10) (TRef.of (T := ⟨S100000x64, .f32⟩) main_v83) subf ]

theorem ops_split : (ops : List (HloOp τ sig (Elt F))) = edgeOps ++ (guardOps ++ (coefOps ++ (pre1Ops ++ (act1Ops ++ (pre2Ops ++ (act2Ops ++ (layer3Ops ++ (softmaxOps)))))))) := rfl

end Pieces

theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih (op.result V)

variable (X : Valuation τ sig (Elt Ideal))

/-! ## Each piece, from any entry contents -/

theorem sources : after (edgeOps (F := Ideal)) X (Proc.devRef .tc main_v3) = val_main_v3 (F := Ideal) (X (Proc.devRef .tc main_arg1)) := by
  after_results; rfl
theorem destinations : after (edgeOps (F := Ideal)) X (Proc.devRef .tc main_v6) = val_main_v6 (F := Ideal) (X (Proc.devRef .tc main_arg1)) := by
  after_results; rfl
theorem degree_positive : after (edgeOps (F := Ideal)) X (Proc.devRef .tc main_v12) = val_main_v12 (F := Ideal) (X (Proc.devRef .tc main_arg1)) := by
  after_results; rfl
theorem degree_rsqrt : after (edgeOps (F := Ideal)) X (Proc.devRef .tc main_v13) = val_main_v13 (F := Ideal) (X (Proc.devRef .tc main_arg1)) := by
  after_results; rfl
theorem zero_word : after (edgeOps (F := Ideal)) X (Proc.devRef .tc main_cst_2) = val_main_cst_2 (F := Ideal) := by
  after_results; rfl

theorem guarded_rsqrt (a1 : (⟨S2x1600000, .i32⟩ : BufTy).Contents (Elt Ideal))
    (h12 : X (Proc.devRef .tc main_v12) = val_main_v12 (F := Ideal) a1) (h13 : X (Proc.devRef .tc main_v13) = val_main_v13 (F := Ideal) a1)
    (hz : X (Proc.devRef .tc main_cst_2) = val_main_cst_2 (F := Ideal)) :
    after (guardOps (F := Ideal)) X (Proc.devRef .tc main_v14) = val_main_v14 (F := Ideal) a1 := by
  after_results_simp
  simp only [TRef.toBuf, TRef.ofBuf, cast_eq]
  rw [h12, h13, hz]
  exact rfl

theorem coefficient (a1 : (⟨S2x1600000, .i32⟩ : BufTy).Contents (Elt Ideal))
    (h14 : X (Proc.devRef .tc main_v14) = val_main_v14 (F := Ideal) a1) (h3 : X (Proc.devRef .tc main_v3) = val_main_v3 (F := Ideal) a1)
    (h6 : X (Proc.devRef .tc main_v6) = val_main_v6 (F := Ideal) a1) :
    after (coefOps (F := Ideal)) X (Proc.devRef .tc main_v29) = val_main_v29 (F := Ideal) a1 := by
  after_results_simp
  rw [h14, h3, h6]
  exact rfl

theorem pre1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal))
    (h0 : X (Proc.devRef .tc main_arg0) = a0) (h2 : X (Proc.devRef .tc main_arg2) = a2) (hb : X (Proc.devRef .tc main_arg3) = a3)
    (hn : X (Proc.devRef .tc main_v29) = val_main_v29 (F := Ideal) a1) (h3 : X (Proc.devRef .tc main_v3) = val_main_v3 (F := Ideal) a1)
    (h6 : X (Proc.devRef .tc main_v6) = val_main_v6 (F := Ideal) a1) :
    after (pre1Ops (F := Ideal)) X (Proc.devRef .tc main_v46) = val_main_v46 (F := Ideal) a0 a1 a2 a3 := by
  after_results_simp
  rw [h0, h2, hb, hn, h3, h6]
  exact rfl

theorem act1 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (hh : X (Proc.devRef .tc main_v46) = val_main_v46 (F := Ideal) a0 a1 a2 a3) :
    after (act1Ops (F := Ideal)) X (Proc.devRef .tc main_v47) = val_main_v47 (F := Ideal) a0 a1 a2 a3 := by
  after_results_simp
  simp only [Cert.Lib.TypedRefs.ofBuf_toBuf]
  refine Cert.Lib.TypedRefs.toBuf_eq _ _ _ (heq_of_eq ?_)
  rw [Cert.Lib.TypedRefs.ofBuf_eq (TRef.of (T := ⟨S100000x128, .f32⟩) main_v46) _ _ (heq_of_eq hh)]
  exact rfl

theorem pre2 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal))
    (hh : X (Proc.devRef .tc main_v47) = val_main_v47 (F := Ideal) a0 a1 a2 a3) (hw : X (Proc.devRef .tc main_arg4) = a4) (hb : X (Proc.devRef .tc main_arg5) = a5)
    (hn : X (Proc.devRef .tc main_v29) = val_main_v29 (F := Ideal) a1) (h3 : X (Proc.devRef .tc main_v3) = val_main_v3 (F := Ideal) a1)
    (h6 : X (Proc.devRef .tc main_v6) = val_main_v6 (F := Ideal) a1) :
    after (pre2Ops (F := Ideal)) X (Proc.devRef .tc main_v64) = val_main_v64 (F := Ideal) a0 a1 a2 a3 a4 a5 := by
  after_results_simp
  rw [hh, hw, hb, hn, h3, h6]
  exact rfl

theorem act2 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (hh : X (Proc.devRef .tc main_v64) = val_main_v64 (F := Ideal) a0 a1 a2 a3 a4 a5) :
    after (act2Ops (F := Ideal)) X (Proc.devRef .tc main_v65) = val_main_v65 (F := Ideal) a0 a1 a2 a3 a4 a5 := by
  after_results_simp
  simp only [Cert.Lib.TypedRefs.ofBuf_toBuf]
  refine Cert.Lib.TypedRefs.toBuf_eq _ _ _ (heq_of_eq ?_)
  rw [Cert.Lib.TypedRefs.ofBuf_eq (TRef.of (T := ⟨S100000x128, .f32⟩) main_v64) _ _ (heq_of_eq hh)]
  exact rfl

theorem layer3 (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S128x64, .f32⟩ : BufTy).Contents (Elt Ideal)) (a7 : (⟨S64, .f32⟩ : BufTy).Contents (Elt Ideal))
    (hh : X (Proc.devRef .tc main_v65) = val_main_v65 (F := Ideal) a0 a1 a2 a3 a4 a5) (hw : X (Proc.devRef .tc main_arg6) = a6) (hb : X (Proc.devRef .tc main_arg7) = a7)
    (hn : X (Proc.devRef .tc main_v29) = val_main_v29 (F := Ideal) a1) (h3 : X (Proc.devRef .tc main_v3) = val_main_v3 (F := Ideal) a1)
    (h6 : X (Proc.devRef .tc main_v6) = val_main_v6 (F := Ideal) a1) :
    after (layer3Ops (F := Ideal)) X (Proc.devRef .tc main_v82) = val_main_v82 (F := Ideal) a0 a1 a2 a3 a4 a5 a6 a7 := by
  after_results_simp
  rw [hh, hw, hb, hn, h3, h6]
  exact rfl

theorem softmax (a0 : (⟨S100000x128, .f32⟩ : BufTy).Contents (Elt Ideal)) (a1 : (⟨S2x1600000, .i32⟩ : BufTy).Contents (Elt Ideal)) (a2 : (⟨S128x128, .f32⟩ : BufTy).Contents (Elt Ideal)) (a3 : (⟨S128, .f32⟩ : BufTy).Contents (Elt Ideal)) (a4 : (⟨S128x128, .f32⟩ : BufTy).Contents (Elt Ideal)) (a5 : (⟨S128, .f32⟩ : BufTy).Contents (Elt Ideal)) (a6 : (⟨S128x64, .f32⟩ : BufTy).Contents (Elt Ideal)) (a7 : (⟨S64, .f32⟩ : BufTy).Contents (Elt Ideal)) (hh : X (Proc.devRef .tc main_v82) = val_main_v82 (F := Ideal) a0 a1 a2 a3 a4 a5 a6 a7) :
    after (softmaxOps (F := Ideal)) X (Proc.devRef .tc main_v83) = val_main_v83 (F := Ideal) a0 a1 a2 a3 a4 a5 a6 a7 := by
  after_results_simp
  simp only [Cert.Lib.TypedRefs.ofBuf_toBuf]
  refine Cert.Lib.TypedRefs.toBuf_eq _ _ _ (heq_of_eq ?_)
  rw [Cert.Lib.TypedRefs.ofBuf_eq (TRef.of (T := ⟨S100000x64, .f32⟩) main_v82) _ _ (heq_of_eq hh)]
  exact rfl

/-! ## What a piece does not write, it keeps -/

theorem keep_edgeOps_main_arg0 : after (edgeOps (F := Ideal)) X (Proc.devRef .tc main_arg0) = X (Proc.devRef .tc main_arg0) := by after_results
theorem keep_edgeOps_main_arg2 : after (edgeOps (F := Ideal)) X (Proc.devRef .tc main_arg2) = X (Proc.devRef .tc main_arg2) := by after_results
theorem keep_edgeOps_main_arg3 : after (edgeOps (F := Ideal)) X (Proc.devRef .tc main_arg3) = X (Proc.devRef .tc main_arg3) := by after_results
theorem keep_edgeOps_main_arg4 : after (edgeOps (F := Ideal)) X (Proc.devRef .tc main_arg4) = X (Proc.devRef .tc main_arg4) := by after_results
theorem keep_edgeOps_main_arg5 : after (edgeOps (F := Ideal)) X (Proc.devRef .tc main_arg5) = X (Proc.devRef .tc main_arg5) := by after_results
theorem keep_edgeOps_main_arg6 : after (edgeOps (F := Ideal)) X (Proc.devRef .tc main_arg6) = X (Proc.devRef .tc main_arg6) := by after_results
theorem keep_edgeOps_main_arg7 : after (edgeOps (F := Ideal)) X (Proc.devRef .tc main_arg7) = X (Proc.devRef .tc main_arg7) := by after_results
theorem keep_guardOps_main_v3 : after (guardOps (F := Ideal)) X (Proc.devRef .tc main_v3) = X (Proc.devRef .tc main_v3) := by after_results
theorem keep_guardOps_main_v6 : after (guardOps (F := Ideal)) X (Proc.devRef .tc main_v6) = X (Proc.devRef .tc main_v6) := by after_results
theorem keep_guardOps_main_arg0 : after (guardOps (F := Ideal)) X (Proc.devRef .tc main_arg0) = X (Proc.devRef .tc main_arg0) := by after_results
theorem keep_guardOps_main_arg2 : after (guardOps (F := Ideal)) X (Proc.devRef .tc main_arg2) = X (Proc.devRef .tc main_arg2) := by after_results
theorem keep_guardOps_main_arg3 : after (guardOps (F := Ideal)) X (Proc.devRef .tc main_arg3) = X (Proc.devRef .tc main_arg3) := by after_results
theorem keep_guardOps_main_arg4 : after (guardOps (F := Ideal)) X (Proc.devRef .tc main_arg4) = X (Proc.devRef .tc main_arg4) := by after_results
theorem keep_guardOps_main_arg5 : after (guardOps (F := Ideal)) X (Proc.devRef .tc main_arg5) = X (Proc.devRef .tc main_arg5) := by after_results
theorem keep_guardOps_main_arg6 : after (guardOps (F := Ideal)) X (Proc.devRef .tc main_arg6) = X (Proc.devRef .tc main_arg6) := by after_results
theorem keep_guardOps_main_arg7 : after (guardOps (F := Ideal)) X (Proc.devRef .tc main_arg7) = X (Proc.devRef .tc main_arg7) := by after_results
theorem keep_coefOps_main_v3 : after (coefOps (F := Ideal)) X (Proc.devRef .tc main_v3) = X (Proc.devRef .tc main_v3) := by after_results
theorem keep_coefOps_main_v6 : after (coefOps (F := Ideal)) X (Proc.devRef .tc main_v6) = X (Proc.devRef .tc main_v6) := by after_results
theorem keep_coefOps_main_arg0 : after (coefOps (F := Ideal)) X (Proc.devRef .tc main_arg0) = X (Proc.devRef .tc main_arg0) := by after_results
theorem keep_coefOps_main_arg2 : after (coefOps (F := Ideal)) X (Proc.devRef .tc main_arg2) = X (Proc.devRef .tc main_arg2) := by after_results
theorem keep_coefOps_main_arg3 : after (coefOps (F := Ideal)) X (Proc.devRef .tc main_arg3) = X (Proc.devRef .tc main_arg3) := by after_results
theorem keep_coefOps_main_arg4 : after (coefOps (F := Ideal)) X (Proc.devRef .tc main_arg4) = X (Proc.devRef .tc main_arg4) := by after_results
theorem keep_coefOps_main_arg5 : after (coefOps (F := Ideal)) X (Proc.devRef .tc main_arg5) = X (Proc.devRef .tc main_arg5) := by after_results
theorem keep_coefOps_main_arg6 : after (coefOps (F := Ideal)) X (Proc.devRef .tc main_arg6) = X (Proc.devRef .tc main_arg6) := by after_results
theorem keep_coefOps_main_arg7 : after (coefOps (F := Ideal)) X (Proc.devRef .tc main_arg7) = X (Proc.devRef .tc main_arg7) := by after_results
theorem keep_pre1Ops_main_v3 : after (pre1Ops (F := Ideal)) X (Proc.devRef .tc main_v3) = X (Proc.devRef .tc main_v3) := by after_results
theorem keep_pre1Ops_main_v6 : after (pre1Ops (F := Ideal)) X (Proc.devRef .tc main_v6) = X (Proc.devRef .tc main_v6) := by after_results
theorem keep_pre1Ops_main_v29 : after (pre1Ops (F := Ideal)) X (Proc.devRef .tc main_v29) = X (Proc.devRef .tc main_v29) := by after_results
theorem keep_pre1Ops_main_arg4 : after (pre1Ops (F := Ideal)) X (Proc.devRef .tc main_arg4) = X (Proc.devRef .tc main_arg4) := by after_results
theorem keep_pre1Ops_main_arg5 : after (pre1Ops (F := Ideal)) X (Proc.devRef .tc main_arg5) = X (Proc.devRef .tc main_arg5) := by after_results
theorem keep_pre1Ops_main_arg6 : after (pre1Ops (F := Ideal)) X (Proc.devRef .tc main_arg6) = X (Proc.devRef .tc main_arg6) := by after_results
theorem keep_pre1Ops_main_arg7 : after (pre1Ops (F := Ideal)) X (Proc.devRef .tc main_arg7) = X (Proc.devRef .tc main_arg7) := by after_results
theorem keep_act1Ops_main_v3 : after (act1Ops (F := Ideal)) X (Proc.devRef .tc main_v3) = X (Proc.devRef .tc main_v3) := by after_results
theorem keep_act1Ops_main_v6 : after (act1Ops (F := Ideal)) X (Proc.devRef .tc main_v6) = X (Proc.devRef .tc main_v6) := by after_results
theorem keep_act1Ops_main_v29 : after (act1Ops (F := Ideal)) X (Proc.devRef .tc main_v29) = X (Proc.devRef .tc main_v29) := by after_results
theorem keep_act1Ops_main_arg4 : after (act1Ops (F := Ideal)) X (Proc.devRef .tc main_arg4) = X (Proc.devRef .tc main_arg4) := by after_results
theorem keep_act1Ops_main_arg5 : after (act1Ops (F := Ideal)) X (Proc.devRef .tc main_arg5) = X (Proc.devRef .tc main_arg5) := by after_results
theorem keep_act1Ops_main_arg6 : after (act1Ops (F := Ideal)) X (Proc.devRef .tc main_arg6) = X (Proc.devRef .tc main_arg6) := by after_results
theorem keep_act1Ops_main_arg7 : after (act1Ops (F := Ideal)) X (Proc.devRef .tc main_arg7) = X (Proc.devRef .tc main_arg7) := by after_results
theorem keep_pre2Ops_main_v3 : after (pre2Ops (F := Ideal)) X (Proc.devRef .tc main_v3) = X (Proc.devRef .tc main_v3) := by after_results
theorem keep_pre2Ops_main_v6 : after (pre2Ops (F := Ideal)) X (Proc.devRef .tc main_v6) = X (Proc.devRef .tc main_v6) := by after_results
theorem keep_pre2Ops_main_v29 : after (pre2Ops (F := Ideal)) X (Proc.devRef .tc main_v29) = X (Proc.devRef .tc main_v29) := by after_results
theorem keep_pre2Ops_main_arg6 : after (pre2Ops (F := Ideal)) X (Proc.devRef .tc main_arg6) = X (Proc.devRef .tc main_arg6) := by after_results
theorem keep_pre2Ops_main_arg7 : after (pre2Ops (F := Ideal)) X (Proc.devRef .tc main_arg7) = X (Proc.devRef .tc main_arg7) := by after_results
theorem keep_act2Ops_main_v3 : after (act2Ops (F := Ideal)) X (Proc.devRef .tc main_v3) = X (Proc.devRef .tc main_v3) := by after_results
theorem keep_act2Ops_main_v6 : after (act2Ops (F := Ideal)) X (Proc.devRef .tc main_v6) = X (Proc.devRef .tc main_v6) := by after_results
theorem keep_act2Ops_main_v29 : after (act2Ops (F := Ideal)) X (Proc.devRef .tc main_v29) = X (Proc.devRef .tc main_v29) := by after_results
theorem keep_act2Ops_main_arg6 : after (act2Ops (F := Ideal)) X (Proc.devRef .tc main_arg6) = X (Proc.devRef .tc main_arg6) := by after_results
theorem keep_act2Ops_main_arg7 : after (act2Ops (F := Ideal)) X (Proc.devRef .tc main_arg7) = X (Proc.devRef .tc main_arg7) := by after_results

/-! ## The whole line, from the launch memory -/

variable (m : (ℓ : Loc nD τ sig) → Buf (Elt Ideal) ℓ) (c : Dev nD)

/-- The result array after all 121 operations is the last stage's function of the eight argument arrays. -/
theorem result_eq :
    after (ops : List (HloOp τ sig (Elt Ideal))) (launchContents m c) (Proc.devRef .tc main_v83)
      = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [ops_split (F := Ideal)]
  simp only [after_append]
  generalize hX0 : launchContents m c = X0
  have e : ∀ b : Ref sig .tc, X0 (Proc.devRef .tc b) = m ((c.tc : Thread nD τ).loc b) := fun b => by rw [← hX0]
  have f0_arg0 : X0 (Proc.devRef .tc main_arg0) = m ((c.tc : Thread nD τ).loc main_arg0) := e main_arg0
  have f0_arg1 : X0 (Proc.devRef .tc main_arg1) = m ((c.tc : Thread nD τ).loc main_arg1) := e main_arg1
  have f0_arg2 : X0 (Proc.devRef .tc main_arg2) = m ((c.tc : Thread nD τ).loc main_arg2) := e main_arg2
  have f0_arg3 : X0 (Proc.devRef .tc main_arg3) = m ((c.tc : Thread nD τ).loc main_arg3) := e main_arg3
  have f0_arg4 : X0 (Proc.devRef .tc main_arg4) = m ((c.tc : Thread nD τ).loc main_arg4) := e main_arg4
  have f0_arg5 : X0 (Proc.devRef .tc main_arg5) = m ((c.tc : Thread nD τ).loc main_arg5) := e main_arg5
  have f0_arg6 : X0 (Proc.devRef .tc main_arg6) = m ((c.tc : Thread nD τ).loc main_arg6) := e main_arg6
  have f0_arg7 : X0 (Proc.devRef .tc main_arg7) = m ((c.tc : Thread nD τ).loc main_arg7) := e main_arg7
  have f1_v3 : (after (edgeOps (F := Ideal)) X0) (Proc.devRef .tc main_v3) = val_main_v3 (F := Ideal) (m ((c.tc : Thread nD τ).loc main_arg1)) := (sources X0).trans (by rw [f0_arg1])
  have f1_v6 : (after (edgeOps (F := Ideal)) X0) (Proc.devRef .tc main_v6) = val_main_v6 (F := Ideal) (m ((c.tc : Thread nD τ).loc main_arg1)) := (destinations X0).trans (by rw [f0_arg1])
  have f1_v12 : (after (edgeOps (F := Ideal)) X0) (Proc.devRef .tc main_v12) = val_main_v12 (F := Ideal) (m ((c.tc : Thread nD τ).loc main_arg1)) := (degree_positive X0).trans (by rw [f0_arg1])
  have f1_v13 : (after (edgeOps (F := Ideal)) X0) (Proc.devRef .tc main_v13) = val_main_v13 (F := Ideal) (m ((c.tc : Thread nD τ).loc main_arg1)) := (degree_rsqrt X0).trans (by rw [f0_arg1])
  have f1_z : (after (edgeOps (F := Ideal)) X0) (Proc.devRef .tc main_cst_2) = val_main_cst_2 (F := Ideal) := zero_word X0
  have f1_arg0 : (after (edgeOps (F := Ideal)) X0) (Proc.devRef .tc main_arg0) = m ((c.tc : Thread nD τ).loc main_arg0) := (keep_edgeOps_main_arg0 X0).trans f0_arg0
  have f1_arg2 : (after (edgeOps (F := Ideal)) X0) (Proc.devRef .tc main_arg2) = m ((c.tc : Thread nD τ).loc main_arg2) := (keep_edgeOps_main_arg2 X0).trans f0_arg2
  have f1_arg3 : (after (edgeOps (F := Ideal)) X0) (Proc.devRef .tc main_arg3) = m ((c.tc : Thread nD τ).loc main_arg3) := (keep_edgeOps_main_arg3 X0).trans f0_arg3
  have f1_arg4 : (after (edgeOps (F := Ideal)) X0) (Proc.devRef .tc main_arg4) = m ((c.tc : Thread nD τ).loc main_arg4) := (keep_edgeOps_main_arg4 X0).trans f0_arg4
  have f1_arg5 : (after (edgeOps (F := Ideal)) X0) (Proc.devRef .tc main_arg5) = m ((c.tc : Thread nD τ).loc main_arg5) := (keep_edgeOps_main_arg5 X0).trans f0_arg5
  have f1_arg6 : (after (edgeOps (F := Ideal)) X0) (Proc.devRef .tc main_arg6) = m ((c.tc : Thread nD τ).loc main_arg6) := (keep_edgeOps_main_arg6 X0).trans f0_arg6
  have f1_arg7 : (after (edgeOps (F := Ideal)) X0) (Proc.devRef .tc main_arg7) = m ((c.tc : Thread nD τ).loc main_arg7) := (keep_edgeOps_main_arg7 X0).trans f0_arg7
  have f2_v14 : (after (guardOps (F := Ideal)) (after (edgeOps (F := Ideal)) X0)) (Proc.devRef .tc main_v14) = val_main_v14 (F := Ideal) (m ((c.tc : Thread nD τ).loc main_arg1)) := guarded_rsqrt (after (edgeOps (F := Ideal)) X0) _ f1_v12 f1_v13 f1_z
  have f2_v3 : (after (guardOps (F := Ideal)) (after (edgeOps (F := Ideal)) X0)) (Proc.devRef .tc main_v3) = val_main_v3 (F := Ideal) (m ((c.tc : Thread nD τ).loc main_arg1)) := (keep_guardOps_main_v3 (after (edgeOps (F := Ideal)) X0)).trans f1_v3
  have f2_v6 : (after (guardOps (F := Ideal)) (after (edgeOps (F := Ideal)) X0)) (Proc.devRef .tc main_v6) = val_main_v6 (F := Ideal) (m ((c.tc : Thread nD τ).loc main_arg1)) := (keep_guardOps_main_v6 (after (edgeOps (F := Ideal)) X0)).trans f1_v6
  have f2_arg0 : (after (guardOps (F := Ideal)) (after (edgeOps (F := Ideal)) X0)) (Proc.devRef .tc main_arg0) = m ((c.tc : Thread nD τ).loc main_arg0) := (keep_guardOps_main_arg0 (after (edgeOps (F := Ideal)) X0)).trans f1_arg0
  have f2_arg2 : (after (guardOps (F := Ideal)) (after (edgeOps (F := Ideal)) X0)) (Proc.devRef .tc main_arg2) = m ((c.tc : Thread nD τ).loc main_arg2) := (keep_guardOps_main_arg2 (after (edgeOps (F := Ideal)) X0)).trans f1_arg2
  have f2_arg3 : (after (guardOps (F := Ideal)) (after (edgeOps (F := Ideal)) X0)) (Proc.devRef .tc main_arg3) = m ((c.tc : Thread nD τ).loc main_arg3) := (keep_guardOps_main_arg3 (after (edgeOps (F := Ideal)) X0)).trans f1_arg3
  have f2_arg4 : (after (guardOps (F := Ideal)) (after (edgeOps (F := Ideal)) X0)) (Proc.devRef .tc main_arg4) = m ((c.tc : Thread nD τ).loc main_arg4) := (keep_guardOps_main_arg4 (after (edgeOps (F := Ideal)) X0)).trans f1_arg4
  have f2_arg5 : (after (guardOps (F := Ideal)) (after (edgeOps (F := Ideal)) X0)) (Proc.devRef .tc main_arg5) = m ((c.tc : Thread nD τ).loc main_arg5) := (keep_guardOps_main_arg5 (after (edgeOps (F := Ideal)) X0)).trans f1_arg5
  have f2_arg6 : (after (guardOps (F := Ideal)) (after (edgeOps (F := Ideal)) X0)) (Proc.devRef .tc main_arg6) = m ((c.tc : Thread nD τ).loc main_arg6) := (keep_guardOps_main_arg6 (after (edgeOps (F := Ideal)) X0)).trans f1_arg6
  have f2_arg7 : (after (guardOps (F := Ideal)) (after (edgeOps (F := Ideal)) X0)) (Proc.devRef .tc main_arg7) = m ((c.tc : Thread nD τ).loc main_arg7) := (keep_guardOps_main_arg7 (after (edgeOps (F := Ideal)) X0)).trans f1_arg7
  have f3_v29 : (after (coefOps (F := Ideal)) (after (guardOps (F := Ideal)) (after (edgeOps (F := Ideal)) X0))) (Proc.devRef .tc main_v29) = val_main_v29 (F := Ideal) (m ((c.tc : Thread nD τ).loc main_arg1)) := coefficient (after (guardOps (F := Ideal)) (after (edgeOps (F := Ideal)) X0)) _ f2_v14 f2_v3 f2_v6
  have f3_v3 : (after (coefOps (F := Ideal)) (after (guardOps (F := Ideal)) (after (edgeOps (F := Ideal)) X0))) (Proc.devRef .tc main_v3) = val_main_v3 (F := Ideal) (m ((c.tc : Thread nD τ).loc main_arg1)) := (keep_coefOps_main_v3 (after (guardOps (F := Ideal)) (after (edgeOps (F := Ideal)) X0))).trans f2_v3
  have f3_v6 : (after (coefOps (F := Ideal)) (after (guardOps (F := Ideal)) (after (edgeOps (F := Ideal)) X0))) (Proc.devRef .tc main_v6) = val_main_v6 (F := Ideal) (m ((c.tc : Thread nD τ).loc main_arg1)) := (keep_coefOps_main_v6 (after (guardOps (F := Ideal)) (after (edgeOps (F := Ideal)) X0))).trans f2_v6
  have f3_arg0 : (after (coefOps (F := Ideal)) (after (guardOps (F := Ideal)) (after (edgeOps (F := Ideal)) X0))) (Proc.devRef .tc main_arg0) = m ((c.tc : Thread nD τ).loc main_arg0) := (keep_coefOps_main_arg0 (after (guardOps (F := Ideal)) (after (edgeOps (F := Ideal)) X0))).trans f2_arg0
  have f3_arg2 : (after (coefOps (F := Ideal)) (after (guardOps (F := Ideal)) (after (edgeOps (F := Ideal)) X0))) (Proc.devRef .tc main_arg2) = m ((c.tc : Thread nD τ).loc main_arg2) := (keep_coefOps_main_arg2 (after (guardOps (F := Ideal)) (after (edgeOps (F := Ideal)) X0))).trans f2_arg2
  have f3_arg3 : (after (coefOps (F := Ideal)) (after (guardOps (F := Ideal)) (after (edgeOps (F := Ideal)) X0))) (Proc.devRef .tc main_arg3) = m ((c.tc : Thread nD τ).loc main_arg3) := (keep_coefOps_main_arg3 (after (guardOps (F := Ideal)) (after (edgeOps (F := Ideal)) X0))).trans f2_arg3
  have f3_arg4 : (after (coefOps (F := Ideal)) (after (guardOps (F := Ideal)) (after (edgeOps (F := Ideal)) X0))) (Proc.devRef .tc main_arg4) = m ((c.tc : Thread nD τ).loc main_arg4) := (keep_coefOps_main_arg4 (after (guardOps (F := Ideal)) (after (edgeOps (F := Ideal)) X0))).trans f2_arg4
  have f3_arg5 : (after (coefOps (F := Ideal)) (after (guardOps (F := Ideal)) (after (edgeOps (F := Ideal)) X0))) (Proc.devRef .tc main_arg5) = m ((c.tc : Thread nD τ).loc main_arg5) := (keep_coefOps_main_arg5 (after (guardOps (F := Ideal)) (after (edgeOps (F := Ideal)) X0))).trans f2_arg5
  have f3_arg6 : (after (coefOps (F := Ideal)) (after (guardOps (F := Ideal)) (after (edgeOps (F := Ideal)) X0))) (Proc.devRef .tc main_arg6) = m ((c.tc : Thread nD τ).loc main_arg6) := (keep_coefOps_main_arg6 (after (guardOps (F := Ideal)) (after (edgeOps (F := Ideal)) X0))).trans f2_arg6
  have f3_arg7 : (after (coefOps (F := Ideal)) (after (guardOps (F := Ideal)) (after (edgeOps (F := Ideal)) X0))) (Proc.devRef .tc main_arg7) = m ((c.tc : Thread nD τ).loc main_arg7) := (keep_coefOps_main_arg7 (after (guardOps (F := Ideal)) (after (edgeOps (F := Ideal)) X0))).trans f2_arg7
  have f4_v46 : (after (pre1Ops (F := Ideal)) (after (coefOps (F := Ideal)) (after (guardOps (F := Ideal)) (after (edgeOps (F := Ideal)) X0)))) (Proc.devRef .tc main_v46) = val_main_v46 (F := Ideal) (m ((c.tc : Thread nD τ).loc main_arg0)) (m ((c.tc : Thread nD τ).loc main_arg1)) (m ((c.tc : Thread nD τ).loc main_arg2)) (m ((c.tc : Thread nD τ).loc main_arg3)) :=
    pre1 (after (coefOps (F := Ideal)) (after (guardOps (F := Ideal)) (after (edgeOps (F := Ideal)) X0))) _ _ _ _ f3_arg0 f3_arg2 f3_arg3 f3_v29 f3_v3 f3_v6
  have f4_v3 : (after (pre1Ops (F := Ideal)) (after (coefOps (F := Ideal)) (after (guardOps (F := Ideal)) (after (edgeOps (F := Ideal)) X0)))) (Proc.devRef .tc main_v3) = val_main_v3 (F := Ideal) (m ((c.tc : Thread nD τ).loc main_arg1)) := (keep_pre1Ops_main_v3 (after (coefOps (F := Ideal)) (after (guardOps (F := Ideal)) (after (edgeOps (F := Ideal)) X0)))).trans f3_v3
  have f4_v6 : (after (pre1Ops (F := Ideal)) (after (coefOps (F := Ideal)) (after (guardOps (F := Ideal)) (after (edgeOps (F := Ideal)) X0)))) (Proc.devRef .tc main_v6) = val_main_v6 (F := Ideal) (m ((c.tc : Thread nD τ).loc main_arg1)) := (keep_pre1Ops_main_v6 (after (coefOps (F := Ideal)) (after (guardOps (F := Ideal)) (after (edgeOps (F := Ideal)) X0)))).trans f3_v6
  have f4_v29 : (after (pre1Ops (F := Ideal)) (after (coefOps (F := Ideal)) (after (guardOps (F := Ideal)) (after (edgeOps (F := Ideal)) X0)))) (Proc.devRef .tc main_v29) = val_main_v29 (F := Ideal) (m ((c.tc : Thread nD τ).loc main_arg1)) := (keep_pre1Ops_main_v29 (after (coefOps (F := Ideal)) (after (guardOps (F := Ideal)) (after (edgeOps (F := Ideal)) X0)))).trans f3_v29
  have f4_arg4 : (after (pre1Ops (F := Ideal)) (after (coefOps (F := Ideal)) (after (guardOps (F := Ideal)) (after (edgeOps (F := Ideal)) X0)))) (Proc.devRef .tc main_arg4) = m ((c.tc : Thread nD τ).loc main_arg4) := (keep_pre1Ops_main_arg4 (after (coefOps (F := Ideal)) (after (guardOps (F := Ideal)) (after (edgeOps (F := Ideal)) X0)))).trans f3_arg4
  have f4_arg5 : (after (pre1Ops (F := Ideal)) (after (coefOps (F := Ideal)) (after (guardOps (F := Ideal)) (after (edgeOps (F := Ideal)) X0)))) (Proc.devRef .tc main_arg5) = m ((c.tc : Thread nD τ).loc main_arg5) := (keep_pre1Ops_main_arg5 (after (coefOps (F := Ideal)) (after (guardOps (F := Ideal)) (after (edgeOps (F := Ideal)) X0)))).trans f3_arg5
  have f4_arg6 : (after (pre1Ops (F := Ideal)) (after (coefOps (F := Ideal)) (after (guardOps (F := Ideal)) (after (edgeOps (F := Ideal)) X0)))) (Proc.devRef .tc main_arg6) = m ((c.tc : Thread nD τ).loc main_arg6) := (keep_pre1Ops_main_arg6 (after (coefOps (F := Ideal)) (after (guardOps (F := Ideal)) (after (edgeOps (F := Ideal)) X0)))).trans f3_arg6
  have f4_arg7 : (after (pre1Ops (F := Ideal)) (after (coefOps (F := Ideal)) (after (guardOps (F := Ideal)) (after (edgeOps (F := Ideal)) X0)))) (Proc.devRef .tc main_arg7) = m ((c.tc : Thread nD τ).loc main_arg7) := (keep_pre1Ops_main_arg7 (after (coefOps (F := Ideal)) (after (guardOps (F := Ideal)) (after (edgeOps (F := Ideal)) X0)))).trans f3_arg7
  have f5_v47 : (after (act1Ops (F := Ideal)) (after (pre1Ops (F := Ideal)) (after (coefOps (F := Ideal)) (after (guardOps (F := Ideal)) (after (edgeOps (F := Ideal)) X0))))) (Proc.devRef .tc main_v47) = val_main_v47 (F := Ideal) (m ((c.tc : Thread nD τ).loc main_arg0)) (m ((c.tc : Thread nD τ).loc main_arg1)) (m ((c.tc : Thread nD τ).loc main_arg2)) (m ((c.tc : Thread nD τ).loc main_arg3)) := act1 (after (pre1Ops (F := Ideal)) (after (coefOps (F := Ideal)) (after (guardOps (F := Ideal)) (after (edgeOps (F := Ideal)) X0)))) _ _ _ _ f4_v46
  have f5_v3 : (after (act1Ops (F := Ideal)) (after (pre1Ops (F := Ideal)) (after (coefOps (F := Ideal)) (after (guardOps (F := Ideal)) (after (edgeOps (F := Ideal)) X0))))) (Proc.devRef .tc main_v3) = val_main_v3 (F := Ideal) (m ((c.tc : Thread nD τ).loc main_arg1)) := (keep_act1Ops_main_v3 (after (pre1Ops (F := Ideal)) (after (coefOps (F := Ideal)) (after (guardOps (F := Ideal)) (after (edgeOps (F := Ideal)) X0))))).trans f4_v3
  have f5_v6 : (after (act1Ops (F := Ideal)) (after (pre1Ops (F := Ideal)) (after (coefOps (F := Ideal)) (after (guardOps (F := Ideal)) (after (edgeOps (F := Ideal)) X0))))) (Proc.devRef .tc main_v6) = val_main_v6 (F := Ideal) (m ((c.tc : Thread nD τ).loc main_arg1)) := (keep_act1Ops_main_v6 (after (pre1Ops (F := Ideal)) (after (coefOps (F := Ideal)) (after (guardOps (F := Ideal)) (after (edgeOps (F := Ideal)) X0))))).trans f4_v6
  have f5_v29 : (after (act1Ops (F := Ideal)) (after (pre1Ops (F := Ideal)) (after (coefOps (F := Ideal)) (after (guardOps (F := Ideal)) (after (edgeOps (F := Ideal)) X0))))) (Proc.devRef .tc main_v29) = val_main_v29 (F := Ideal) (m ((c.tc : Thread nD τ).loc main_arg1)) := (keep_act1Ops_main_v29 (after (pre1Ops (F := Ideal)) (after (coefOps (F := Ideal)) (after (guardOps (F := Ideal)) (after (edgeOps (F := Ideal)) X0))))).trans f4_v29
  have f5_arg4 : (after (act1Ops (F := Ideal)) (after (pre1Ops (F := Ideal)) (after (coefOps (F := Ideal)) (after (guardOps (F := Ideal)) (after (edgeOps (F := Ideal)) X0))))) (Proc.devRef .tc main_arg4) = m ((c.tc : Thread nD τ).loc main_arg4) := (keep_act1Ops_main_arg4 (after (pre1Ops (F := Ideal)) (after (coefOps (F := Ideal)) (after (guardOps (F := Ideal)) (after (edgeOps (F := Ideal)) X0))))).trans f4_arg4
  have f5_arg5 : (after (act1Ops (F := Ideal)) (after (pre1Ops (F := Ideal)) (after (coefOps (F := Ideal)) (after (guardOps (F := Ideal)) (after (edgeOps (F := Ideal)) X0))))) (Proc.devRef .tc main_arg5) = m ((c.tc : Thread nD τ).loc main_arg5) := (keep_act1Ops_main_arg5 (after (pre1Ops (F := Ideal)) (after (coefOps (F := Ideal)) (after (guardOps (F := Ideal)) (after (edgeOps (F := Ideal)) X0))))).trans f4_arg5
  have f5_arg6 : (after (act1Ops (F := Ideal)) (after (pre1Ops (F := Ideal)) (after (coefOps (F := Ideal)) (after (guardOps (F := Ideal)) (after (edgeOps (F := Ideal)) X0))))) (Proc.devRef .tc main_arg6) = m ((c.tc : Thread nD τ).loc main_arg6) := (keep_act1Ops_main_arg6 (after (pre1Ops (F := Ideal)) (after (coefOps (F := Ideal)) (after (guardOps (F := Ideal)) (after (edgeOps (F := Ideal)) X0))))).trans f4_arg6
  have f5_arg7 : (after (act1Ops (F := Ideal)) (after (pre1Ops (F := Ideal)) (after (coefOps (F := Ideal)) (after (guardOps (F := Ideal)) (after (edgeOps (F := Ideal)) X0))))) (Proc.devRef .tc main_arg7) = m ((c.tc : Thread nD τ).loc main_arg7) := (keep_act1Ops_main_arg7 (after (pre1Ops (F := Ideal)) (after (coefOps (F := Ideal)) (after (guardOps (F := Ideal)) (after (edgeOps (F := Ideal)) X0))))).trans f4_arg7
  have f6_v64 : (after (pre2Ops (F := Ideal)) (after (act1Ops (F := Ideal)) (after (pre1Ops (F := Ideal)) (after (coefOps (F := Ideal)) (after (guardOps (F := Ideal)) (after (edgeOps (F := Ideal)) X0)))))) (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    pre2 (after (act1Ops (F := Ideal)) (after (pre1Ops (F := Ideal)) (after (coefOps (F := Ideal)) (after (guardOps (F := Ideal)) (after (edgeOps (F := Ideal)) X0))))) _ _ _ _ _ _ f5_v47 f5_arg4 f5_arg5 f5_v29 f5_v3 f5_v6
  have f6_v3 : (after (pre2Ops (F := Ideal)) (after (act1Ops (F := Ideal)) (after (pre1Ops (F := Ideal)) (after (coefOps (F := Ideal)) (after (guardOps (F := Ideal)) (after (edgeOps (F := Ideal)) X0)))))) (Proc.devRef .tc main_v3) = val_main_v3 (F := Ideal) (m ((c.tc : Thread nD τ).loc main_arg1)) := (keep_pre2Ops_main_v3 (after (act1Ops (F := Ideal)) (after (pre1Ops (F := Ideal)) (after (coefOps (F := Ideal)) (after (guardOps (F := Ideal)) (after (edgeOps (F := Ideal)) X0)))))).trans f5_v3
  have f6_v6 : (after (pre2Ops (F := Ideal)) (after (act1Ops (F := Ideal)) (after (pre1Ops (F := Ideal)) (after (coefOps (F := Ideal)) (after (guardOps (F := Ideal)) (after (edgeOps (F := Ideal)) X0)))))) (Proc.devRef .tc main_v6) = val_main_v6 (F := Ideal) (m ((c.tc : Thread nD τ).loc main_arg1)) := (keep_pre2Ops_main_v6 (after (act1Ops (F := Ideal)) (after (pre1Ops (F := Ideal)) (after (coefOps (F := Ideal)) (after (guardOps (F := Ideal)) (after (edgeOps (F := Ideal)) X0)))))).trans f5_v6
  have f6_v29 : (after (pre2Ops (F := Ideal)) (after (act1Ops (F := Ideal)) (after (pre1Ops (F := Ideal)) (after (coefOps (F := Ideal)) (after (guardOps (F := Ideal)) (after (edgeOps (F := Ideal)) X0)))))) (Proc.devRef .tc main_v29) = val_main_v29 (F := Ideal) (m ((c.tc : Thread nD τ).loc main_arg1)) := (keep_pre2Ops_main_v29 (after (act1Ops (F := Ideal)) (after (pre1Ops (F := Ideal)) (after (coefOps (F := Ideal)) (after (guardOps (F := Ideal)) (after (edgeOps (F := Ideal)) X0)))))).trans f5_v29
  have f6_arg6 : (after (pre2Ops (F := Ideal)) (after (act1Ops (F := Ideal)) (after (pre1Ops (F := Ideal)) (after (coefOps (F := Ideal)) (after (guardOps (F := Ideal)) (after (edgeOps (F := Ideal)) X0)))))) (Proc.devRef .tc main_arg6) = m ((c.tc : Thread nD τ).loc main_arg6) := (keep_pre2Ops_main_arg6 (after (act1Ops (F := Ideal)) (after (pre1Ops (F := Ideal)) (after (coefOps (F := Ideal)) (after (guardOps (F := Ideal)) (after (edgeOps (F := Ideal)) X0)))))).trans f5_arg6
  have f6_arg7 : (after (pre2Ops (F := Ideal)) (after (act1Ops (F := Ideal)) (after (pre1Ops (F := Ideal)) (after (coefOps (F := Ideal)) (after (guardOps (F := Ideal)) (after (edgeOps (F := Ideal)) X0)))))) (Proc.devRef .tc main_arg7) = m ((c.tc : Thread nD τ).loc main_arg7) := (keep_pre2Ops_main_arg7 (after (act1Ops (F := Ideal)) (after (pre1Ops (F := Ideal)) (after (coefOps (F := Ideal)) (after (guardOps (F := Ideal)) (after (edgeOps (F := Ideal)) X0)))))).trans f5_arg7
  have f7_v65 : (after (act2Ops (F := Ideal)) (after (pre2Ops (F := Ideal)) (after (act1Ops (F := Ideal)) (after (pre1Ops (F := Ideal)) (after (coefOps (F := Ideal)) (after (guardOps (F := Ideal)) (after (edgeOps (F := Ideal)) X0))))))) (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := act2 (after (pre2Ops (F := Ideal)) (after (act1Ops (F := Ideal)) (after (pre1Ops (F := Ideal)) (after (coefOps (F := Ideal)) (after (guardOps (F := Ideal)) (after (edgeOps (F := Ideal)) X0)))))) _ _ _ _ _ _ f6_v64
  have f7_v3 : (after (act2Ops (F := Ideal)) (after (pre2Ops (F := Ideal)) (after (act1Ops (F := Ideal)) (after (pre1Ops (F := Ideal)) (after (coefOps (F := Ideal)) (after (guardOps (F := Ideal)) (after (edgeOps (F := Ideal)) X0))))))) (Proc.devRef .tc main_v3) = val_main_v3 (F := Ideal) (m ((c.tc : Thread nD τ).loc main_arg1)) := (keep_act2Ops_main_v3 (after (pre2Ops (F := Ideal)) (after (act1Ops (F := Ideal)) (after (pre1Ops (F := Ideal)) (after (coefOps (F := Ideal)) (after (guardOps (F := Ideal)) (after (edgeOps (F := Ideal)) X0))))))).trans f6_v3
  have f7_v6 : (after (act2Ops (F := Ideal)) (after (pre2Ops (F := Ideal)) (after (act1Ops (F := Ideal)) (after (pre1Ops (F := Ideal)) (after (coefOps (F := Ideal)) (after (guardOps (F := Ideal)) (after (edgeOps (F := Ideal)) X0))))))) (Proc.devRef .tc main_v6) = val_main_v6 (F := Ideal) (m ((c.tc : Thread nD τ).loc main_arg1)) := (keep_act2Ops_main_v6 (after (pre2Ops (F := Ideal)) (after (act1Ops (F := Ideal)) (after (pre1Ops (F := Ideal)) (after (coefOps (F := Ideal)) (after (guardOps (F := Ideal)) (after (edgeOps (F := Ideal)) X0))))))).trans f6_v6
  have f7_v29 : (after (act2Ops (F := Ideal)) (after (pre2Ops (F := Ideal)) (after (act1Ops (F := Ideal)) (after (pre1Ops (F := Ideal)) (after (coefOps (F := Ideal)) (after (guardOps (F := Ideal)) (after (edgeOps (F := Ideal)) X0))))))) (Proc.devRef .tc main_v29) = val_main_v29 (F := Ideal) (m ((c.tc : Thread nD τ).loc main_arg1)) := (keep_act2Ops_main_v29 (after (pre2Ops (F := Ideal)) (after (act1Ops (F := Ideal)) (after (pre1Ops (F := Ideal)) (after (coefOps (F := Ideal)) (after (guardOps (F := Ideal)) (after (edgeOps (F := Ideal)) X0))))))).trans f6_v29
  have f7_arg6 : (after (act2Ops (F := Ideal)) (after (pre2Ops (F := Ideal)) (after (act1Ops (F := Ideal)) (after (pre1Ops (F := Ideal)) (after (coefOps (F := Ideal)) (after (guardOps (F := Ideal)) (after (edgeOps (F := Ideal)) X0))))))) (Proc.devRef .tc main_arg6) = m ((c.tc : Thread nD τ).loc main_arg6) := (keep_act2Ops_main_arg6 (after (pre2Ops (F := Ideal)) (after (act1Ops (F := Ideal)) (after (pre1Ops (F := Ideal)) (after (coefOps (F := Ideal)) (after (guardOps (F := Ideal)) (after (edgeOps (F := Ideal)) X0))))))).trans f6_arg6
  have f7_arg7 : (after (act2Ops (F := Ideal)) (after (pre2Ops (F := Ideal)) (after (act1Ops (F := Ideal)) (after (pre1Ops (F := Ideal)) (after (coefOps (F := Ideal)) (after (guardOps (F := Ideal)) (after (edgeOps (F := Ideal)) X0))))))) (Proc.devRef .tc main_arg7) = m ((c.tc : Thread nD τ).loc main_arg7) := (keep_act2Ops_main_arg7 (after (pre2Ops (F := Ideal)) (after (act1Ops (F := Ideal)) (after (pre1Ops (F := Ideal)) (after (coefOps (F := Ideal)) (after (guardOps (F := Ideal)) (after (edgeOps (F := Ideal)) X0))))))).trans f6_arg7
  have f8_v82 : (after (layer3Ops (F := Ideal)) (after (act2Ops (F := Ideal)) (after (pre2Ops (F := Ideal)) (after (act1Ops (F := Ideal)) (after (pre1Ops (F := Ideal)) (after (coefOps (F := Ideal)) (after (guardOps (F := Ideal)) (after (edgeOps (F := Ideal)) X0)))))))) (Proc.devRef .tc main_v82) = val_main_v82 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
    layer3 (after (act2Ops (F := Ideal)) (after (pre2Ops (F := Ideal)) (after (act1Ops (F := Ideal)) (after (pre1Ops (F := Ideal)) (after (coefOps (F := Ideal)) (after (guardOps (F := Ideal)) (after (edgeOps (F := Ideal)) X0))))))) _ _ _ _ _ _ _ _ f7_v65 f7_arg6 f7_arg7 f7_v29 f7_v3 f7_v6
  exact softmax (after (layer3Ops (F := Ideal)) (after (act2Ops (F := Ideal)) (after (pre2Ops (F := Ideal)) (after (act1Ops (F := Ideal)) (after (pre1Ops (F := Ideal)) (after (coefOps (F := Ideal)) (after (guardOps (F := Ideal)) (after (edgeOps (F := Ideal)) X0)))))))) _ _ _ _ _ _ _ _ f8_v82

variable (ρ : Dev nD → PrngReg)

set_option maxRecDepth 8192 in
set_option maxHeartbeats 48400000 in
/-- On every device, from any memory with zero counters: every weakly fair execution of the reference's @main
    terminates with the result array at the last stage's function of the arguments, and the arguments unchanged. -/
theorem run :
    θ_run defs (onTc (τ := τ) (main (F := Ideal))) ⟨m, fun _ => 0, ρ⟩ fun r => ∀ c : Dev nD,
      r.2.mem ((c.tc : Thread nD τ).loc main_v83) = val_main_v83 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefValue

end
-- ==== Proof.lean ====
/-
  A three-layer graph-convolution network with a final log-softmax, computed two ways, gives one result on the
  extended reals.

  Both programs append a self loop to every node of the edge list, count degrees by a scatter-add of ones, take the
  reciprocal square root of the degree (zero where the degree is not positive) and multiply it at the two ends of each
  edge into a per-edge coefficient. Each layer then multiplies the node features by a weight, gathers the rows at the
  edges' sources, scales them by the coefficient, scatter-adds them at the destinations and adds a bias; the first two
  layers take the positive part, the last the log-softmax of each row.

  The reference does all of this with whole-array host operations. The kernel's program keeps the edge data and the
  three aggregations as the same host operations, and computes the three products and the three row-wise layers in six
  regions, each over ten blocks of 10000 rows. A product's row depends on the same row of its left operand only, and the
  bias, the positive part and the log-softmax act on each row by itself, so a region's ten blocks are the blocks of
  the whole-array layer (Rows0 … Rows5, over Cert.GcnRows); rounding a product's operands to a narrower format is the
  identity at the ideal values. Walking the kernel's run boundary by boundary (Chain), its result array is the
  reference's last stage of the same eight arguments (RefValue, RefLayers). No law of arithmetic beyond "the maximum
  with minus infinity changes nothing" and "adding zero changes nothing" is used, so the inputs' finiteness is not.
-/
import proofs.«163187_j24257975287859_1_alg».proof.Defs
import proofs.«163187_j24257975287859_1_alg».proof.Proof.Gen.Kernel
import proofs.«163187_j24257975287859_1_alg».proof.Proof.Gen.Kernel.Skeleton
import proofs.«163187_j24257975287859_1_alg».proof.Proof.Gen.Kernel.Launch
import proofs.«163187_j24257975287859_1_alg».proof.Proof.Gen.Kernel.Points
import proofs.«163187_j24257975287859_1_alg».proof.Proof.Gen.Kernel.Frame
import proofs.«163187_j24257975287859_1_alg».proof.Proof.Gen.KernelIdeal
import proofs.«163187_j24257975287859_1_alg».proof.Proof.Gen.KernelIdeal.Skeleton
import proofs.«163187_j24257975287859_1_alg».proof.Proof.Gen.KernelIdeal.Launch
import proofs.«163187_j24257975287859_1_alg».proof.Proof.Gen.KernelIdeal.Points
import proofs.«163187_j24257975287859_1_alg».proof.Proof.Gen.KernelIdeal.Frame
import proofs.«163187_j24257975287859_1_alg».proof.Proof.Gen.ReferenceIdeal
import proofs.«163187_j24257975287859_1_alg».proof.Proof.Gen.Pre_finite_inputs
import proofs.«163187_j24257975287859_1_alg».proof.Proof.Chain
import proofs.«163187_j24257975287859_1_alg».proof.Proof.RefValue
import Idealize.ShloMosaic.Adequacy
import Idealize.ShloMosaic.Init

noncomputable section

namespace Cert.Proof

open Idealize.ShloMosaic Idealize.SL.Sem

/-- The word-level kernel's program runs and keeps its arguments. -/
theorem frame_kernel : Cert.frame_Kernel := fun m ρ _ => Cert.Kernel.Gen.frame m ρ

/-- The idealized kernel's program runs and keeps its arguments. -/
theorem frame_kernelIdeal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.RefValue.run m ρ)

/-- The idealization rewrote nothing. -/
theorem preserves : Cert.preserves_Kernel_KernelIdeal := trivial

/-- From memories agreeing on the arguments both programs end with the result array at the network's value: the
    reference's last stage of the eight argument arrays. -/
theorem algebraic : Cert.algebraic_KernelIdeal_ReferenceIdeal := by
  intro m ρ m' ρ' _ hagree
  refine ⟨fun c => Cert.ReferenceIdeal.ReadP.val_main_v83 (F := Ideal)
      (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Chain.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7⟩ := hagree c
  rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
